-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x512 : Shape := ⟨2, ![1, 512]⟩
abbrev S1x1024 : Shape := ⟨2, ![1, 1024]⟩
abbrev S512x128 : Shape := ⟨2, ![512, 128]⟩
abbrev S1024x128 : Shape := ⟨2, ![1024, 128]⟩
abbrev S512x1 : Shape := ⟨2, ![512, 1]⟩
abbrev S512x1024 : Shape := ⟨2, ![512, 1024]⟩
abbrev S128x1024 : Shape := ⟨2, ![128, 1024]⟩
abbrev S512 : Shape := ⟨1, ![512]⟩

abbrev nBuf : Space → Nat
  | .hbm => 27
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .bf16⟩
  | .hbm, ⟨13, _⟩ => ⟨S1x8192, .i32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .local _ .vmem, ⟨0, _⟩ => ⟨S1x512, .i32⟩
  | .local _ .vmem, ⟨1, _⟩ => ⟨S1x512, .i32⟩
  | .local _ .vmem, ⟨2, _⟩ => ⟨S1x1024, .i32⟩
  | .local _ .vmem, ⟨3, _⟩ => ⟨S1x1024, .i32⟩
  | .local _ .vmem, ⟨4, _⟩ => ⟨S512x128, .bf16⟩
  | .local _ .vmem, ⟨5, _⟩ => ⟨S512x128, .bf16⟩
  | .local _ .vmem, ⟨6, _⟩ => ⟨S1024x128, .bf16⟩
  | .local _ .vmem, ⟨7, _⟩ => ⟨S1024x128, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_34 : BitVec 32 := 0#32
  let v77 : BitVec 1 := Scalar.cmpi .ne v76 c0_i32_34
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1_d0_w32 : S512x1.Iotas .tc 32 [0]
  iota_S1x1024_d1_w32 : S1x1024.Iotas .tc 32 [1]
  broadcasts_S512x1_S512x1024 : S512x1.Broadcasts S512x1024
  broadcasts_S1x1024_S512x1024 : S1x1024.Broadcasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S1x512_p1_0_S512x1 : S1x512.Transposes [1, 0] S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  natLt_1_32 : 1 < 32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S512x1024_S512 : S512x1024.Reduces [1] S512
  shapeCasts_S512_S512x1 : S512.ShapeCasts S512x1
  reducesTo_S8192x1_S_d0_1 : S8192x1.ReducesTo [0, 1] S_
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x8192.size a
  hwx0_0 : ∀ i : grid0.Coords, EltTy.bits .i32 = 32 ∨ (Rect.block (s := S1x8192) S1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .i32 = 32 ∨ (Rect.block (s := S1x8192) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .bf16 = 32 ∨ (Rect.block (s := S8192x128) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v6) S1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .i1⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  shapeCasts_S8192_S8192x1 : S8192.ShapeCasts S8192x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBBase.lean ====
/-
  The kernel's frame, first part: what the runs of the kernel body share.
  The grid has 16 × 8 points, point `t` at row block `t / 8` and column block `t % 8`. The body resets its four
  running quantities (the running maximum, the two running sums and the running count, each one column of 512
  rows) at the first column block, updates them at every column block, and at the last column block writes the
  row block's losses and indicators into the two output blocks. So a point is in one of three cases —
  first column block, a middle one, the last one — decided by `t % 8`; the two output blocks are untouched
  except in the last case, and are written back to their arrays only there.
-/
import proofs.«145336_j13005160973089_1_alg».proof.Proof.Gen.Kernel.Launch
import proofs.«145336_j13005160973089_1_alg».proof.Proof.Gen.Kernel.Skeleton
import proofs.«145336_j13005160973089_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The body's first conditional: the column block is the first. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second conditional: the column block is the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the two outputs are idle and not written back; at it they are live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The four scratch operands: the running maximum, the two running sums, the running count. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- A view of a column of 512, through which the contents of the scratch operands and of the output blocks are stated. -/
abbrev VS : View sig .tc .vmem S512x1 .f32 := scM0_0.view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Frame

end
-- ==== Proof.KBRunA.lean ====
/-
  The kernel's frame: the run of the whole kernel body at a point of the FIRST column block, on whole staging memrefs.
  The body is followed statement by statement: each load reads what its buffer holds, each store is recorded as a written
  piece of its buffer; what each scratch operand (and, in the last case, each output block) ends with is the list of its
  written pieces.
-/
import proofs.«145336_j13005160973089_1_alg».proof.Proof.KBBase

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first column block: the four scratch operands, at anything before, are reset and then updated with the block's
    contribution; the two output blocks are handed back untouched. -/
noncomputable def kernelRun0_A (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x2 : Vec F S1x512 .i32) (x3 : Vec F S1x1024 .i32) (x4 : Vec F S512x128 .bf16) (x5 : Vec F S1024x128 .bf16) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi6 xi7 : Vec F S512x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xi7
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi6 xi7 E K => ?run⟩
  case run =>
    rw [cc0__contrastive_kernel_eq_skeleton]; unfold cc0__contrastive_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, HS0⟩, ⟨%d9, %f9, -, HS1⟩, ⟨%d10, %f10, -, HS2⟩, ⟨%d11, %f11, -, HS3⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    isplitl [HS1]; · iexists _; iexact HS1
    isplitl [HS2]; · iexists _; iexact HS2
    iexists _; iexact HS3

end Cert.Kernel.Frame

end
-- ==== Proof.KBRunB.lean ====
/-
  The kernel's frame: the run of the whole kernel body at a point of a MIDDLE column block, on whole staging memrefs.
  The body is followed statement by statement: each load reads what its buffer holds, each store is recorded as a written
  piece of its buffer; what each scratch operand (and, in the last case, each output block) ends with is the list of its
  written pieces.
-/
import proofs.«145336_j13005160973089_1_alg».proof.Proof.KBBase

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle column block: the four scratch operands, at what the point before left, are updated with the block's
    contribution; the two output blocks are handed back untouched. -/
noncomputable def kernelRun0_B (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x2 : Vec F S1x512 .i32) (x3 : Vec F S1x1024 .i32) (x4 : Vec F S512x128 .bf16) (x5 : Vec F S1024x128 .bf16)
    (xs8 xs9 xs10 xs11 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi6 xi7 : Vec F S512x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi6 xi7 E K => ?run⟩
  case run =>
    rw [cc0__contrastive_kernel_eq_skeleton]; unfold cc0__contrastive_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HS0⟩, ⟨%f9, %hf9, HS1⟩, ⟨%f10, %hf10, HS2⟩, ⟨%f11, %hf11, HS3⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    isplitl [HS1]; · iexists _; iexact HS1
    isplitl [HS2]; · iexists _; iexact HS2
    iexists _; iexact HS3

end Cert.Kernel.Frame

end
-- ==== Proof.KBRunC.lean ====
/-
  The kernel's frame: the run of the whole kernel body at a point of the LAST column block, on whole staging memrefs.
  The body is followed statement by statement: each load reads what its buffer holds, each store is recorded as a written
  piece of its buffer; what each scratch operand (and, in the last case, each output block) ends with is the list of its
  written pieces.
-/
import proofs.«145336_j13005160973089_1_alg».proof.Proof.KBBase

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last column block: the four scratch operands, at what the point before left, are updated with the block's
    contribution, and the two output blocks, at anything before, are written from them. -/
noncomputable def kernelRun0_C (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x2 : Vec F S1x512 .i32) (x3 : Vec F S1x1024 .i32) (x4 : Vec F S512x128 .bf16) (x5 : Vec F S1024x128 .bf16)
    (xs8 xs9 xs10 xs11 : Vec F S512x1 .f32) :
    Σ' (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    rw [cc0__contrastive_kernel_eq_skeleton]; unfold cc0__contrastive_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, HS0⟩, ⟨%f9, %hf9, HS1⟩, ⟨%f10, %hf10, HS2⟩, ⟨%f11, %hf11, HS3⟩, Hk⟩
    obtain rfl := harg2.eq_unread hf2; obtain rfl := harg3.eq_unread hf3; obtain rfl := harg4.eq_unread hf4; obtain rfl := harg5.eq_unread hf5
    obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.Kernel.Frame

end
-- ==== Proof.KBFrame.lean ====
/-
  The kernel's frame: what the four running quantities and the two output blocks hold after each grid
  point, the proof data of the pipeline, and the body obligation at every point.
  After point `t` the scratch operands hold what the case of `t` (first, middle or last column block) leaves in
  them, computed from the point's input blocks and — except in the first case, which resets them — from what
  the point before left; the output blocks hold what the last case writes. This is a recursion on the point.
-/
import proofs.«145336_j13005160973089_1_alg».proof.Proof.KBRunA
import proofs.«145336_j13005160973089_1_alg».proof.Proof.KBRunB
import proofs.«145336_j13005160973089_1_alg».proof.Proof.KBRunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: unfetched, the block
    index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The three cases at a point -/

/-- The first column block's run at point `t`. -/
abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk V c 0 t) (iblk V c 1 t) (iblk V c 2 t) (iblk V c 3 t)
/-- A middle column block's run at point `t`, the scratch operands found at `xs·`. -/
abbrev runB (c : Dev nD) (t : Fin cfg0.N) (h0 : ¬t.val % 8 = 0) (h1 : ¬t.val % 8 = 7) (xs8 xs9 xs10 xs11 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk V c 0 t) (iblk V c 1 t) (iblk V c 2 t) (iblk V c 3 t) xs8 xs9 xs10 xs11
/-- The last column block's run at point `t`, the scratch operands found at `xs·`. -/
abbrev runC (c : Dev nD) (t : Fin cfg0.N) (h0 : ¬t.val % 8 = 0) (h1 : t.val % 8 = 7) (xs8 xs9 xs10 xs11 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk V c 0 t) (iblk V c 1 t) (iblk V c 2 t) (iblk V c 3 t) xs8 xs9 xs10 xs11

/-- A list of written pieces read back as a column of 512 (over contents that do not matter once the pieces cover it). -/
def rd (L : List (View.Piece (Elt F) S512x1 .f32)) : Vec F S512x1 .f32 :=
  VS.read (Elt F) (VS.writes (Elt F) VS.junk L)

/-- What the two output blocks (`o4`, `o5`) and the four scratch operands (`s0` … `s3`) hold after a point. -/
structure Outs (F : FTy → Type) where
  o4 : Vec F S512x1 .f32
  o5 : Vec F S512x1 .f32
  s0 : Vec F S512x1 .f32
  s1 : Vec F S512x1 .f32
  s2 : Vec F S512x1 .f32
  s3 : Vec F S512x1 .f32

/-- After a point of the first case: the scratch operands at the run's pieces; the output blocks are not consulted. -/
def outsA (c : Dev nD) (t : Fin cfg0.N) (h0 : t.val % 8 = 0) (h1 : ¬t.val % 8 = 7) : Outs F :=
  ⟨rd [], rd [], rd (runA V c t h0 h1).1, rd (runA V c t h0 h1).2.1, rd (runA V c t h0 h1).2.2.1, rd (runA V c t h0 h1).2.2.2.1⟩
/-- After a point of a middle case, over what the point before left (`p`). -/
def outsB (c : Dev nD) (t : Fin cfg0.N) (h0 : ¬t.val % 8 = 0) (h1 : ¬t.val % 8 = 7) (p : Outs F) : Outs F :=
  ⟨rd [], rd [], rd (runB V c t h0 h1 p.s0 p.s1 p.s2 p.s3).1, rd (runB V c t h0 h1 p.s0 p.s1 p.s2 p.s3).2.1, rd (runB V c t h0 h1 p.s0 p.s1 p.s2 p.s3).2.2.1, rd (runB V c t h0 h1 p.s0 p.s1 p.s2 p.s3).2.2.2.1⟩
/-- After a point of the last case, over what the point before left (`p`). -/
def outsC (c : Dev nD) (t : Fin cfg0.N) (h0 : ¬t.val % 8 = 0) (h1 : t.val % 8 = 7) (p : Outs F) : Outs F :=
  ⟨rd (runC V c t h0 h1 p.s0 p.s1 p.s2 p.s3).1, rd (runC V c t h0 h1 p.s0 p.s1 p.s2 p.s3).2.1, rd (runC V c t h0 h1 p.s0 p.s1 p.s2 p.s3).2.2.1, rd (runC V c t h0 h1 p.s0 p.s1 p.s2 p.s3).2.2.2.1, rd (runC V c t h0 h1 p.s0 p.s1 p.s2 p.s3).2.2.2.2.1, rd (runC V c t h0 h1 p.s0 p.s1 p.s2 p.s3).2.2.2.2.2.1⟩

/-- THE ACCUMULATION: what the output blocks and the scratch operands hold after the body at position `n`. -/
def outsAt0 (c : Dev nD) : (n : ℕ) → n < cfg0.N → Outs F
  | 0, hn => outsA V c ⟨0, hn⟩ (Nat.zero_mod _) (by show ¬(0 % 8 = 7); decide)
  | n + 1, hn =>
    if h0 : (n + 1) % 8 = 0 then outsA V c ⟨n + 1, hn⟩ h0 (by dsimp only; omega)
    else if h1 : (n + 1) % 8 = 7 then outsC V c ⟨n + 1, hn⟩ h0 h1 (outsAt0 c n (Nat.lt_of_succ_lt hn))
    else outsB V c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 V c t.val t.isLt = outsA V c t h0 h1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = outsB V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = outsC V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant: the scratch operands at what the point before left -/

def PhiS (c : Dev nD) : (n : ℕ) → n ≤ cfg0.N → sProp 𝕄
  | 0, _ => Pipeline.ΦA spec0 c
  | n + 1, hn => iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3) ∗ (∃ r, prngReg c r)) := by
  cases n with
  | zero => exact absurd rfl hz
  | succ n => rfl

/-! ## The pipeline's proof data -/

/-- The proof data on core `c`: the arrays as the region finds them; after the body at point `t` each input's buffer at
    its block and the outputs' at the accumulation; the invariant the scratch operands at the accumulation; nothing owed.
    The labels' array and the embeddings' array are each read through two windows, so each window holds half of it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).o4
    | ⟨5, _⟩ => (outsAt0 V c t.val t.isLt).o5
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d

end Cert.Kernel.Frame

end
-- ==== Proof.KBBody.lean ====
/-
  The kernel's frame: the body obligation. At every grid point the body, handed each input window's block,
  the two output buffers and the region invariant (the four scratch operands at what the point before left), runs to
  the next point's invariant and leaves each buffer at the proof data's contents. By cases on the point's column block.
-/
import proofs.«145336_j13005160973089_1_alg».proof.Proof.KBFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each run's pieces tile the column they are written into, so they cover it -/

theorem scover0_A_0 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) (y : S512x1.Idx) :
    ∃ pc ∈ (kernelRun0_A (F := F) c i arg2 harg2 arg3 harg3 arg4 harg4 arg5 harg5 arg6 harg6 arg7 harg7 arg8 harg8 arg9 harg9 arg10 harg10 arg11 harg11 hc0 hc1 x2 x3 x4 x5).1, y ∈ pc.1.set :=
  View.cover_of_tiledL (kernelRun0_A (F := F) c i arg2 harg2 arg3 harg3 arg4 harg4 arg5 harg5 arg6 harg6 arg7 harg7 arg8 harg8 arg9 harg9 arg10 harg10 arg11 harg11 hc0 hc1 x2 x3 x4 x5).1 S512x1.size (by sl_kernel_rfl) y
theorem scover0_A_1 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) (y : S512x1.Idx) :
    ∃ pc ∈ (kernelRun0_A (F := F) c i arg2 harg2 arg3 harg3 arg4 harg4 arg5 harg5 arg6 harg6 arg7 harg7 arg8 harg8 arg9 harg9 arg10 harg10 arg11 harg11 hc0 hc1 x2 x3 x4 x5).2.1, y ∈ pc.1.set :=
  View.cover_of_tiledL (kernelRun0_A (F := F) c i arg2 harg2 arg3 harg3 arg4 harg4 arg5 harg5 arg6 harg6 arg7 harg7 arg8 harg8 arg9 harg9 arg10 harg10 arg11 harg11 hc0 hc1 x2 x3 x4 x5).2.1 S512x1.size (by sl_kernel_rfl) y
theorem scover0_A_2 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) (y : S512x1.Idx) :
    ∃ pc ∈ (kernelRun0_A (F := F) c i arg2 harg2 arg3 harg3 arg4 harg4 arg5 harg5 arg6 harg6 arg7 harg7 arg8 harg8 arg9 harg9 arg10 harg10 arg11 harg11 hc0 hc1 x2 x3 x4 x5).2.2.1, y ∈ pc.1.set :=
  View.cover_of_tiledL (kernelRun0_A (F := F) c i arg2 harg2 arg3 harg3 arg4 harg4 arg5 harg5 arg6 harg6 arg7 harg7 arg8 harg8 arg9 harg9 arg10 harg10 arg11 harg11 hc0 hc1 x2 x3 x4 x5).2.2.1 S512x1.size (by sl_kernel_rfl) y
theorem scover0_A_3 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) (y : S512x1.Idx) :
    ∃ pc ∈ (kernelRun0_A (F := F) c i arg2 harg2 arg3 harg3 arg4 harg4 arg5 harg5 arg6 harg6 arg7 harg7 arg8 harg8 arg9 harg9 arg10 harg10 arg11 harg11 hc0 hc1 x2 x3 x4 x5).2.2.2.1, y ∈ pc.1.set :=
  View.cover_of_tiledL (kernelRun0_A (F := F) c i arg2 harg2 arg3 harg3 arg4 harg4 arg5 harg5 arg6 harg6 arg7 harg7 arg8 harg8 arg9 harg9 arg10 harg10 arg11 harg11 hc0 hc1 x2 x3 x4 x5).2.2.2.1 S512x1.size (by sl_kernel_rfl) y
theorem scover0_B_0 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).1, y ∈ pc.1.set :=
  View.cover_of_tiledL (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).1 S512x1.size (by sl_kernel_rfl) y
theorem scover0_B_1 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1, y ∈ pc.1.set :=
  View.cover_of_tiledL (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1 S512x1.size (by sl_kernel_rfl) y
theorem scover0_B_2 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1, y ∈ pc.1.set :=
  View.cover_of_tiledL (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1 S512x1.size (by sl_kernel_rfl) y
theorem scover0_B_3 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1, y ∈ pc.1.set :=
  View.cover_of_tiledL (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1 S512x1.size (by sl_kernel_rfl) y
theorem cover0_C_0 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).1 S512x1.size (by sl_kernel_rfl) y
theorem cover0_C_1 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1 S512x1.size (by sl_kernel_rfl) y
theorem cover0_C_2 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1 S512x1.size (by sl_kernel_rfl) y
theorem cover0_C_3 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1 S512x1.size (by sl_kernel_rfl) y
theorem cover0_C_4 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.1 S512x1.size (by sl_kernel_rfl) y
theorem cover0_C_5 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.2.1 S512x1.size (by sl_kernel_rfl) y

variable (V : (c : Dev nD) → (b : Ref sig .tc) → Buf (Elt F) ((c : Thread nD τ).loc b))

/-! ## The body obligation at a point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [outsAt0_A V c t h0 h1]
    unfold outsA rd; (try dsimp only)
    by_cases hz : t.val = 0
    · rw [PhiS_castSucc V c t, PhiS_zero V c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 _ _ _ _ _ _ _ _ _ _ _ _ _ _ _ _ _ _ _ _ _ _ _ _ _ _ _ _)
          · unfold owns; iexists _; isplitr
            swap; · iexact HS3
            ipureintro; exact View.read_writes_of_cover _ _ _ _ _ (scover0_A_3 _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 _ _ _ _ _ _ _ _ _ _ _ _ _ _ _ _ _ _ _ _ _ _ _ _ _ _ _ _)
          · unfold owns; iexists _; isplitr
            swap; · iexact HS3
            ipureintro; exact View.read_writes_of_cover _ _ _ _ _ (scover0_A_3 _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold outsC rd; (try dsimp only)
      rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runC V c t h0 h1 _ _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_C_2 _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_C_3 _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_C_4 _ _ _ _ _ _ _ _ _ _ _ _ _ _ _ _ _ _ _ _ _ _ _ _ _ _ _ _ _ _ _ _)
          · unfold owns; iexists _; isplitr
            swap; · iexact HS3
            ipureintro; exact View.read_writes_of_cover _ _ _ _ _ (cover0_C_5 _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_0 _ _ _ _ _ _ _ _ _ _ _ _ _ _ _ _ _ _ _ _ _ _ _ _ _ _ _ _ _ _ _ _)
      · unfold owns; iexists _; isplitr
        swap; · iexact H5
        ipureintro; exact View.read_writes_of_cover _ _ _ _ _ (cover0_C_1 _ _ _ _ _ _ _ _ _ _ _ _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold outsB rd; (try dsimp only)
      rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runB V c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 _ _ _ _ _ _ _ _ _ _ _ _ _ _ _ _ _ _ _ _ _ _ _ _ _ _ _ _ _ _ _ _)
          · unfold owns; iexists _; isplitr
            swap; · iexact HS3
            ipureintro; exact View.read_writes_of_cover _ _ _ _ _ (scover0_B_3 _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Frame

end
-- ==== Proof.KBVals.lean ====
/-
  The kernel's frame: the buffer contents at each boundary of @main — at the launch, after each stretch of
  host operations, and at the region's exit, where the two result arrays hold what the region's write-backs leave
  and every other buffer what it held at the region's entry.
-/
import proofs.«145336_j13005160973089_1_alg».proof.Proof.KBFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the norm's operations. -/
abbrev W1 : Dev nD → Valuation τ sig (Elt F) := fun c => StableHlo.after hostOps0 (W0 m ρ c)
/-- After the normalisation and the labels' reshape: the region's entry. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- At the region's exit: the two result arrays at what the write-backs leave, every other buffer as entered. -/
def W3 (c : Dev nD) : Valuation τ sig (Elt F) :=
  Function.update (Function.update (W2 m ρ c) (Proc.devRef .tc main_v7_0) ((dat0 (V2 m ρ) c).arrAt 4 cfg0.N))
    (Proc.devRef .tc main_v7_1) ((dat0 (V2 m ρ) c).arrAt 5 cfg0.N)
/-- The same read at the TensorCore's references. -/
abbrev V3 : (c : Dev nD) → (b : Ref sig .tc) → Buf (Elt F) ((c : Thread nD τ).loc b) := fun c b => W3 m ρ c b
/-- After the sums, the quotient and the comparison. -/
abbrev W4 : Dev nD → Valuation τ sig (Elt F) := fun c => StableHlo.after hostOps1 (W3 m ρ c)
/-- After the final selection: the return. -/
abbrev W5 : Dev nD → Valuation τ sig (Elt F) := fun c => StableHlo.after hostOps1_1 (W4 m ρ c)

theorem W3_v7_0 (c : Dev nD) : W3 m ρ c (Proc.devRef .tc main_v7_0) = (dat0 (V2 m ρ) c).arrAt 4 cfg0.N := by
  unfold W3
  rw [Function.update_of_ne (by decide), Function.update_self]
theorem W3_v7_1 (c : Dev nD) : W3 m ρ c (Proc.devRef .tc main_v7_1) = (dat0 (V2 m ρ) c).arrAt 5 cfg0.N := by
  unfold W3
  rw [Function.update_self]
theorem W3_of_ne (c : Dev nD) (b : Ref sig .tc) (h0 : b ≠ main_v7_0) (h1 : b ≠ main_v7_1) :
    W3 m ρ c (Proc.devRef .tc b) = W2 m ρ c (Proc.devRef .tc b) := by
  unfold W3
  rw [Function.update_of_ne (fun e => h1 (Proc.devRef_injective _ e)), Function.update_of_ne (fun e => h0 (Proc.devRef_injective _ e))]

end Cert.Kernel.Frame

end
-- ==== Proof.KBRun.lean ====
/-
  The kernel's frame: @main as its host stretches and the one kernel region, run from the launch to the
  return. The labels' array and the embeddings' array are each read by the region through two windows: at the region's
  entry each is split into two half shares, one per window, and at its exit the halves are joined again. The run's
  conclusion names every unscoped buffer's final contents: the fold of the host stretches and the region's results.
-/
import proofs.«145336_j13005160973089_1_alg».proof.Proof.KBBody
import proofs.«145336_j13005160973089_1_alg».proof.Proof.KBVals
import Idealize.ShloMosaic.Lib.Pipeline.RegionsLoop

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Split
variable (V : (c : Dev nD) → (b : Ref sig .tc) → Buf (Elt F) ((c : Thread nD τ).loc b))

/-- The four distinct buffers behind the six windows' arrays, one by one. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v6) ↦{fullShare} Vc main_v6) ∗ (((c : Thread nD τ).loc main_v5) ↦{fullShare} Vc main_v5)
          ∗ (((c : Thread nD τ).loc main_v7_0) ↦{fullShare} Vc main_v7_0) ∗ (((c : Thread nD τ).loc main_v7_1) ↦{fullShare} Vc main_v7_1)) := by
  unfold Pipeline.arrBufs
  exact bigSep_eq_bigSepL_of_eq [main_v6, main_v5, main_v7_0, main_v7_1] (by decide) (by decide) _

/-- The pipeline's arrays, window by window, at their shares. -/
theorem arrays_chain (c : Dev nD) (Fv : (w : Fin cfg0.W) → Buf (Elt F) ((cfg0.win w).arr.view.loc (c : Thread nD τ))) :
    ((dat0 V c).arrays Fv : sProp 𝕄)
      = iprop((((c : Thread nD τ).loc main_v6) ↦{fullShare.left} Fv 0) ∗ (((c : Thread nD τ).loc main_v6) ↦{fullShare.right} Fv 1)
          ∗ (((c : Thread nD τ).loc main_v5) ↦{fullShare.left} Fv 2) ∗ (((c : Thread nD τ).loc main_v5) ↦{fullShare.right} Fv 3)
          ∗ (((c : Thread nD τ).loc main_v7_0) ↦{fullShare} Fv 4) ∗ (((c : Thread nD τ).loc main_v7_1) ↦{fullShare} Fv 5)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ]
  rfl

end Split

variable (m : (ℓ : Loc nD τ sig) → Buf (Elt F) ℓ) (ρ : Dev nD → PrngReg)

/-- ENTRY: the unscoped buffers at the entry contents are the pipeline's arrays — the two shared ones each split
    into its two windows' halves — and the rest. -/
theorem entry_split (c : Dev nD) :
    (unscopedBufs c (V2 m ρ c) : sProp 𝕄)
      ⊢ iprop((dat0 (V2 m ρ) c).arrays ((dat0 (V2 m ρ) c).arrAt · 0) ∗ Pipeline.unscopedRest spec0 c (V2 m ρ c)) := by
  rw [Pipeline.unscopedBufs_split₀ cfgs 0 winFacts₀0.arr_unscoped c (V2 m ρ c)]
  refine sep_mono ?_ .rfl
  rw [arrBufs_eq, arrays_chain]
  iintro ⟨H6, H5, H70, H71⟩
  ihave H6' := (pointsTo_share (PosShare.mem_left_op_right fullShare)).1 $$ H6
  icases H6' with ⟨H6l, H6r⟩
  ihave H5' := (pointsTo_share (PosShare.mem_left_op_right fullShare)).1 $$ H5
  icases H5' with ⟨H5l, H5r⟩
  isplitl [H6l]; · iexact H6l
  isplitl [H6r]; · iexact H6r
  isplitl [H5l]; · iexact H5l
  isplitl [H5r]; · iexact H5r
  isplitl [H70]; · iexact H70
  iexact H71

/-- EXIT: the pipeline's arrays at their final contents — the shared ones' halves joined — and the rest are the
    unscoped buffers at the exit contents. -/
theorem exit_join (c : Dev nD) :
    iprop((dat0 (V2 m ρ) c).arrays ((dat0 (V2 m ρ) c).arrAt · cfg0.N) ∗ Pipeline.unscopedRest spec0 c (V2 m ρ c))
      ⊢ (unscopedBufs c (V3 m ρ c) : sProp 𝕄) := by
  rw [Pipeline.unscopedBufs_split₀ cfgs 0 winFacts₀0.arr_unscoped c (V3 m ρ c)]
  refine sep_mono ?_ (Entails.of_eq ?_)
  · rw [arrBufs_eq, arrays_chain]
    rw [(dat0 (V2 m ρ) c).arrAt_in 0 rfl cfg0.N, (dat0 (V2 m ρ) c).arrAt_in 1 rfl cfg0.N,
      (dat0 (V2 m ρ) c).arrAt_in 2 rfl cfg0.N, (dat0 (V2 m ρ) c).arrAt_in 3 rfl cfg0.N]
    rw [show V3 m ρ c main_v6 = V2 m ρ c main_v6 from W3_of_ne m ρ c main_v6 (by decide) (by decide),
      show V3 m ρ c main_v5 = V2 m ρ c main_v5 from W3_of_ne m ρ c main_v5 (by decide) (by decide),
      show V3 m ρ c main_v7_0 = (dat0 (V2 m ρ) c).arrAt 4 cfg0.N from W3_v7_0 m ρ c,
      show V3 m ρ c main_v7_1 = (dat0 (V2 m ρ) c).arrAt 5 cfg0.N from W3_v7_1 m ρ c]
    iintro ⟨H6l, H6r, H5l, H5r, H70, H71⟩
    isplitl [H6l H6r]
    · iapply (pointsTo_share (PosShare.mem_left_op_right fullShare)).2
      isplitl [H6l]; · iexact H6l
      iexact H6r
    isplitl [H5l H5r]
    · iapply (pointsTo_share (PosShare.mem_left_op_right fullShare)).2
      isplitl [H5l]; · iexact H5l
      iexact H5r
    isplitl [H70]; · iexact H70
    iexact H71
  · unfold Pipeline.unscopedRest
    exact bigSep_congr fun b hb => by
      rw [show V3 m ρ c b = V2 m ρ c b from W3_of_ne m ρ c b
        (fun e => (Finset.mem_sdiff.mp hb).2 (e ▸ Finset.mem_image.mpr ⟨4, Finset.mem_univ _, rfl⟩))
        (fun e => (Finset.mem_sdiff.mp hb).2 (e ▸ Finset.mem_image.mpr ⟨5, Finset.mem_univ _, rfl⟩))]

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents. -/
abbrev Tₙ (c : Dev nD) : sProp 𝕄 := iprop(StableHlo.held (c : Thread nD τ) (Pipeline.ucRefs τ sig) (W5 m ρ c) ∗ ∃ r, prngReg c r)

/-- After any point but the first the invariant gives the class invariant back: the scratch operands' contents are forgotten. -/
theorem Phi_out (c : Dev nD) (t : Fin (cfg0.N + 1)) (ht : t.val ≠ 0) : (dat0 (V2 m ρ) c).Φ t ⊢ Pipeline.ΦA spec0 c := by
  rw [show (dat0 (V2 m ρ) c).Φ t = PhiS (V2 m ρ) c t.val (Nat.le_of_lt_succ t.isLt) from rfl, PhiS_pos (V2 m ρ) c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- THE REGION over the thread state: entered from every unscoped buffer at the entry contents, left at the exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out m ρ c (Fin.last _) (by rw [Fin.val_last]; have : cfg0.N = 128 := N_0; omega)).trans ?_
    unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The last host stretch's segment leaves the thread state the launch reads. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .host (hseg hostOps1_1 hostOps1_1_sub hostOps1_1_fresh (W4 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates without a fault, and in
    every final state each unscoped buffer holds the fold of the host stretches and the region's results. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Frame

end
-- ==== Proof.KBKept.lean ====
/-
  The arguments end as launched: no host operation writes an argument's buffer and the region's exit leaves it as it
  was entered, so the contents at the return, read at an argument, walk back through every boundary to the launch memory.
-/
import proofs.«145336_j13005160973089_1_alg».proof.Proof.KBVals
import Idealize.ShloMosaic.Lib.StableHlo.Run

set_option maxRecDepth 16384

noncomputable section

namespace Cert.Kernel.Frame

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- An unscoped buffer of the TensorCore is among the buffers held at the return. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩
theorem main_arg0_mem_uc : Proc.devRef .tc main_arg0 ∈ Pipeline.ucRefs τ sig := mem_ucRefs main_arg0 (by decide)
theorem main_arg1_mem_uc : Proc.devRef .tc main_arg1 ∈ Pipeline.ucRefs τ sig := mem_ucRefs main_arg1 (by decide)
theorem main_v13_mem_uc : Proc.devRef .tc main_v13 ∈ Pipeline.ucRefs τ sig := mem_ucRefs main_v13 (by decide)

/-- A buffer none of the four stretches of host operations writes, and which is neither result array, holds at the return
    what it held at the launch. -/
theorem kept_of_not_written (c : Dev nD) (b : Ref sig .tc) (h0 : b ≠ main_v7_0) (h1 : b ≠ main_v7_1)
    (hA : ∀ op ∈ (hostOps0 : List (HloOp τ sig (Elt F))), Proc.devRef .tc b ∉ op.writes)
    (hB : ∀ op ∈ (hostOps0_1 : List (HloOp τ sig (Elt F))), Proc.devRef .tc b ∉ op.writes)
    (hC : ∀ op ∈ (hostOps1 : List (HloOp τ sig (Elt F))), Proc.devRef .tc b ∉ op.writes)
    (hD : ∀ op ∈ (hostOps1_1 : List (HloOp τ sig (Elt F))), Proc.devRef .tc b ∉ op.writes) :
    W5 m ρ c (Proc.devRef .tc b) = m ((c : Thread nD τ).loc b) :=
  calc W5 m ρ c (Proc.devRef .tc b)
    _ = W4 m ρ c (Proc.devRef .tc b) := StableHlo.after_of_forall_not_mem (b := Proc.devRef .tc b) _ _ hD
    _ = W3 m ρ c (Proc.devRef .tc b) := StableHlo.after_of_forall_not_mem (b := Proc.devRef .tc b) _ _ hC
    _ = W2 m ρ c (Proc.devRef .tc b) := W3_of_ne m ρ c b h0 h1
    _ = W1 m ρ c (Proc.devRef .tc b) := StableHlo.after_of_forall_not_mem (b := Proc.devRef .tc b) _ _ hB
    _ = W0 m ρ c (Proc.devRef .tc b) := StableHlo.after_of_forall_not_mem (b := Proc.devRef .tc b) _ _ hA
    _ = m ((c : Thread nD τ).loc b) := rfl

theorem kept_arg0 (c : Dev nD) : W5 m ρ c (Proc.devRef .tc main_arg0) = m ((c : Thread nD τ).loc main_arg0) := by
  refine kept_of_not_written m ρ c main_arg0 (by decide) (by decide) ?_ ?_ ?_ ?_ <;>
  · refine List.forall_iff_forall_mem.mp ?_
    simp only [hostOps0, hostOps0_1, hostOps1, hostOps1_1, List.Forall, StableHlo.TRef.nullary, StableHlo.TRef.unary,
      StableHlo.TRef.binary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide)

theorem kept_arg1 (c : Dev nD) : W5 m ρ c (Proc.devRef .tc main_arg1) = m ((c : Thread nD τ).loc main_arg1) := by
  refine kept_of_not_written m ρ c main_arg1 (by decide) (by decide) ?_ ?_ ?_ ?_ <;>
  · refine List.forall_iff_forall_mem.mp ?_
    simp only [hostOps0, hostOps0_1, hostOps1, hostOps1_1, List.Forall, StableHlo.TRef.nullary, StableHlo.TRef.unary,
      StableHlo.TRef.binary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide)

end Cert.Kernel.Frame

end
-- ==== Proof.KIBase.lean ====
/-
  The idealized kernel's frame, first part: what the runs of the kernel body share.
  The grid has 16 × 8 points, point `t` at row block `t / 8` and column block `t % 8`. The body resets its four
  running quantities (the running maximum, the two running sums and the running count, each one column of 512
  rows) at the first column block, updates them at every column block, and at the last column block writes the
  row block's losses and indicators into the two output blocks. So a point is in one of three cases —
  first column block, a middle one, the last one — decided by `t % 8`; the two output blocks are untouched
  except in the last case, and are written back to their arrays only there.
-/
import proofs.«145336_j13005160973089_1_alg».proof.Proof.Gen.KernelIdeal.Launch
import proofs.«145336_j13005160973089_1_alg».proof.Proof.Gen.KernelIdeal.Skeleton
import proofs.«145336_j13005160973089_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two branch conditions, decided over the grid -/

/-- The body's first conditional: the column block is the first. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second conditional: the column block is the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the two outputs are idle and not written back; at it they are live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The four scratch operands: the running maximum, the two running sums, the running count. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- A view of a column of 512, through which the contents of the scratch operands and of the output blocks are stated. -/
abbrev VS : View sig .tc .vmem S512x1 .f32 := scM0_0.view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Frame

end
-- ==== Proof.KIRunA.lean ====
/-
  The idealized kernel's frame: the run of the whole kernel body at a point of the FIRST column block, on whole staging memrefs.
  The body is followed statement by statement: each load reads what its buffer holds, each store is recorded as a written
  piece of its buffer; what each scratch operand (and, in the last case, each output block) ends with is the list of its
  written pieces.
-/
import proofs.«145336_j13005160973089_1_alg».proof.Proof.KIBase

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The first column block: the four scratch operands, at anything before, are reset and then updated with the block's
    contribution; the two output blocks are handed back untouched. -/
noncomputable def kernelRun0_A (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x2 : Vec F S1x512 .i32) (x3 : Vec F S1x1024 .i32) (x4 : Vec F S512x128 .bf16) (x5 : Vec F S1024x128 .bf16) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi6 xi7 : Vec F S512x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xi7
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi6 xi7 E K => ?run⟩
  case run =>
    rw [cc0__contrastive_kernel_eq_skeleton]; unfold cc0__contrastive_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, HS0⟩, ⟨%d9, %f9, -, HS1⟩, ⟨%d10, %f10, -, HS2⟩, ⟨%d11, %f11, -, HS3⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    isplitl [HS1]; · iexists _; iexact HS1
    isplitl [HS2]; · iexists _; iexact HS2
    iexists _; iexact HS3

end Cert.KernelIdeal.Frame

end
-- ==== Proof.KIRunB.lean ====
/-
  The idealized kernel's frame: the run of the whole kernel body at a point of a MIDDLE column block, on whole staging memrefs.
  The body is followed statement by statement: each load reads what its buffer holds, each store is recorded as a written
  piece of its buffer; what each scratch operand (and, in the last case, each output block) ends with is the list of its
  written pieces.
-/
import proofs.«145336_j13005160973089_1_alg».proof.Proof.KIBase

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A middle column block: the four scratch operands, at what the point before left, are updated with the block's
    contribution; the two output blocks are handed back untouched. -/
noncomputable def kernelRun0_B (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x2 : Vec F S1x512 .i32) (x3 : Vec F S1x1024 .i32) (x4 : Vec F S512x128 .bf16) (x5 : Vec F S1024x128 .bf16)
    (xs8 xs9 xs10 xs11 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi6 xi7 : Vec F S512x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi6 xi7 E K => ?run⟩
  case run =>
    rw [cc0__contrastive_kernel_eq_skeleton]; unfold cc0__contrastive_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HS0⟩, ⟨%f9, %hf9, HS1⟩, ⟨%f10, %hf10, HS2⟩, ⟨%f11, %hf11, HS3⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    isplitl [HS1]; · iexists _; iexact HS1
    isplitl [HS2]; · iexists _; iexact HS2
    iexists _; iexact HS3

end Cert.KernelIdeal.Frame

end
-- ==== Proof.KIRunC.lean ====
/-
  The idealized kernel's frame: the run of the whole kernel body at a point of the LAST column block, on whole staging memrefs.
  The body is followed statement by statement: each load reads what its buffer holds, each store is recorded as a written
  piece of its buffer; what each scratch operand (and, in the last case, each output block) ends with is the list of its
  written pieces.
-/
import proofs.«145336_j13005160973089_1_alg».proof.Proof.KIBase

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The last column block: the four scratch operands, at what the point before left, are updated with the block's
    contribution, and the two output blocks, at anything before, are written from them. -/
noncomputable def kernelRun0_C (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x2 : Vec F S1x512 .i32) (x3 : Vec F S1x1024 .i32) (x4 : Vec F S512x128 .bf16) (x5 : Vec F S1024x128 .bf16)
    (xs8 xs9 xs10 xs11 : Vec F S512x1 .f32) :
    Σ' (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9 ∗ owns (c : Thread nD τ) arg10 fullShare xs10 ∗ owns (c : Thread nD τ) arg11 fullShare xs11
            ∗ (iprop(owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    rw [cc0__contrastive_kernel_eq_skeleton]; unfold cc0__contrastive_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, HS0⟩, ⟨%f9, %hf9, HS1⟩, ⟨%f10, %hf10, HS2⟩, ⟨%f11, %hf11, HS3⟩, Hk⟩
    obtain rfl := harg2.eq_unread hf2; obtain rfl := harg3.eq_unread hf3; obtain rfl := harg4.eq_unread hf4; obtain rfl := harg5.eq_unread hf5
    obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.KernelIdeal.Frame

end
-- ==== Proof.KIFrame.lean ====
/-
  The idealized kernel's frame: what the four running quantities and the two output blocks hold after each grid
  point, the proof data of the pipeline, and the body obligation at every point.
  After point `t` the scratch operands hold what the case of `t` (first, middle or last column block) leaves in
  them, computed from the point's input blocks and — except in the first case, which resets them — from what
  the point before left; the output blocks hold what the last case writes. This is a recursion on the point.
-/
import proofs.«145336_j13005160973089_1_alg».proof.Proof.KIRunA
import proofs.«145336_j13005160973089_1_alg».proof.Proof.KIRunB
import proofs.«145336_j13005160973089_1_alg».proof.Proof.KIRunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: unfetched, the block
    index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The three cases at a point -/

/-- The first column block's run at point `t`. -/
abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk V c 0 t) (iblk V c 1 t) (iblk V c 2 t) (iblk V c 3 t)
/-- A middle column block's run at point `t`, the scratch operands found at `xs·`. -/
abbrev runB (c : Dev nD) (t : Fin cfg0.N) (h0 : ¬t.val % 8 = 0) (h1 : ¬t.val % 8 = 7) (xs8 xs9 xs10 xs11 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk V c 0 t) (iblk V c 1 t) (iblk V c 2 t) (iblk V c 3 t) xs8 xs9 xs10 xs11
/-- The last column block's run at point `t`, the scratch operands found at `xs·`. -/
abbrev runC (c : Dev nD) (t : Fin cfg0.N) (h0 : ¬t.val % 8 = 0) (h1 : t.val % 8 = 7) (xs8 xs9 xs10 xs11 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk V c 0 t) (iblk V c 1 t) (iblk V c 2 t) (iblk V c 3 t) xs8 xs9 xs10 xs11

/-- A list of written pieces read back as a column of 512 (over contents that do not matter once the pieces cover it). -/
def rd (L : List (View.Piece (Elt F) S512x1 .f32)) : Vec F S512x1 .f32 :=
  VS.read (Elt F) (VS.writes (Elt F) VS.junk L)

/-- What the two output blocks (`o4`, `o5`) and the four scratch operands (`s0` … `s3`) hold after a point. -/
structure Outs (F : FTy → Type) where
  o4 : Vec F S512x1 .f32
  o5 : Vec F S512x1 .f32
  s0 : Vec F S512x1 .f32
  s1 : Vec F S512x1 .f32
  s2 : Vec F S512x1 .f32
  s3 : Vec F S512x1 .f32

/-- After a point of the first case: the scratch operands at the run's pieces; the output blocks are not consulted. -/
def outsA (c : Dev nD) (t : Fin cfg0.N) (h0 : t.val % 8 = 0) (h1 : ¬t.val % 8 = 7) : Outs F :=
  ⟨rd [], rd [], rd (runA V c t h0 h1).1, rd (runA V c t h0 h1).2.1, rd (runA V c t h0 h1).2.2.1, rd (runA V c t h0 h1).2.2.2.1⟩
/-- After a point of a middle case, over what the point before left (`p`). -/
def outsB (c : Dev nD) (t : Fin cfg0.N) (h0 : ¬t.val % 8 = 0) (h1 : ¬t.val % 8 = 7) (p : Outs F) : Outs F :=
  ⟨rd [], rd [], rd (runB V c t h0 h1 p.s0 p.s1 p.s2 p.s3).1, rd (runB V c t h0 h1 p.s0 p.s1 p.s2 p.s3).2.1, rd (runB V c t h0 h1 p.s0 p.s1 p.s2 p.s3).2.2.1, rd (runB V c t h0 h1 p.s0 p.s1 p.s2 p.s3).2.2.2.1⟩
/-- After a point of the last case, over what the point before left (`p`). -/
def outsC (c : Dev nD) (t : Fin cfg0.N) (h0 : ¬t.val % 8 = 0) (h1 : t.val % 8 = 7) (p : Outs F) : Outs F :=
  ⟨rd (runC V c t h0 h1 p.s0 p.s1 p.s2 p.s3).1, rd (runC V c t h0 h1 p.s0 p.s1 p.s2 p.s3).2.1, rd (runC V c t h0 h1 p.s0 p.s1 p.s2 p.s3).2.2.1, rd (runC V c t h0 h1 p.s0 p.s1 p.s2 p.s3).2.2.2.1, rd (runC V c t h0 h1 p.s0 p.s1 p.s2 p.s3).2.2.2.2.1, rd (runC V c t h0 h1 p.s0 p.s1 p.s2 p.s3).2.2.2.2.2.1⟩

/-- THE ACCUMULATION: what the output blocks and the scratch operands hold after the body at position `n`. -/
def outsAt0 (c : Dev nD) : (n : ℕ) → n < cfg0.N → Outs F
  | 0, hn => outsA V c ⟨0, hn⟩ (Nat.zero_mod _) (by show ¬(0 % 8 = 7); decide)
  | n + 1, hn =>
    if h0 : (n + 1) % 8 = 0 then outsA V c ⟨n + 1, hn⟩ h0 (by dsimp only; omega)
    else if h1 : (n + 1) % 8 = 7 then outsC V c ⟨n + 1, hn⟩ h0 h1 (outsAt0 c n (Nat.lt_of_succ_lt hn))
    else outsB V c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 V c t.val t.isLt = outsA V c t h0 h1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = outsB V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = outsC V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant: the scratch operands at what the point before left -/

def PhiS (c : Dev nD) : (n : ℕ) → n ≤ cfg0.N → sProp 𝕄
  | 0, _ => Pipeline.ΦA spec0 c
  | n + 1, hn => iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3) ∗ (∃ r, prngReg c r)) := by
  cases n with
  | zero => exact absurd rfl hz
  | succ n => rfl

/-! ## The pipeline's proof data -/

/-- The proof data on core `c`: the arrays as the region finds them; after the body at point `t` each input's buffer at
    its block and the outputs' at the accumulation; the invariant the scratch operands at the accumulation; nothing owed.
    The labels' array and the embeddings' array are each read through two windows, so each window holds half of it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).o4
    | ⟨5, _⟩ => (outsAt0 V c t.val t.isLt).o5
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d

end Cert.KernelIdeal.Frame

end
-- ==== Proof.KIBody.lean ====
/-
  The idealized kernel's frame: the body obligation. At every grid point the body, handed each input window's block,
  the two output buffers and the region invariant (the four scratch operands at what the point before left), runs to
  the next point's invariant and leaves each buffer at the proof data's contents. By cases on the point's column block.
-/
import proofs.«145336_j13005160973089_1_alg».proof.Proof.KIFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Each run's pieces tile the column they are written into, so they cover it -/

theorem scover0_A_0 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) (y : S512x1.Idx) :
    ∃ pc ∈ (kernelRun0_A (F := F) c i arg2 harg2 arg3 harg3 arg4 harg4 arg5 harg5 arg6 harg6 arg7 harg7 arg8 harg8 arg9 harg9 arg10 harg10 arg11 harg11 hc0 hc1 x2 x3 x4 x5).1, y ∈ pc.1.set :=
  View.cover_of_tiledL (kernelRun0_A (F := F) c i arg2 harg2 arg3 harg3 arg4 harg4 arg5 harg5 arg6 harg6 arg7 harg7 arg8 harg8 arg9 harg9 arg10 harg10 arg11 harg11 hc0 hc1 x2 x3 x4 x5).1 S512x1.size (by sl_kernel_rfl) y
theorem scover0_A_1 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) (y : S512x1.Idx) :
    ∃ pc ∈ (kernelRun0_A (F := F) c i arg2 harg2 arg3 harg3 arg4 harg4 arg5 harg5 arg6 harg6 arg7 harg7 arg8 harg8 arg9 harg9 arg10 harg10 arg11 harg11 hc0 hc1 x2 x3 x4 x5).2.1, y ∈ pc.1.set :=
  View.cover_of_tiledL (kernelRun0_A (F := F) c i arg2 harg2 arg3 harg3 arg4 harg4 arg5 harg5 arg6 harg6 arg7 harg7 arg8 harg8 arg9 harg9 arg10 harg10 arg11 harg11 hc0 hc1 x2 x3 x4 x5).2.1 S512x1.size (by sl_kernel_rfl) y
theorem scover0_A_2 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) (y : S512x1.Idx) :
    ∃ pc ∈ (kernelRun0_A (F := F) c i arg2 harg2 arg3 harg3 arg4 harg4 arg5 harg5 arg6 harg6 arg7 harg7 arg8 harg8 arg9 harg9 arg10 harg10 arg11 harg11 hc0 hc1 x2 x3 x4 x5).2.2.1, y ∈ pc.1.set :=
  View.cover_of_tiledL (kernelRun0_A (F := F) c i arg2 harg2 arg3 harg3 arg4 harg4 arg5 harg5 arg6 harg6 arg7 harg7 arg8 harg8 arg9 harg9 arg10 harg10 arg11 harg11 hc0 hc1 x2 x3 x4 x5).2.2.1 S512x1.size (by sl_kernel_rfl) y
theorem scover0_A_3 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) (y : S512x1.Idx) :
    ∃ pc ∈ (kernelRun0_A (F := F) c i arg2 harg2 arg3 harg3 arg4 harg4 arg5 harg5 arg6 harg6 arg7 harg7 arg8 harg8 arg9 harg9 arg10 harg10 arg11 harg11 hc0 hc1 x2 x3 x4 x5).2.2.2.1, y ∈ pc.1.set :=
  View.cover_of_tiledL (kernelRun0_A (F := F) c i arg2 harg2 arg3 harg3 arg4 harg4 arg5 harg5 arg6 harg6 arg7 harg7 arg8 harg8 arg9 harg9 arg10 harg10 arg11 harg11 hc0 hc1 x2 x3 x4 x5).2.2.2.1 S512x1.size (by sl_kernel_rfl) y
theorem scover0_B_0 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).1, y ∈ pc.1.set :=
  View.cover_of_tiledL (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).1 S512x1.size (by sl_kernel_rfl) y
theorem scover0_B_1 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1, y ∈ pc.1.set :=
  View.cover_of_tiledL (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1 S512x1.size (by sl_kernel_rfl) y
theorem scover0_B_2 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1, y ∈ pc.1.set :=
  View.cover_of_tiledL (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1 S512x1.size (by sl_kernel_rfl) y
theorem scover0_B_3 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1, y ∈ pc.1.set :=
  View.cover_of_tiledL (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1 S512x1.size (by sl_kernel_rfl) y
theorem cover0_C_0 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).1 S512x1.size (by sl_kernel_rfl) y
theorem cover0_C_1 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1 S512x1.size (by sl_kernel_rfl) y
theorem cover0_C_2 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1 S512x1.size (by sl_kernel_rfl) y
theorem cover0_C_3 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1 S512x1.size (by sl_kernel_rfl) y
theorem cover0_C_4 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.1 S512x1.size (by sl_kernel_rfl) y
theorem cover0_C_5 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) (y : S512x1.Idx) :
    ∃ pc ∈ (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.2.1, y ∈ pc.1.set :=
  View.cover_of_tiledL (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.2.1 S512x1.size (by sl_kernel_rfl) y

variable (V : (c : Dev nD) → (b : Ref sig .tc) → Buf (Elt F) ((c : Thread nD τ).loc b))

/-! ## The body obligation at a point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [outsAt0_A V c t h0 h1]
    unfold outsA rd; (try dsimp only)
    by_cases hz : t.val = 0
    · rw [PhiS_castSucc V c t, PhiS_zero V c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 _ _ _ _ _ _ _ _ _ _ _ _ _ _ _ _ _ _ _ _ _ _ _ _ _ _ _ _)
          · unfold owns; iexists _; isplitr
            swap; · iexact HS3
            ipureintro; exact View.read_writes_of_cover _ _ _ _ _ (scover0_A_3 _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 _ _ _ _ _ _ _ _ _ _ _ _ _ _ _ _ _ _ _ _ _ _ _ _ _ _ _ _)
          · unfold owns; iexists _; isplitr
            swap; · iexact HS3
            ipureintro; exact View.read_writes_of_cover _ _ _ _ _ (scover0_A_3 _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold outsC rd; (try dsimp only)
      rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runC V c t h0 h1 _ _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_C_2 _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_C_3 _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_C_4 _ _ _ _ _ _ _ _ _ _ _ _ _ _ _ _ _ _ _ _ _ _ _ _ _ _ _ _ _ _ _ _)
          · unfold owns; iexists _; isplitr
            swap; · iexact HS3
            ipureintro; exact View.read_writes_of_cover _ _ _ _ _ (cover0_C_5 _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_0 _ _ _ _ _ _ _ _ _ _ _ _ _ _ _ _ _ _ _ _ _ _ _ _ _ _ _ _ _ _ _ _)
      · unfold owns; iexists _; isplitr
        swap; · iexact H5
        ipureintro; exact View.read_writes_of_cover _ _ _ _ _ (cover0_C_1 _ _ _ _ _ _ _ _ _ _ _ _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold outsB rd; (try dsimp only)
      rw [PhiS_castSucc V c t, PhiS_pos V c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runB V c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, ⟨%e3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 _ _ _ _ _ _ _ _ _ _ _ _ _ _ _ _ _ _ _ _ _ _ _ _ _ _ _ _ _ _ _ _)
          · unfold owns; iexists _; isplitr
            swap; · iexact HS3
            ipureintro; exact View.read_writes_of_cover _ _ _ _ _ (scover0_B_3 _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Frame

end
-- ==== Proof.KIVals.lean ====
/-
  The idealized kernel's frame: the buffer contents at each boundary of @main — at the launch, after each stretch of
  host operations, and at the region's exit, where the two result arrays hold what the region's write-backs leave
  and every other buffer what it held at the region's entry.
-/
import proofs.«145336_j13005160973089_1_alg».proof.Proof.KIFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the norm's operations. -/
abbrev W1 : Dev nD → Valuation τ sig (Elt F) := fun c => StableHlo.after hostOps0 (W0 m ρ c)
/-- After the normalisation and the labels' reshape: the region's entry. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- At the region's exit: the two result arrays at what the write-backs leave, every other buffer as entered. -/
def W3 (c : Dev nD) : Valuation τ sig (Elt F) :=
  Function.update (Function.update (W2 m ρ c) (Proc.devRef .tc main_v7_0) ((dat0 (V2 m ρ) c).arrAt 4 cfg0.N))
    (Proc.devRef .tc main_v7_1) ((dat0 (V2 m ρ) c).arrAt 5 cfg0.N)
/-- The same read at the TensorCore's references. -/
abbrev V3 : (c : Dev nD) → (b : Ref sig .tc) → Buf (Elt F) ((c : Thread nD τ).loc b) := fun c b => W3 m ρ c b
/-- After the sums, the quotient and the comparison. -/
abbrev W4 : Dev nD → Valuation τ sig (Elt F) := fun c => StableHlo.after hostOps1 (W3 m ρ c)
/-- After the final selection: the return. -/
abbrev W5 : Dev nD → Valuation τ sig (Elt F) := fun c => StableHlo.after hostOps1_1 (W4 m ρ c)

theorem W3_v7_0 (c : Dev nD) : W3 m ρ c (Proc.devRef .tc main_v7_0) = (dat0 (V2 m ρ) c).arrAt 4 cfg0.N := by
  unfold W3
  rw [Function.update_of_ne (by decide), Function.update_self]
theorem W3_v7_1 (c : Dev nD) : W3 m ρ c (Proc.devRef .tc main_v7_1) = (dat0 (V2 m ρ) c).arrAt 5 cfg0.N := by
  unfold W3
  rw [Function.update_self]
theorem W3_of_ne (c : Dev nD) (b : Ref sig .tc) (h0 : b ≠ main_v7_0) (h1 : b ≠ main_v7_1) :
    W3 m ρ c (Proc.devRef .tc b) = W2 m ρ c (Proc.devRef .tc b) := by
  unfold W3
  rw [Function.update_of_ne (fun e => h1 (Proc.devRef_injective _ e)), Function.update_of_ne (fun e => h0 (Proc.devRef_injective _ e))]

end Cert.KernelIdeal.Frame

end
-- ==== Proof.KIRun.lean ====
/-
  The idealized kernel's frame: @main as its host stretches and the one kernel region, run from the launch to the
  return. The labels' array and the embeddings' array are each read by the region through two windows: at the region's
  entry each is split into two half shares, one per window, and at its exit the halves are joined again. The run's
  conclusion names every unscoped buffer's final contents: the fold of the host stretches and the region's results.
-/
import proofs.«145336_j13005160973089_1_alg».proof.Proof.KIBody
import proofs.«145336_j13005160973089_1_alg».proof.Proof.KIVals
import Idealize.ShloMosaic.Lib.Pipeline.RegionsLoop

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Split
variable (V : (c : Dev nD) → (b : Ref sig .tc) → Buf (Elt F) ((c : Thread nD τ).loc b))

/-- The four distinct buffers behind the six windows' arrays, one by one. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v6) ↦{fullShare} Vc main_v6) ∗ (((c : Thread nD τ).loc main_v5) ↦{fullShare} Vc main_v5)
          ∗ (((c : Thread nD τ).loc main_v7_0) ↦{fullShare} Vc main_v7_0) ∗ (((c : Thread nD τ).loc main_v7_1) ↦{fullShare} Vc main_v7_1)) := by
  unfold Pipeline.arrBufs
  exact bigSep_eq_bigSepL_of_eq [main_v6, main_v5, main_v7_0, main_v7_1] (by decide) (by decide) _

/-- The pipeline's arrays, window by window, at their shares. -/
theorem arrays_chain (c : Dev nD) (Fv : (w : Fin cfg0.W) → Buf (Elt F) ((cfg0.win w).arr.view.loc (c : Thread nD τ))) :
    ((dat0 V c).arrays Fv : sProp 𝕄)
      = iprop((((c : Thread nD τ).loc main_v6) ↦{fullShare.left} Fv 0) ∗ (((c : Thread nD τ).loc main_v6) ↦{fullShare.right} Fv 1)
          ∗ (((c : Thread nD τ).loc main_v5) ↦{fullShare.left} Fv 2) ∗ (((c : Thread nD τ).loc main_v5) ↦{fullShare.right} Fv 3)
          ∗ (((c : Thread nD τ).loc main_v7_0) ↦{fullShare} Fv 4) ∗ (((c : Thread nD τ).loc main_v7_1) ↦{fullShare} Fv 5)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ]
  rfl

end Split

variable (m : (ℓ : Loc nD τ sig) → Buf (Elt F) ℓ) (ρ : Dev nD → PrngReg)

/-- ENTRY: the unscoped buffers at the entry contents are the pipeline's arrays — the two shared ones each split
    into its two windows' halves — and the rest. -/
theorem entry_split (c : Dev nD) :
    (unscopedBufs c (V2 m ρ c) : sProp 𝕄)
      ⊢ iprop((dat0 (V2 m ρ) c).arrays ((dat0 (V2 m ρ) c).arrAt · 0) ∗ Pipeline.unscopedRest spec0 c (V2 m ρ c)) := by
  rw [Pipeline.unscopedBufs_split₀ cfgs 0 winFacts₀0.arr_unscoped c (V2 m ρ c)]
  refine sep_mono ?_ .rfl
  rw [arrBufs_eq, arrays_chain]
  iintro ⟨H6, H5, H70, H71⟩
  ihave H6' := (pointsTo_share (PosShare.mem_left_op_right fullShare)).1 $$ H6
  icases H6' with ⟨H6l, H6r⟩
  ihave H5' := (pointsTo_share (PosShare.mem_left_op_right fullShare)).1 $$ H5
  icases H5' with ⟨H5l, H5r⟩
  isplitl [H6l]; · iexact H6l
  isplitl [H6r]; · iexact H6r
  isplitl [H5l]; · iexact H5l
  isplitl [H5r]; · iexact H5r
  isplitl [H70]; · iexact H70
  iexact H71

/-- EXIT: the pipeline's arrays at their final contents — the shared ones' halves joined — and the rest are the
    unscoped buffers at the exit contents. -/
theorem exit_join (c : Dev nD) :
    iprop((dat0 (V2 m ρ) c).arrays ((dat0 (V2 m ρ) c).arrAt · cfg0.N) ∗ Pipeline.unscopedRest spec0 c (V2 m ρ c))
      ⊢ (unscopedBufs c (V3 m ρ c) : sProp 𝕄) := by
  rw [Pipeline.unscopedBufs_split₀ cfgs 0 winFacts₀0.arr_unscoped c (V3 m ρ c)]
  refine sep_mono ?_ (Entails.of_eq ?_)
  · rw [arrBufs_eq, arrays_chain]
    rw [(dat0 (V2 m ρ) c).arrAt_in 0 rfl cfg0.N, (dat0 (V2 m ρ) c).arrAt_in 1 rfl cfg0.N,
      (dat0 (V2 m ρ) c).arrAt_in 2 rfl cfg0.N, (dat0 (V2 m ρ) c).arrAt_in 3 rfl cfg0.N]
    rw [show V3 m ρ c main_v6 = V2 m ρ c main_v6 from W3_of_ne m ρ c main_v6 (by decide) (by decide),
      show V3 m ρ c main_v5 = V2 m ρ c main_v5 from W3_of_ne m ρ c main_v5 (by decide) (by decide),
      show V3 m ρ c main_v7_0 = (dat0 (V2 m ρ) c).arrAt 4 cfg0.N from W3_v7_0 m ρ c,
      show V3 m ρ c main_v7_1 = (dat0 (V2 m ρ) c).arrAt 5 cfg0.N from W3_v7_1 m ρ c]
    iintro ⟨H6l, H6r, H5l, H5r, H70, H71⟩
    isplitl [H6l H6r]
    · iapply (pointsTo_share (PosShare.mem_left_op_right fullShare)).2
      isplitl [H6l]; · iexact H6l
      iexact H6r
    isplitl [H5l H5r]
    · iapply (pointsTo_share (PosShare.mem_left_op_right fullShare)).2
      isplitl [H5l]; · iexact H5l
      iexact H5r
    isplitl [H70]; · iexact H70
    iexact H71
  · unfold Pipeline.unscopedRest
    exact bigSep_congr fun b hb => by
      rw [show V3 m ρ c b = V2 m ρ c b from W3_of_ne m ρ c b
        (fun e => (Finset.mem_sdiff.mp hb).2 (e ▸ Finset.mem_image.mpr ⟨4, Finset.mem_univ _, rfl⟩))
        (fun e => (Finset.mem_sdiff.mp hb).2 (e ▸ Finset.mem_image.mpr ⟨5, Finset.mem_univ _, rfl⟩))]

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents. -/
abbrev Tₙ (c : Dev nD) : sProp 𝕄 := iprop(StableHlo.held (c : Thread nD τ) (Pipeline.ucRefs τ sig) (W5 m ρ c) ∗ ∃ r, prngReg c r)

/-- After any point but the first the invariant gives the class invariant back: the scratch operands' contents are forgotten. -/
theorem Phi_out (c : Dev nD) (t : Fin (cfg0.N + 1)) (ht : t.val ≠ 0) : (dat0 (V2 m ρ) c).Φ t ⊢ Pipeline.ΦA spec0 c := by
  rw [show (dat0 (V2 m ρ) c).Φ t = PhiS (V2 m ρ) c t.val (Nat.le_of_lt_succ t.isLt) from rfl, PhiS_pos (V2 m ρ) c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- THE REGION over the thread state: entered from every unscoped buffer at the entry contents, left at the exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out m ρ c (Fin.last _) (by rw [Fin.val_last]; have : cfg0.N = 128 := N_0; omega)).trans ?_
    unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- The last host stretch's segment leaves the thread state the launch reads. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .host (hseg hostOps1_1 hostOps1_1_sub hostOps1_1_fresh (W4 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates without a fault, and in
    every final state each unscoped buffer holds the fold of the host stretches and the region's results. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Frame

end
-- ==== Proof.KIBlocks.lean ====
/-
  The idealized kernel's value, first part: each input window's block at a grid point, read at an index off the array
  the region finds. Point `t` is row block `t / 8` and column block `t % 8`: the row-side windows read rows
  `(t / 8) · 512 + r` of the labels and of the embeddings, the column-side windows rows `(t % 8) · 1024 + c`.
-/
import proofs.«145336_j13005160973089_1_alg».proof.Proof.KIFrame
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The printed index maps and the grid's coordinates, decided over the grid. -/
theorem idx_facts : ∀ t : Fin cfg0.N,
    win0_0.index t (0 : Fin 2) = 0 ∧ win0_0.index t (1 : Fin 2) = t.val / 8
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0
    ∧ ((grid0.coords t) 0).val = t.val / 8 ∧ ((grid0.coords t) 1).val = t.val % 8 :=
  (by decide +kernel : ∀ t : Fin grid0.N, _)

theorem tlt (t : Fin cfg0.N) : t.val < 128 := lt_of_lt_of_eq t.isLt (show cfg0.N = 128 from N_0)

/-- The row block's labels. -/
theorem blk0 (c : Dev nD) (t : Fin cfg0.N) (r : Fin 512) :
    iblk V c 0 t (ix2 (0 : Fin 1) r) = (V c main_v6 : S1x8192.Idx → BitVec 32) (ix2 (0 : Fin 1) ⟨(t.val / 8) * 512 + r.val, by have := tlt t; omega⟩) := by
  obtain ⟨e00, e01, -⟩ := idx_facts t
  show V c main_v6 (((cfg0.win 0).blk t).view.emb (ix2 (0 : Fin 1) r)) = _
  refine congrArg _ (funext fun a => Fin.ext ?_)
  match a with
  | ⟨0, _⟩ => show win0_0.index t (0 : Fin 2) * 1 + 1 * 0 = 0; omega
  | ⟨1, _⟩ => show win0_0.index t (1 : Fin 2) * 512 + 1 * r.val = (t.val / 8) * 512 + r.val; omega

/-- The column block's labels. -/
theorem blk1 (c : Dev nD) (t : Fin cfg0.N) (q : Fin 1024) :
    iblk V c 1 t (ix2 (0 : Fin 1) q) = (V c main_v6 : S1x8192.Idx → BitVec 32) (ix2 (0 : Fin 1) ⟨(t.val % 8) * 1024 + q.val, by omega⟩) := by
  obtain ⟨-, -, e10, e11, -⟩ := idx_facts t
  show V c main_v6 (((cfg0.win 1).blk t).view.emb (ix2 (0 : Fin 1) q)) = _
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * q.val = (t.val % 8) * 1024 + q.val; omega

/-- The row block's embeddings. -/
theorem blk2 (c : Dev nD) (t : Fin cfg0.N) (r : Fin 512) (k : Fin 128) :
    iblk V c 2 t (ix2 r k) = (V c main_v5 : S8192x128.Idx → EReal) (ix2 ⟨(t.val / 8) * 512 + r.val, by have := tlt t; omega⟩ k) := by
  obtain ⟨-, -, -, -, e20, e21, -⟩ := idx_facts t
  show V c main_v5 (((cfg0.win 2).blk t).view.emb (ix2 r k)) = _
  refine congrArg _ (funext fun a => Fin.ext ?_)
  match a with
  | ⟨0, _⟩ => show win0_2.index t (0 : Fin 2) * 512 + 1 * r.val = (t.val / 8) * 512 + r.val; omega
  | ⟨1, _⟩ => show win0_2.index t (1 : Fin 2) * 128 + 1 * k.val = k.val; omega

/-- The column block's embeddings. -/
theorem blk3 (c : Dev nD) (t : Fin cfg0.N) (q : Fin 1024) (k : Fin 128) :
    iblk V c 3 t (ix2 q k) = (V c main_v5 : S8192x128.Idx → EReal) (ix2 ⟨(t.val % 8) * 1024 + q.val, by omega⟩ k) := by
  obtain ⟨-, -, -, -, -, -, e30, e31, -⟩ := idx_facts t
  show V c main_v5 (((cfg0.win 3).blk t).view.emb (ix2 q k)) = _
  refine congrArg _ (funext fun a => Fin.ext ?_)
  match a with
  | ⟨0, _⟩ => show win0_3.index t (0 : Fin 2) * 1024 + 1 * q.val = (t.val % 8) * 1024 + q.val; omega
  | ⟨1, _⟩ => show win0_3.index t (1 : Fin 2) * 128 + 1 * k.val = k.val; omega

end Cert.KernelIdeal.Val

end
-- ==== Proof.KIPieces.lean ====
/-
  The idealized kernel's frame: what each run's pieces are. Every store of the body writes a whole column of 512, so
  each scratch operand (and each output block) ends at the last value stored into it, a pure term of the point's input
  blocks and of what the scratch operands held before: the updated running maximum, the two rescaled and extended
  running sums and the extended running count; at the last column block the outputs are the losses and the indicators
  computed from the updated sums and count.
-/
import proofs.«145336_j13005160973089_1_alg».proof.Proof.KIBody
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz : (![0, 0] : Fin 2 → Nat) = fun _ => 0 := by funext a; fin_cases a <;> rfl

/-! ## The first column block -/

theorem pieceA_0 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) : rd (kernelRun0_A (F := F) c i arg2 harg2 arg3 harg3 arg4 harg4 arg5 harg5 arg6 harg6 arg7 harg7 arg8 harg8 arg9 harg9 arg10 harg10 arg11 harg11 hc0 hc1 x2 x3 x4 x5).1 = k0_pay18 (k0_pay11 x4 x5) (k0_pay3 (F := F)) := by
  unfold rd
  rw [View.read_writes_eq_canon _ _ _ (scover0_A_0 c i arg2 harg2 arg3 harg3 arg4 harg4 arg5 harg5 arg6 harg6 arg7 harg7 arg8 harg8 arg9 harg9 arg10 harg10 arg11 harg11 hc0 hc1 x2 x3 x4 x5)]
  unfold kernelRun0_A
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceA_1 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) : rd (kernelRun0_A (F := F) c i arg2 harg2 arg3 harg3 arg4 harg4 arg5 harg5 arg6 harg6 arg7 harg7 arg8 harg8 arg9 harg9 arg10 harg10 arg11 harg11 hc0 hc1 x2 x3 x4 x5).2.1 = k0_pay15 (k0_pay8 i x2 x3) (k0_pay10 x4 x5) (k0_pay11 x4 x5) (k0_pay3 (F := F)) (k0_pay3 (F := F)) (k0_pay4 (F := F)) := by
  unfold rd
  rw [View.read_writes_eq_canon _ _ _ (scover0_A_1 c i arg2 harg2 arg3 harg3 arg4 harg4 arg5 harg5 arg6 harg6 arg7 harg7 arg8 harg8 arg9 harg9 arg10 harg10 arg11 harg11 hc0 hc1 x2 x3 x4 x5)]
  unfold kernelRun0_A
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceA_2 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) : rd (kernelRun0_A (F := F) c i arg2 harg2 arg3 harg3 arg4 harg4 arg5 harg5 arg6 harg6 arg7 harg7 arg8 harg8 arg9 harg9 arg10 harg10 arg11 harg11 hc0 hc1 x2 x3 x4 x5).2.2.1 = k0_pay16 (k0_pay9 (F := F) i) (k0_pay10 x4 x5) (k0_pay11 x4 x5) (k0_pay3 (F := F)) (k0_pay3 (F := F)) (k0_pay5 (F := F)) := by
  unfold rd
  rw [View.read_writes_eq_canon _ _ _ (scover0_A_2 c i arg2 harg2 arg3 harg3 arg4 harg4 arg5 harg5 arg6 harg6 arg7 harg7 arg8 harg8 arg9 harg9 arg10 harg10 arg11 harg11 hc0 hc1 x2 x3 x4 x5)]
  unfold kernelRun0_A
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceA_3 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x2 : Vec F S1x512 .i32) (x3 : Vec F S1x1024 .i32) (x4 : Vec F S512x128 .bf16) (x5 : Vec F S1024x128 .bf16) : rd (kernelRun0_A (F := F) c i arg2 harg2 arg3 harg3 arg4 harg4 arg5 harg5 arg6 harg6 arg7 harg7 arg8 harg8 arg9 harg9 arg10 harg10 arg11 harg11 hc0 hc1 x2 x3 x4 x5).2.2.2.1 = k0_pay17 (k0_pay8 i x2 x3) (k0_pay6 (F := F)) := by
  unfold rd
  rw [View.read_writes_eq_canon _ _ _ (scover0_A_3 c i arg2 harg2 arg3 harg3 arg4 harg4 arg5 harg5 arg6 harg6 arg7 harg7 arg8 harg8 arg9 harg9 arg10 harg10 arg11 harg11 hc0 hc1 x2 x3 x4 x5)]
  unfold kernelRun0_A
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl

/-! ## A middle column block -/

theorem pieceB_0 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).1 = k0_pay18 (k0_pay11 x4 x5) xs8 := by
  unfold rd
  rw [View.read_writes_eq_canon _ _ _ (scover0_B_0 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_B
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceB_1 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1 = k0_pay15 (k0_pay8 i x2 x3) (k0_pay10 x4 x5) (k0_pay11 x4 x5) xs8 xs8 xs9 := by
  unfold rd
  rw [View.read_writes_eq_canon _ _ _ (scover0_B_1 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_B
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceB_2 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1 = k0_pay16 (k0_pay9 (F := F) i) (k0_pay10 x4 x5) (k0_pay11 x4 x5) xs8 xs8 xs10 := by
  unfold rd
  rw [View.read_writes_eq_canon _ _ _ (scover0_B_2 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_B
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceB_3 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_B (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1 = k0_pay17 (k0_pay8 i x2 x3) xs11 := by
  unfold rd
  rw [View.read_writes_eq_canon _ _ _ (scover0_B_3 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_B
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl

/-! ## The last column block -/

theorem pieceC_0 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).1 = k0_pay2 (k0_pay15 (k0_pay8 i x2 x3) (k0_pay10 x4 x5) (k0_pay11 x4 x5) xs8 xs8 xs9) (k0_pay16 (k0_pay9 (F := F) i) (k0_pay10 x4 x5) (k0_pay11 x4 x5) xs8 xs8 xs10) (k0_pay17 (k0_pay8 i x2 x3) xs11) := by
  unfold rd
  rw [View.read_writes_eq_canon _ _ _ (cover0_C_0 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_C
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceC_1 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.1 = k0_pay1 (k0_pay17 (k0_pay8 i x2 x3) xs11) := by
  unfold rd
  rw [View.read_writes_eq_canon _ _ _ (cover0_C_1 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_C
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceC_2 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.1 = k0_pay18 (k0_pay11 x4 x5) xs8 := by
  unfold rd
  rw [View.read_writes_eq_canon _ _ _ (cover0_C_2 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_C
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceC_3 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.1 = k0_pay15 (k0_pay8 i x2 x3) (k0_pay10 x4 x5) (k0_pay11 x4 x5) xs8 xs8 xs9 := by
  unfold rd
  rw [View.read_writes_eq_canon _ _ _ (cover0_C_3 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_C
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceC_4 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.1 = k0_pay16 (k0_pay9 (F := F) i) (k0_pay10 x4 x5) (k0_pay11 x4 x5) xs8 xs8 xs10 := by
  unfold rd
  rw [View.read_writes_eq_canon _ _ _ (cover0_C_4 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_C
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl
theorem pieceC_5 (c : Dev nD) (i : grid0.Coords) (arg2 : Memref sig .tc .vmem S1x512 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x2 : Vec F S1x512 .i32) (x3 : Vec F S1x1024 .i32) (x4 : Vec F S512x128 .bf16) (x5 : Vec F S1024x128 .bf16) (xs8 xs9 xs10 xs11 : Vec F S512x1 .f32) : rd (kernelRun0_C (F := F) c i arg2 harg2 arg3 harg3 arg4 harg4 arg5 harg5 arg6 harg6 arg7 harg7 arg8 harg8 arg9 harg9 arg10 harg10 arg11 harg11 hc0 hc1 x2 x3 x4 x5 xs8 xs9 xs10 xs11).2.2.2.2.2.1 = k0_pay17 (k0_pay8 i x2 x3) xs11 := by
  unfold rd
  rw [View.read_writes_eq_canon _ _ _ (cover0_C_5 c i arg2 harg2 arg3 harg3 arg4 harg4 arg5 harg5 arg6 harg6 arg7 harg7 arg8 harg8 arg9 harg9 arg10 harg10 arg11 harg11 hc0 hc1 x2 x3 x4 x5 xs8 xs9 xs10 xs11)]
  unfold kernelRun0_C
  dsimp only
  sl_unfold_words
  simp only [View.canon_cons_unit_zero (S := S512x1) hz, View.canon_unit_zero (S := S512x1) hz, View.readCov_unit_zero (S := S512x1) _ hz, View.readAt_eq_ld, Memref.IsWhole.read_unread, View.ld_unit_zero (S := S512x128) hz, View.ld_unit_zero (S := S1024x128) hz, View.ld_unit_zero (S := S1x512) hz, View.ld_unit_zero (S := S1x1024) hz, View.ld_unit_zero (S := S512x1) hz]
  try rfl

end Cert.KernelIdeal.Frame

end
-- ==== Proof.RowSpec.lean ====
/-
  The loss of one row, as a function of the normalised embeddings and the labels, on the extended reals.

  Both programs compute, for every row `r` of the 8192 normalised embeddings `E`:
  the similarities `sim r c = ⟨E r, E c⟩ · κ` against every row `c` (κ the reciprocal of the temperature),
  their maximum over `c`, the weights `p r c = exp (sim r c − max)`, the sum of the weights over the rows with
  the same label (the row itself left out) and over all rows (the row itself left out), the number of rows
  with the same label (the row itself left out), and from these the row's loss
  `−log (max (pos / max (all, ε), ε))`, kept only where the row has a partner. The result is the mean of the
  kept losses (zero when no row has a partner).
-/
import Idealize.ShloMosaic.PureOps.Ideal
import Idealize.ShloMosaic.PureOps.Ideal.Laws

noncomputable section

namespace Cert.Row

open Idealize.ShloMosaic

/-- The reciprocal of the temperature: the exact reciprocal of the single-precision number nearest to 0.1. -/
abbrev kappa : EReal := ((134217728 / 13421773 : ℝ) : EReal)
/-- The clamp ε of the quotient and of the logarithm's argument: the single-precision number nearest to 1e-8. -/
abbrev eps : EReal := Ideal.ofBits .f32 0x322BCC77#32

variable (E : Fin 8192 → Fin 128 → EReal) (lab : Fin 8192 → BitVec 32)

/-- The clamp of a row's norm: the single-precision number nearest to 1e-12. -/
abbrev tiny : EReal := Ideal.ofBits .f32 0x2B8CBCCC#32
/-- A row's squared Euclidean norm. -/
def norm2 (x : Fin 8192 → Fin 128 → EReal) (r : Fin 8192) : EReal := ∑ k : Fin 128, x r k * x r k
/-- The rows of `x` divided by their Euclidean norms (clamped below by `tiny`). -/
def normalize (x : Fin 8192 → Fin 128 → EReal) (r : Fin 8192) (k : Fin 128) : EReal :=
  Ideal.div (x r k) (max (Ideal.sqrt (norm2 x r)) tiny)

/-- The inner product of rows `r` and `c`. -/
def dot (r c : Fin 8192) : EReal := ∑ k : Fin 128, E r k * E c k
/-- The similarity of rows `r` and `c`. -/
def sim (r c : Fin 8192) : EReal := dot E r c * kappa
/-- The largest similarity of row `r`. -/
def rmax (r : Fin 8192) : EReal := Finset.univ.sup fun c => sim E r c
/-- The weight of column `c` in row `r`. -/
def p (r c : Fin 8192) : EReal := Ideal.exp (sim E r c - rmax E r)
/-- 1 where the two rows carry the same label. -/
def same (r c : Fin 8192) : EReal := if lab r = lab c then 1 else 0
/-- 1 on the diagonal. -/
def eye (r c : Fin 8192) : EReal := if r = c then 1 else 0
/-- 1 where the two rows are distinct and carry the same label. -/
def posw (r c : Fin 8192) : EReal := if r = c then 0 else same lab r c
/-- 1 off the diagonal. -/
def allw (r c : Fin 8192) : EReal := if r = c then 0 else 1
/-- The weights of row `r`'s partners, summed. -/
def lpos (r : Fin 8192) : EReal := ∑ c : Fin 8192, p E r c * posw lab r c
/-- The weights of all other rows, summed. -/
def lall (r : Fin 8192) : EReal := ∑ c : Fin 8192, p E r c * allw r c
/-- The number of row `r`'s partners. -/
def cnt (r : Fin 8192) : EReal := ∑ c : Fin 8192, posw lab r c
/-- 1 where row `r` has a partner. -/
def valid (r : Fin 8192) : EReal := if 0 < cnt lab r then 1 else 0
/-- Row `r`'s loss. -/
def loss (r : Fin 8192) : EReal :=
  -(Ideal.log (max (Ideal.div (lpos E lab r) (max (lall E r) eps)) eps))
/-- Row `r`'s loss, kept where the row has a partner. -/
def lossValid (r : Fin 8192) : EReal := loss E lab r * valid lab r

/-- The mean of the kept losses `lv` over the number of kept rows (`v` their indicator), zero when none is kept. -/
def mean (lv v : Fin 8192 → EReal) : EReal :=
  if 0 < ∑ r : Fin 8192, v r then Ideal.div (∑ r : Fin 8192, lv r) (max (∑ r : Fin 8192, v r) 1) else 0

end Cert.Row

end
-- ==== Proof.KPay.lean ====
/-
  The kernel's arithmetic read at an index, on the extended reals.

  Each value the kernel stores or carries at a grid point is a pure term of the values it loaded. Here each such
  term is read at one row (and column) of its block: the similarities as inner products times κ, their largest
  entry along a row, the update of the running maximum, of the two running sums and of the running count, the
  diagonal and partner masks, the initial columns, and the row's loss. Layout steps (a transpose, a cast of a
  vector to a column, a column broadcast over the columns) only move an index; a reduction along the columns is
  a sum, or a maximum from `-∞`, over the row's entries.
-/
import proofs.«145336_j13005160973089_1_alg».proof.Proof.Gen.KernelIdeal.Skeleton
import proofs.«145336_j13005160973089_1_alg».proof.Proof.RowSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Pay

open Idealize.ShloMosaic Idealize.ShloMosaic.ValueIdx Cert.KernelIdeal Cert.KernelIdeal.Gen
open scoped BigOperators

/-! ## Two layout steps read at an index: a vector cast to a column, a column broadcast over the columns -/

section Layout
variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The similarities of a block of rows against a block of columns -/

/-- The named reciprocal of the temperature denotes `κ` at the ideal instance. -/
theorem kappa_named :
    Named.named (F := Ideal) κ "inv_temperature" (φ := .f32) 0x41200000#32 = Cert.Row.kappa :=
  IdealRules.named_const.ideal_named_scalar _ _ _ _ rfl

/-- The product's left operand is read at the output's row and the contraction coordinate … -/
theorem dot_lhs0 (j : S512x1024.Idx) (q : dot_S512x128_S128x1024_S512x1024_1_0_0_1_n_n.contr.Idx) :
    (dot_S512x128_S128x1024_S512x1024_1_0_0_1_n_n.lhsIdx j q 0).val = (j 0).val := by
  unfold DotDims.lhsIdx
  rw [dif_neg (show ¬(0 : Fin S512x128.rank) ∈ dot_S512x128_S128x1024_S512x1024_1_0_0_1_n_n.lhsBatch by decide),
    dif_pos (show (0 : Fin S512x128.rank) ∈ dot_S512x128_S128x1024_S512x1024_1_0_0_1_n_n.lhsNonContracting by decide)]
  rfl
theorem dot_lhs1 (j : S512x1024.Idx) (q : dot_S512x128_S128x1024_S512x1024_1_0_0_1_n_n.contr.Idx) :
    (dot_S512x128_S128x1024_S512x1024_1_0_0_1_n_n.lhsIdx j q 1).val = (q ⟨0, by decide⟩).val :=
  dot_S512x128_S128x1024_S512x1024_1_0_0_1_n_n.lhsIdx_val_of_single rfl j q
/-- … and its right operand at the contraction coordinate and the output's column. -/
theorem dot_rhs0 (j : S512x1024.Idx) (q : dot_S512x128_S128x1024_S512x1024_1_0_0_1_n_n.contr.Idx) :
    (dot_S512x128_S128x1024_S512x1024_1_0_0_1_n_n.rhsIdx j q 0).val = (q ⟨0, by decide⟩).val :=
  dot_S512x128_S128x1024_S512x1024_1_0_0_1_n_n.rhsIdx_val_of_single rfl j q
theorem dot_rhs1 (j : S512x1024.Idx) (q : dot_S512x128_S128x1024_S512x1024_1_0_0_1_n_n.contr.Idx) :
    (dot_S512x128_S128x1024_S512x1024_1_0_0_1_n_n.rhsIdx j q 1).val = (j 1).val := by
  unfold DotDims.rhsIdx
  rw [dif_neg (show ¬(1 : Fin S128x1024.rank) ∈ dot_S512x128_S128x1024_S512x1024_1_0_0_1_n_n.rhsBatch by decide),
    dif_pos (show (1 : Fin S128x1024.rank) ∈ dot_S512x128_S128x1024_S512x1024_1_0_0_1_n_n.rhsNonContracting by decide)]
  rfl

/-- The product of the row block with the transposed column block, scaled: at `(r, c)` the inner product of row
    `r` of the one with row `c` of the other, times `κ`. -/
theorem pay10 (x4 : Vec Ideal S512x128 .bf16) (x5 : Vec Ideal S1024x128 .bf16) (r : Fin 512) (c : Fin 1024) :
    k0_pay10 (F := Ideal) x4 x5 (ix2 r c) = (∑ k : Fin 128, x4 (ix2 r k) * x5 (ix2 c k)) * Cert.Row.kappa := by
  unfold k0_pay10
  simp only [shapeCast_self]
  rw [mulf_apply, broadcast_apply, kappa_named]
  congr 1
  simp only [matmul]
  rw [Ideal.matmul_constant_zero_apply,
    ← Equiv.sum_comp (contrEquiv1 dot_S512x128_S128x1024_S512x1024_1_0_0_1_n_n 128 rfl rfl).symm]
  refine Finset.sum_congr rfl fun k _ => ?_
  have hk := contrEquiv1_symm_val dot_S512x128_S128x1024_S512x1024_1_0_0_1_n_n 128 rfl rfl k
  have el : dot_S512x128_S128x1024_S512x1024_1_0_0_1_n_n.lhsIdx (ix2 r c)
      ((contrEquiv1 dot_S512x128_S128x1024_S512x1024_1_0_0_1_n_n 128 rfl rfl).symm k) = ix2 r k :=
    funext fun a => Fin.ext (by
      match a with
      | ⟨0, _⟩ => exact dot_lhs0 _ _
      | ⟨1, _⟩ => exact (dot_lhs1 _ _).trans hk)
  have er : dot_S512x128_S128x1024_S512x1024_1_0_0_1_n_n.rhsIdx (ix2 r c)
      ((contrEquiv1 dot_S512x128_S128x1024_S512x1024_1_0_0_1_n_n 128 rfl rfl).symm k) = ix2 k c :=
    funext fun a => Fin.ext (by
      match a with
      | ⟨0, _⟩ => exact (dot_rhs0 _ _).trans hk
      | ⟨1, _⟩ => exact dot_rhs1 _ _)
  rw [el, er, transpose_ix2_apply]

/-! ## The reductions along a row, read at a row -/

/-- The index a reduction over the columns reads at row `r`, column `c`. -/
theorem lift_row (r : Fin 512) (c : Fin 1024) :
    reduces_S512x1024_S512.lift (ix1 r) c = ix2 r c :=
  funext fun a => Fin.ext (by
    match a with
    | ⟨0, _⟩ => rfl
    | ⟨1, _⟩ => rfl)

/-- A sum over the columns, read at row `r`: the sum of the row's entries. -/
theorem rowSum_apply (src : FVec Ideal S512x1024 .f32) (hφ : FKind.Formats .f32)
    (hacc : (0x00000000#32 : BitVec 32) = FKind.add.neutral .f32 hφ) (r : Fin 512) :
    multiReduction (F := Ideal) .add [1] S512 src 0x00000000#32 reduces_S512x1024_S512 hφ hacc (ix1 r)
      = ∑ c : Fin 1024, src (ix2 r c) :=
  (Ideal.multiReduction_add_single src _ reduces_S512x1024_S512 hφ hacc (ix1 r)).trans
    (Finset.sum_congr rfl fun c _ => congrArg src (lift_row r c))

/-- The pattern of the maximum's accumulator is `-∞`. -/
theorem ofBits_neg_inf : Ideal.ofBits .f32 0xFF800000#32 = ⊥ := by simp [Ideal.ofBits, Ideal.ieee]

/-- A maximum over the columns from `-∞`, read at row `r`: the largest of the row's entries. -/
theorem rowMax_apply (src : FVec Ideal S512x1024 .f32) (hφ : FKind.Formats .f32)
    (hacc : (0xFF800000#32 : BitVec 32) = FKind.maximumf.neutral .f32 hφ) (r : Fin 512) :
    multiReduction (F := Ideal) .maximumf [1] S512 src 0xFF800000#32 reduces_S512x1024_S512 hφ hacc (ix1 r)
      = Finset.univ.sup fun c : Fin 1024 => src (ix2 r c) := by
  refine (Ideal.multiReduction_maximumf_single src _ reduces_S512x1024_S512 hφ hacc (ix1 r)).trans ?_
  have hl : (src ∘ reduces_S512x1024_S512.lift (ix1 r)) = fun c : Fin 1024 => src (ix2 r c) :=
    funext fun c => congrArg src (lift_row r c)
  have hb : FloatOps.ofBits (F := Ideal) .f32 0xFF800000#32 = (⊥ : EReal) := ofBits_neg_inf
  rw [hl, hb]
  rfl

/-- The largest similarity of row `r` within the column block. -/
theorem pay11 (x4 : Vec Ideal S512x128 .bf16) (x5 : Vec Ideal S1024x128 .bf16) (r : Fin 512) :
    k0_pay11 (F := Ideal) x4 x5 (ix2 r 0)
      = Finset.univ.sup fun c : Fin 1024 => k0_pay10 (F := Ideal) x4 x5 (ix2 r c) := by
  unfold k0_pay11
  generalize k0_pay10 (F := Ideal) x4 x5 = src
  exact (shapeCast_a_a1_apply _ _ r 0).trans (rowMax_apply src _ _ r)

/-! ## The update of the running columns -/

section Update
variable (v25 v28 v36 : FVec Ideal S512x1024 .f32) (v38 : FVec Ideal S512x1 .f32)
  (m m' lp la cn : Vec Ideal S512x1 .f32) (r : Fin 512) (c : Fin 1024)

/-- The new running maximum. -/
theorem pay12 : k0_pay12 (F := Ideal) v38 m (ix2 r 0) = max (m (ix2 r 0)) (v38 (ix2 r 0)) := rfl

/-- The carried copy of the new running maximum is the same vector. -/
theorem pay18 : k0_pay18 (F := Ideal) v38 m = k0_pay12 (F := Ideal) v38 m := by
  unfold k0_pay18
  exact shapeCast_self _ _

/-- The factor that rescales what was accumulated against the old maximum. -/
theorem pay13 :
    k0_pay13 (F := Ideal) v38 m m' (ix2 r 0) = Ideal.exp (m' (ix2 r 0) - max (m (ix2 r 0)) (v38 (ix2 r 0))) := rfl

/-- The block's weights against the new maximum. -/
theorem pay14 :
    k0_pay14 (F := Ideal) v36 v38 m (ix2 r c)
      = Ideal.exp (v36 (ix2 r c) - max (m (ix2 r 0)) (v38 (ix2 r 0))) := by
  unfold k0_pay14
  show Ideal.exp (v36 (ix2 r c) - broadcastTo S512x1024 (k0_pay12 (F := Ideal) v38 m) broadcasts_S512x1_S512x1024 (ix2 r c)) = _
  rw [broadcastTo_a1_ab_apply, pay12]

/-- The new running sum over the partners. -/
theorem pay15 :
    k0_pay15 (F := Ideal) v25 v36 v38 m m' lp (ix2 r 0)
      = Ideal.exp (m' (ix2 r 0) - max (m (ix2 r 0)) (v38 (ix2 r 0))) * lp (ix2 r 0)
        + ∑ c : Fin 1024, Ideal.exp (v36 (ix2 r c) - max (m (ix2 r 0)) (v38 (ix2 r 0))) * v25 (ix2 r c) := by
  unfold k0_pay15
  simp only [shapeCast_self]
  rw [addf_apply, mulf_apply, pay13]
  congr 1
  refine (shapeCast_a_a1_apply _ _ r 0).trans ((rowSum_apply _ _ _ r).trans ?_)
  exact Finset.sum_congr rfl fun c _ => by rw [mulf_apply, pay14]

/-- The new running sum over all other rows. -/
theorem pay16 :
    k0_pay16 (F := Ideal) v28 v36 v38 m m' la (ix2 r 0)
      = Ideal.exp (m' (ix2 r 0) - max (m (ix2 r 0)) (v38 (ix2 r 0))) * la (ix2 r 0)
        + ∑ c : Fin 1024, Ideal.exp (v36 (ix2 r c) - max (m (ix2 r 0)) (v38 (ix2 r 0))) * v28 (ix2 r c) := by
  unfold k0_pay16
  simp only [shapeCast_self]
  rw [addf_apply, mulf_apply, pay13]
  congr 1
  refine (shapeCast_a_a1_apply _ _ r 0).trans ((rowSum_apply _ _ _ r).trans ?_)
  exact Finset.sum_congr rfl fun c _ => by rw [mulf_apply, pay14]

/-- The new running count of partners. -/
theorem pay17 :
    k0_pay17 (F := Ideal) v25 cn (ix2 r 0) = cn (ix2 r 0) + ∑ c : Fin 1024, v25 (ix2 r c) := by
  unfold k0_pay17
  simp only [shapeCast_self]
  rw [addf_apply]
  congr 1
  exact (shapeCast_a_a1_apply _ _ r 0).trans (rowSum_apply _ _ _ r)

end Update

/-! ## The diagonal, the partners and the other rows -/

/-- A comparison word is `1` exactly when the two words are equal. -/
theorem cmpi_eq_one_iff (x y : BitVec 32) : IntOp.cmpi .eq x y = 1#1 ↔ x = y := by
  unfold IntOp.cmpi
  by_cases h : x = y
  · subst h; simp
  · have hb : (x == y) = false := by simpa using h
    rw [hb]
    simp [h]

/-- Global row and column numbers stay below `2 ^ 32`, so their words are equal exactly when they are. -/
theorem word_eq_iff (a b r c : ℕ) (ha : a < 16) (hb : b < 8) (hr : r < 512) (hc : c < 1024) :
    BitVec.ofNat 32 a * 512#32 + BitVec.ofNat 32 r = BitVec.ofNat 32 b * 1024#32 + BitVec.ofNat 32 c
      ↔ a * 512 + r = b * 1024 + c := by
  rw [← BitVec.toNat_inj]
  simp only [BitVec.toNat_add, BitVec.toNat_mul, BitVec.toNat_ofNat]
  omega

/-- A comparison of two words, widened and converted, is the indicator of their equality. -/
theorem sitofp_cmpi (a b : BitVec 32) :
    FloatOps.sitofp (F := Ideal) .f32 ((IntOp.cmpi .eq a b).setWidth 32) = if a = b then 1 else 0 := by
  unfold IntOp.cmpi
  show ((((BitVec.ofBool (a == b)).setWidth 32).toInt : ℝ) : EReal) = _
  by_cases h : a = b
  · subst h; simp
  · have hb : (a == b) = false := by simpa using h
    rw [hb, if_neg h]; simp

section Masks
variable (i : grid0.Coords) (x2 : Vec Ideal S1x512 .i32) (x3 : Vec Ideal S1x1024 .i32) (r : Fin 512) (c : Fin 1024)

/-- The two words compared at `(r, c)`: the global row number and the global column number. -/
theorem pay7_word :
    k0_pay7 i (ix2 r c) = IntOp.cmpi .eq (BitVec.ofNat 32 (i 0).val * 512#32 + BitVec.ofNat 32 r.val)
      (BitVec.ofNat 32 (i 1).val * 1024#32 + BitVec.ofNat 32 c.val) := by
  unfold k0_pay7
  show IntOp.cmpi .eq
      (broadcastTo S512x1024 (addi (broadcast S512x1 (Scalar.muli (BitVec.ofNat 32 (i 0).val) 512#32))
        (iota .tc S512x1 32 [0] iota_S512x1_d0_w32)) broadcasts_S512x1_S512x1024 (ix2 r c))
      (broadcastTo S512x1024 (addi (broadcast S1x1024 (Scalar.muli (BitVec.ofNat 32 (i 1).val) 1024#32))
        (iota .tc S1x1024 32 [1] iota_S1x1024_d1_w32)) broadcasts_S1x1024_S512x1024 (ix2 r c)) = _
  rw [broadcastTo_a1_ab_apply, broadcastTo_1b_ab_apply]
  show IntOp.cmpi .eq
      (IntOp.addi (Scalar.muli (BitVec.ofNat 32 (i 0).val) 512#32)
        (iota .tc S512x1 32 [0] iota_S512x1_d0_w32 (ix2 r (0 : Fin 1))))
      (IntOp.addi (Scalar.muli (BitVec.ofNat 32 (i 1).val) 1024#32)
        (iota .tc S1x1024 32 [1] iota_S1x1024_d1_w32 (ix2 (0 : Fin 1) c))) = _
  rw [iota_single_apply, iota_single_apply]
  rfl

/-- The diagonal mask is set exactly where the global row and column numbers agree. -/
theorem pay7 : k0_pay7 i (ix2 r c) = 1#1 ↔ (i 0).val * 512 + r.val = (i 1).val * 1024 + c.val := by
  rw [pay7_word, cmpi_eq_one_iff]
  exact word_eq_iff _ _ _ _ (i 0).isLt (i 1).isLt r.isLt c.isLt

/-- The partner mask: 1 where the labels agree, off the diagonal. -/
theorem pay8 :
    k0_pay8 (F := Ideal) i x2 x3 (ix2 r c)
      = if (i 0).val * 512 + r.val = (i 1).val * 1024 + c.val then 0
        else (if x2 (ix2 0 r) = x3 (ix2 0 c) then 1 else 0) := by
  unfold k0_pay8
  simp only [shapeCast_self]
  rw [select_apply, broadcast_apply, sitofp_apply, extui_apply]
  show Scalar.select _ _ (FloatOps.sitofp (F := Ideal) .f32 ((IntOp.cmpi .eq
      (broadcastTo S512x1024 (transpose S512x1 [1, 0] x2 transposes_S1x512_p1_0_S512x1) broadcasts_S512x1_S512x1024 (ix2 r c))
      (broadcastTo S512x1024 x3 broadcasts_S1x1024_S512x1024 (ix2 r c))).setWidth 32)) = _
  rw [broadcastTo_a1_ab_apply, broadcastTo_1b_ab_apply, transpose_ix2_apply, sitofp_cmpi]
  by_cases h : (i 0).val * 512 + r.val = (i 1).val * 1024 + c.val
  · rw [(pay7 i r c).mpr h, select_one, if_pos h]; exact Ideal.ofBits_zero_f32
  · rw [eq_zero_of_ne_one (fun h1 => h ((pay7 i r c).mp h1)), select_zero, if_neg h]

/-- The pattern of `1.0`. -/
theorem ofBits_one_f32 : Ideal.ofBits .f32 0x3F800000#32 = 1 := by
  simp [Ideal.ofBits, Ideal.ieee, -EReal.coe_mul]; norm_num

/-- The mask of the other rows: 1 off the diagonal. -/
theorem pay9 :
    k0_pay9 (F := Ideal) i (ix2 r c) = if (i 0).val * 512 + r.val = (i 1).val * 1024 + c.val then 0 else 1 := by
  unfold k0_pay9
  rw [select_apply, broadcast_apply, broadcast_apply]
  by_cases h : (i 0).val * 512 + r.val = (i 1).val * 1024 + c.val
  · rw [(pay7 i r c).mpr h, select_one, if_pos h]; exact Ideal.ofBits_zero_f32
  · rw [eq_zero_of_ne_one (fun h1 => h ((pay7 i r c).mp h1)), select_zero, if_neg h]; exact ofBits_one_f32

end Masks

/-! ## The initial columns, and the row's loss at the last column block -/

section Final
variable (lp la cn : Vec Ideal S512x1 .f32) (r : Fin 512)

/-- The running maximum starts at `-∞`. -/
theorem pay3 : k0_pay3 (F := Ideal) (ix2 r 0) = ⊥ := by
  unfold k0_pay3
  simp only [shapeCast_self]
  exact ofBits_neg_inf

/-- The running sums and the running count start at zero. -/
theorem pay4 : k0_pay4 (F := Ideal) (ix2 r 0) = 0 := by
  unfold k0_pay4
  simp only [shapeCast_self]
  exact Ideal.ofBits_zero_f32
theorem pay5 : k0_pay5 (F := Ideal) (ix2 r 0) = 0 := by
  unfold k0_pay5
  simp only [shapeCast_self]
  exact Ideal.ofBits_zero_f32
theorem pay6 : k0_pay6 (F := Ideal) (ix2 r 0) = 0 := by
  unfold k0_pay6
  simp only [shapeCast_self]
  exact Ideal.ofBits_zero_f32

/-- A comparison bit, widened and converted, is the indicator of the comparison. -/
theorem sitofp_ofBool (p : Bool) :
    FloatOps.sitofp (F := Ideal) .f32 ((BitVec.ofBool p).setWidth 32) = if p = true then 1 else 0 := by
  show ((((BitVec.ofBool p).setWidth 32).toInt : ℝ) : EReal) = _
  cases p <;> simp

/-- The indicator of a row that has a partner. -/
theorem pay1 : k0_pay1 (F := Ideal) cn (ix2 r 0) = if 0 < cn (ix2 r 0) then 1 else 0 := by
  unfold k0_pay1
  rw [sitofp_apply, extui_apply, cmpf_apply, broadcast_apply]
  show FloatOps.sitofp (F := Ideal) .f32 ((BitVec.ofBool (decide (Ideal.ofBits .f32 0x00000000#32 < cn (ix2 r 0)))).setWidth 32) = _
  rw [sitofp_ofBool, Ideal.ofBits_zero_f32]
  simp only [decide_eq_true_eq]

/-- The row's loss, kept where the row has a partner. -/
theorem pay2 :
    k0_pay2 (F := Ideal) lp la cn (ix2 r 0)
      = -(Ideal.log (max (Ideal.div (lp (ix2 r 0)) (max (la (ix2 r 0)) Cert.Row.eps)) Cert.Row.eps))
          * (if 0 < cn (ix2 r 0) then 1 else 0) := by
  unfold k0_pay2
  rw [mulf_apply, pay1]
  congr 1
  show Ideal.ofBits .f32 0x00000000#32 - Ideal.log (max (Ideal.div (lp (ix2 r 0)) (max (la (ix2 r 0)) Cert.Row.eps)) Cert.Row.eps) = _
  rw [Ideal.ofBits_zero_f32, zero_sub]

end Final

end Cert.KernelIdeal.Pay

end
-- ==== Proof.Online.lean ====
/-
  The online (blockwise) evaluation of a row's maximum and of its exponentially weighted sum, on the extended reals.

  A row of scores is read block by block. After each block the running maximum is raised to cover the block, the
  sum accumulated so far is rescaled by `exp (old maximum − new maximum)`, and the block's own weighted terms,
  taken against the new maximum, are added. After `n` blocks the running maximum is the maximum of all scores
  read, and the running sum is `∑ exp (score − that maximum) · weight` over all scores read: once a block has
  been read the running maximum is a real number, and `exp (M − M') · exp (s − M) = exp (s − M')` in the reals;
  before any block has been read the accumulated sum is the empty sum.
-/
import Idealize.ShloMosaic.PureOps.Ideal
import Idealize.ShloMosaic.PureOps.Ideal.Laws
import Mathlib.Data.EReal.Basic
import Mathlib.Algebra.BigOperators.Fin
import Mathlib.Logic.Equiv.Fin.Basic
import Mathlib.Analysis.SpecialFunctions.Exp

noncomputable section

namespace Cert.Online

open Idealize.ShloMosaic
open scoped BigOperators

/-- The coercion of the reals into the extended reals commutes with finite sums. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

section Run

variable {C : ℕ} (s w : ℕ → Fin C → ℝ)

/-- the running maximum after n blocks -/
def runMax : ℕ → EReal
  | 0 => ⊥
  | n+1 => max (runMax n) (Finset.univ.sup fun c : Fin C => ((s n c : ℝ) : EReal))

/-- the running weighted sum after n blocks, rescaled to the running maximum -/
def runSum : ℕ → EReal
  | 0 => 0
  | n+1 => Ideal.exp (runMax s n - runMax s (n+1)) * runSum n
           + ∑ c : Fin C, Ideal.exp (((s n c : ℝ) : EReal) - runMax s (n+1)) * ((w n c : ℝ) : EReal)

theorem runMax_eq (n : ℕ) :
    runMax s n = (Finset.range n).sup fun j => Finset.univ.sup fun c : Fin C => ((s j c : ℝ) : EReal) := by
  induction n with
  | zero => simp [runMax]
  | succ n ih => rw [runMax, ih, Finset.range_add_one, Finset.sup_insert, max_comm]

/-- The maximum of a nonempty finite family of real numbers is a real number. -/
theorem sup_coe_real {ι : Type*} (t : Finset ι) (ht : t.Nonempty) (f : ι → ℝ) :
    ∃ m : ℝ, (t.sup fun i => ((f i : ℝ) : EReal)) = (m : EReal) := by
  obtain ⟨i, _, hi⟩ := Finset.exists_mem_eq_sup t ht (fun i => ((f i : ℝ) : EReal))
  exact ⟨f i, hi⟩

/-- Once a block has been read (blocks being nonempty) the running maximum is a real number. -/
theorem runMax_succ_real (hC : 0 < C) (n : ℕ) : ∃ m : ℝ, runMax s (n+1) = (m : EReal) := by
  haveI : Nonempty (Fin C) := ⟨⟨0, hC⟩⟩
  induction n with
  | zero =>
    obtain ⟨b, hb⟩ := sup_coe_real (Finset.univ : Finset (Fin C)) Finset.univ_nonempty (s 0)
    refine ⟨b, ?_⟩
    rw [runMax, runMax, hb]; exact max_eq_right bot_le
  | succ n ih =>
    obtain ⟨b, hb⟩ := sup_coe_real (Finset.univ : Finset (Fin C)) Finset.univ_nonempty (s (n+1))
    obtain ⟨a, ha⟩ := ih
    refine ⟨max a b, ?_⟩
    rw [runMax, ha, hb]; exact (EReal.coe_strictMono.monotone.map_max).symm

theorem runSum_eq (hC : 0 < C) (n : ℕ) :
    runSum s w n = ∑ j ∈ Finset.range n, ∑ c : Fin C,
      Ideal.exp (((s j c : ℝ) : EReal) - runMax s n) * ((w j c : ℝ) : EReal) := by
  induction n with
  | zero => simp [runSum]
  | succ n ih =>
    rw [runSum, ih]
    obtain ⟨m', hm'⟩ := runMax_succ_real s hC n
    rcases n with _ | k
    · simp
    · obtain ⟨m, hm⟩ := runMax_succ_real s hC k
      rw [hm', hm]
      have e1 : ∀ (a : ℝ) (j : ℕ) (c : Fin C),
          Ideal.exp (((s j c : ℝ) : EReal) - (a : EReal)) * ((w j c : ℝ) : EReal)
            = ((Real.exp (s j c - a) * w j c : ℝ) : EReal) := by
        intro a j c
        rw [← EReal.coe_sub, Ideal.exp_coe, ← EReal.coe_mul]
      simp only [e1]
      rw [← EReal.coe_sub, Ideal.exp_coe]
      simp only [← coe_sum]
      rw [← EReal.coe_mul, ← EReal.coe_add, EReal.coe_eq_coe_iff]
      rw [Finset.sum_range_succ (fun j => ∑ c : Fin C, Real.exp (s j c - m') * w j c) (k+1), Finset.mul_sum]
      congr 1
      refine Finset.sum_congr rfl fun j _ => ?_
      rw [Finset.mul_sum]
      refine Finset.sum_congr rfl fun c _ => ?_
      rw [← mul_assoc, ← Real.exp_add]
      congr 2; ring

end Run

section Blocks

/-- Position `k` of a row of 8192 is column `k % 1024` of block `k / 1024`: the sum over the row is the sum over
    the 8 blocks of the sums over their 1024 columns. -/
theorem sum_blocks (f : Fin 8192 → EReal) :
    ∑ k : Fin 8192, f k
      = ∑ j ∈ Finset.range 8, ∑ c : Fin 1024, f ⟨(j % 8) * 1024 + c.val, by omega⟩ := by
  have h1 : ∑ k : Fin 8192, f k = ∑ q : Fin 8 × Fin 1024, f (finProdFinEquiv q) :=
    (Equiv.sum_comp (finProdFinEquiv (m := 8) (n := 1024)) f).symm
  rw [h1, Fintype.sum_prod_type,
    ← Fin.sum_univ_eq_sum_range (fun j => ∑ c : Fin 1024, f ⟨(j % 8) * 1024 + c.val, by omega⟩) 8]
  refine Finset.sum_congr rfl fun i _ => Finset.sum_congr rfl fun c _ => ?_
  congr 1
  apply Fin.ext
  have hi := i.isLt
  simp only [finProdFinEquiv_apply_val]
  omega

/-- The same for the maximum. -/
theorem sup_blocks (f : Fin 8192 → EReal) :
    Finset.univ.sup f
      = (Finset.range 8).sup fun j => Finset.univ.sup fun c : Fin 1024 => f ⟨(j % 8) * 1024 + c.val, by omega⟩ := by
  apply le_antisymm
  · refine Finset.sup_le fun k _ => ?_
    have hk := k.isLt
    have hj : k.val / 1024 ∈ Finset.range 8 := Finset.mem_range.mpr (by omega)
    have hc : k.val % 1024 < 1024 := Nat.mod_lt _ (by norm_num)
    have e : (⟨((k.val / 1024) % 8) * 1024 + (⟨k.val % 1024, hc⟩ : Fin 1024).val, by simp only; omega⟩ : Fin 8192) = k :=
      Fin.ext (by simp only; omega)
    calc f k = f ⟨((k.val / 1024) % 8) * 1024 + (⟨k.val % 1024, hc⟩ : Fin 1024).val, by simp only; omega⟩ := by rw [e]
      _ ≤ Finset.univ.sup (fun c : Fin 1024 => f ⟨((k.val / 1024) % 8) * 1024 + c.val, by omega⟩) :=
          Finset.le_sup (f := fun c : Fin 1024 => f ⟨((k.val / 1024) % 8) * 1024 + c.val, by omega⟩)
            (Finset.mem_univ (⟨k.val % 1024, hc⟩ : Fin 1024))
      _ ≤ _ := Finset.le_sup
          (f := fun j => Finset.univ.sup fun c : Fin 1024 => f ⟨(j % 8) * 1024 + c.val, by omega⟩) hj
  · exact Finset.sup_le fun j _ => Finset.sup_le fun c _ => Finset.le_sup (Finset.mem_univ _)

/-- The blocks of a row of 8192: block `j` (taken modulo 8), column `c`. -/
def blk (g : Fin 8192 → ℝ) : ℕ → Fin 1024 → ℝ := fun j c => g ⟨(j % 8) * 1024 + c.val, by omega⟩

theorem row_max (s' : Fin 8192 → ℝ) :
    runMax (blk s') 8 = Finset.univ.sup fun k : Fin 8192 => ((s' k : ℝ) : EReal) := by
  rw [runMax_eq, sup_blocks (fun k : Fin 8192 => ((s' k : ℝ) : EReal))]
  rfl

theorem row_sum (s' w' : Fin 8192 → ℝ) :
    runSum (blk s') (blk w') 8
      = ∑ k : Fin 8192, Ideal.exp (((s' k : ℝ) : EReal)
          - Finset.univ.sup fun k : Fin 8192 => ((s' k : ℝ) : EReal)) * ((w' k : ℝ) : EReal) := by
  rw [runSum_eq (blk s') (blk w') (by norm_num) 8, row_max,
    sum_blocks (fun k : Fin 8192 => Ideal.exp (((s' k : ℝ) : EReal)
          - Finset.univ.sup fun k : Fin 8192 => ((s' k : ℝ) : EReal)) * ((w' k : ℝ) : EReal))]
  rfl

end Blocks

end Cert.Online

end
-- ==== Proof.RowFinite.lean ====
/-
  The normalised rows and the similarities are real numbers whenever the embeddings are.

  A row's squared norm is a finite sum of squares of real numbers, so a nonnegative real; its square root is a
  real; the clamp `tiny` is a positive real, so the larger of the two is a positive real and dividing a real
  by it gives a real. A similarity is a finite sum of products of reals times the real κ.
-/
import proofs.«145336_j13005160973089_1_alg».proof.Proof.RowSpec
import proofs.«145336_j13005160973089_1_alg».proof.Proof.Online

noncomputable section

namespace Cert.Row

open Idealize.ShloMosaic
open scoped BigOperators

/-- The clamp of the norm is a positive real number: `9223372 · 2⁻⁶³`. -/
theorem tiny_pos_real : ∃ t : ℝ, 0 < t ∧ tiny = (t : EReal) := by
  refine ⟨9223372 * (2 : ℝ) ^ (-63 : ℤ), by positivity, ?_⟩
  simp [tiny, Ideal.ofBits, Ideal.ieee, -EReal.coe_mul]

theorem normalize_finite (x : Fin 8192 → Fin 128 → EReal) (hx : ∀ r k, ∃ e : ℝ, x r k = (e : EReal)) :
    ∀ r k, ∃ e : ℝ, normalize x r k = (e : EReal) := by
  choose g hg using hx
  obtain ⟨t, ht, htiny⟩ := tiny_pos_real
  intro r k
  have hn : norm2 x r = ((∑ k : Fin 128, g r k * g r k : ℝ) : EReal) := by
    rw [norm2, Cert.Online.coe_sum]
    refine Finset.sum_congr rfl fun k _ => ?_
    rw [hg, EReal.coe_mul]
  have hnn : 0 ≤ ∑ k : Fin 128, g r k * g r k := Finset.sum_nonneg fun k _ => mul_self_nonneg _
  have hs : Ideal.sqrt (norm2 x r) = ((Real.sqrt (∑ k : Fin 128, g r k * g r k) : ℝ) : EReal) := by
    rw [hn, Ideal.sqrt_coe, if_neg (not_lt.mpr hnn)]
  have hm : max (Ideal.sqrt (norm2 x r)) tiny
      = ((max (Real.sqrt (∑ k : Fin 128, g r k * g r k)) t : ℝ) : EReal) := by
    rw [hs, htiny]; exact (EReal.coe_strictMono.monotone.map_max).symm
  have hpos : (0 : ℝ) < max (Real.sqrt (∑ k : Fin 128, g r k * g r k)) t := lt_max_of_lt_right ht
  refine ⟨g r k * (1 / max (Real.sqrt (∑ k : Fin 128, g r k * g r k)) t), ?_⟩
  rw [normalize, hm, Ideal.div_coe hpos.ne', hg, EReal.coe_mul]

theorem sim_finite (E : Fin 8192 → Fin 128 → EReal) (hE : ∀ r k, ∃ e : ℝ, E r k = (e : EReal)) :
    ∀ r c, ∃ e : ℝ, sim E r c = (e : EReal) := by
  choose g hg using hE
  intro r c
  refine ⟨(∑ k : Fin 128, g r k * g c k) * (134217728 / 13421773), ?_⟩
  rw [sim, dot, EReal.coe_mul, Cert.Online.coe_sum]
  congr 1
  refine Finset.sum_congr rfl fun k _ => ?_
  rw [hg, hg, EReal.coe_mul]

end Cert.Row

end
-- ==== Proof.KStep.lean ====
/-
  The eight column blocks of one row block.

  At one block of 512 rows the kernel resets four running columns and then visits the eight blocks of 1024
  columns in turn: the running maximum is raised to cover the block's similarities, the two running sums are
  rescaled to the new maximum and the block's weighted terms added, and the running count adds the block's
  number of partners. For one row this is the online evaluation of `Cert.Online` applied to the row's
  similarities (real numbers, the embeddings being real) with the partner weights and with the other-row weights
  (each 0 or 1). After the eighth block the running columns therefore hold the row's largest similarity, its two
  weighted sums and its number of partners, and the two stored results are the row's indicator of having a partner
  and its kept loss.
-/
import proofs.«145336_j13005160973089_1_alg».proof.Proof.KPay
import proofs.«145336_j13005160973089_1_alg».proof.Proof.Online
import proofs.«145336_j13005160973089_1_alg».proof.Proof.RowSpec
import proofs.«145336_j13005160973089_1_alg».proof.Proof.RowFinite

noncomputable section

namespace Cert.KernelIdeal.Step

open Idealize.ShloMosaic Idealize.ShloMosaic.ValueIdx Cert.KernelIdeal Cert.KernelIdeal.Gen Cert.KernelIdeal.Pay
open Cert.Online (runMax runSum blk)
open scoped BigOperators

/-- The four running columns of a row block. -/
structure St where
  (m lp la cn : Vec Ideal S512x1 .f32)

/-- The columns as the first column block resets them. -/
def init : St := ⟨k0_pay3 (F := Ideal), k0_pay4 (F := Ideal), k0_pay5 (F := Ideal), k0_pay6 (F := Ideal)⟩

/-- The columns after one more column block. -/
def step (i : grid0.Coords) (x2 : Vec Ideal S1x512 .i32) (x3 : Vec Ideal S1x1024 .i32) (x4 : Vec Ideal S512x128 .bf16)
    (x5 : Vec Ideal S1024x128 .bf16) (s : St) : St :=
  ⟨k0_pay18 (k0_pay11 x4 x5) s.m,
   k0_pay15 (k0_pay8 i x2 x3) (k0_pay10 x4 x5) (k0_pay11 x4 x5) s.m s.m s.lp,
   k0_pay16 (k0_pay9 i) (k0_pay10 x4 x5) (k0_pay11 x4 x5) s.m s.m s.la,
   k0_pay17 (k0_pay8 i x2 x3) s.cn⟩

/-- The columns after the first `n` column blocks. -/
def stAt (i : ℕ → grid0.Coords) (x2 : ℕ → Vec Ideal S1x512 .i32) (x3 : ℕ → Vec Ideal S1x1024 .i32)
    (x4 : ℕ → Vec Ideal S512x128 .bf16) (x5 : ℕ → Vec Ideal S1024x128 .bf16) : ℕ → St
  | 0 => init
  | n+1 => step (i n) (x2 n) (x3 n) (x4 n) (x5 n) (stAt i x2 x3 x4 x5 n)

/-! ## The weights as real numbers -/

/-- The partner weight of column `k` for row `R`, as a real number. -/
def wpos (lab : Fin 8192 → BitVec 32) (R k : Fin 8192) : ℝ := if R = k then 0 else if lab R = lab k then 1 else 0
/-- The other-row weight of column `k` for row `R`, as a real number. -/
def wall (R k : Fin 8192) : ℝ := if R = k then 0 else 1

theorem posw_coe (lab : Fin 8192 → BitVec 32) (R k : Fin 8192) :
    Cert.Row.posw lab R k = ((wpos lab R k : ℝ) : EReal) := by
  unfold Cert.Row.posw Cert.Row.same wpos
  split_ifs <;> simp
theorem allw_coe (R k : Fin 8192) : Cert.Row.allw R k = ((wall R k : ℝ) : EReal) := by
  unfold Cert.Row.allw wall
  split_ifs <;> simp

/-- A row of a row block, and a column of a column block, are rows of the whole array. -/
theorem row_lt (a : Fin 16) (r : Fin 512) : a.val * 512 + r.val < 8192 := by omega
theorem col_lt (n : ℕ) (c : Fin 1024) : (n % 8) * 1024 + c.val < 8192 := by omega

/-! ## One column block, read in the terms of the specification -/

section Block
variable (E : Fin 8192 → Fin 128 → EReal) (lab : Fin 8192 → BitVec 32) (a : Fin 16) (n : ℕ)
  (i : grid0.Coords) (x2 : Vec Ideal S1x512 .i32) (x3 : Vec Ideal S1x1024 .i32)
  (x4 : Vec Ideal S512x128 .bf16) (x5 : Vec Ideal S1024x128 .bf16)
  (hx2 : ∀ r : Fin 512, x2 (ix2 0 r) = lab ⟨a.val * 512 + r.val, row_lt a r⟩)
  (hx3 : ∀ c : Fin 1024, x3 (ix2 0 c) = lab ⟨(n % 8) * 1024 + c.val, col_lt n c⟩)
  (hx4 : ∀ (r : Fin 512) (k : Fin 128), x4 (ix2 r k) = E ⟨a.val * 512 + r.val, row_lt a r⟩ k)
  (hx5 : ∀ (c : Fin 1024) (k : Fin 128), x5 (ix2 c k) = E ⟨(n % 8) * 1024 + c.val, col_lt n c⟩ k)
  (hn : n < 8) (hi0 : (i 0).val = a.val) (hi1 : (i 1).val = n)
  (r : Fin 512) (c : Fin 1024)

include hx4 hx5 in
/-- The block's product is the similarity of the global row and column. -/
theorem sim_block :
    k0_pay10 (F := Ideal) x4 x5 (ix2 r c)
      = Cert.Row.sim E ⟨a.val * 512 + r.val, row_lt a r⟩ ⟨(n % 8) * 1024 + c.val, col_lt n c⟩ := by
  rw [pay10]
  unfold Cert.Row.sim Cert.Row.dot
  congr 1
  exact Finset.sum_congr rfl fun k _ => by rw [hx4, hx5]

include hn hi0 hi1 in
/-- The block's diagonal test is the equality of the global row and column. -/
theorem diag_iff :
    (i 0).val * 512 + r.val = (i 1).val * 1024 + c.val
      ↔ (⟨a.val * 512 + r.val, row_lt a r⟩ : Fin 8192) = ⟨(n % 8) * 1024 + c.val, col_lt n c⟩ := by
  rw [hi0, hi1, Fin.ext_iff]
  show _ ↔ a.val * 512 + r.val = (n % 8) * 1024 + c.val
  rw [Nat.mod_eq_of_lt hn]

include hn hi0 hi1 hx2 hx3 in
/-- The block's partner mask is the specification's partner weight. -/
theorem posw_block :
    k0_pay8 (F := Ideal) i x2 x3 (ix2 r c)
      = Cert.Row.posw lab ⟨a.val * 512 + r.val, row_lt a r⟩ ⟨(n % 8) * 1024 + c.val, col_lt n c⟩ := by
  rw [pay8, hx2, hx3]
  unfold Cert.Row.posw Cert.Row.same
  exact if_congr (diag_iff a n i hn hi0 hi1 r c) rfl rfl

include hn hi0 hi1 in
/-- The block's mask of the other rows is the specification's weight. -/
theorem allw_block :
    k0_pay9 (F := Ideal) i (ix2 r c)
      = Cert.Row.allw ⟨a.val * 512 + r.val, row_lt a r⟩ ⟨(n % 8) * 1024 + c.val, col_lt n c⟩ := by
  rw [pay9]
  unfold Cert.Row.allw
  exact if_congr (diag_iff a n i hn hi0 hi1 r c) rfl rfl

end Block

/-! ## The running columns along the eight column blocks, at one row -/

section Rows
variable (E : Fin 8192 → Fin 128 → EReal) (lab : Fin 8192 → BitVec 32) (a : Fin 16)
  (i : ℕ → grid0.Coords) (x2 : ℕ → Vec Ideal S1x512 .i32) (x3 : ℕ → Vec Ideal S1x1024 .i32)
  (x4 : ℕ → Vec Ideal S512x128 .bf16) (x5 : ℕ → Vec Ideal S1024x128 .bf16)
  (hi0 : ∀ n < 8, ((i n) 0).val = a.val) (hi1 : ∀ n < 8, ((i n) 1).val = n)
  (hx2 : ∀ n < 8, ∀ r : Fin 512, x2 n (ix2 0 r) = lab ⟨a.val * 512 + r.val, row_lt a r⟩)
  (hx3 : ∀ n < 8, ∀ c : Fin 1024, x3 n (ix2 0 c) = lab ⟨(n % 8) * 1024 + c.val, col_lt n c⟩)
  (hx4 : ∀ n < 8, ∀ (r : Fin 512) (k : Fin 128), x4 n (ix2 r k) = E ⟨a.val * 512 + r.val, row_lt a r⟩ k)
  (hx5 : ∀ n < 8, ∀ (c : Fin 1024) (k : Fin 128), x5 n (ix2 c k) = E ⟨(n % 8) * 1024 + c.val, col_lt n c⟩ k)
  (r : Fin 512)

include hi0 hi1 hx2 hx3 hx4 hx5 in
/-- After `n ≤ 8` column blocks the running columns at row `r` are the online maximum, the two online sums and the
    count of partners over the first `n` blocks of the row's similarities `s'`. -/
theorem invariant (s' : Fin 8192 → ℝ)
    (hs' : ∀ k, Cert.Row.sim E ⟨a.val * 512 + r.val, row_lt a r⟩ k = ((s' k : ℝ) : EReal)) (n : ℕ) (hn : n ≤ 8) :
    (stAt i x2 x3 x4 x5 n).m (ix2 r 0) = runMax (blk s') n
    ∧ (stAt i x2 x3 x4 x5 n).lp (ix2 r 0)
        = runSum (blk s') (blk (wpos lab ⟨a.val * 512 + r.val, row_lt a r⟩)) n
    ∧ (stAt i x2 x3 x4 x5 n).la (ix2 r 0)
        = runSum (blk s') (blk (wall ⟨a.val * 512 + r.val, row_lt a r⟩)) n
    ∧ (stAt i x2 x3 x4 x5 n).cn (ix2 r 0)
        = ∑ j ∈ Finset.range n, ∑ c : Fin 1024,
            ((blk (wpos lab ⟨a.val * 512 + r.val, row_lt a r⟩) j c : ℝ) : EReal) := by
  induction n with
  | zero =>
    refine ⟨pay3 r, pay4 r, pay5 r, ?_⟩
    rw [Finset.range_zero, Finset.sum_empty]
    exact pay6 r
  | succ n ih =>
    have hn' : n < 8 := hn
    obtain ⟨hm, hlp, hla, hcn⟩ := ih (le_of_lt hn')
    have hstep : stAt i x2 x3 x4 x5 (n + 1) = step (i n) (x2 n) (x3 n) (x4 n) (x5 n) (stAt i x2 x3 x4 x5 n) := rfl
    rw [hstep]
    generalize stAt i x2 x3 x4 x5 n = S at hm hlp hla hcn ⊢
    have hv36 : ∀ c : Fin 1024, k0_pay10 (F := Ideal) (x4 n) (x5 n) (ix2 r c) = ((blk s' n c : ℝ) : EReal) := fun c =>
      (sim_block E a n (x4 n) (x5 n) (hx4 n hn') (hx5 n hn') r c).trans (hs' _)
    have hv38 : k0_pay11 (F := Ideal) (x4 n) (x5 n) (ix2 r 0)
        = Finset.univ.sup fun c : Fin 1024 => ((blk s' n c : ℝ) : EReal) :=
      (pay11 (x4 n) (x5 n) r).trans (Finset.sup_congr rfl fun c _ => hv36 c)
    have hmax : max (S.m (ix2 r 0)) (k0_pay11 (F := Ideal) (x4 n) (x5 n) (ix2 r 0)) = runMax (blk s') (n + 1) := by
      rw [hm, hv38]; rfl
    have hv25 : ∀ c : Fin 1024, k0_pay8 (F := Ideal) (i n) (x2 n) (x3 n) (ix2 r c)
        = ((blk (wpos lab ⟨a.val * 512 + r.val, row_lt a r⟩) n c : ℝ) : EReal) := fun c =>
      (posw_block lab a n (i n) (x2 n) (x3 n) (hx2 n hn') (hx3 n hn') hn' (hi0 n hn') (hi1 n hn') r c).trans (posw_coe _ _ _)
    have hv28 : ∀ c : Fin 1024, k0_pay9 (F := Ideal) (i n) (ix2 r c)
        = ((blk (wall ⟨a.val * 512 + r.val, row_lt a r⟩) n c : ℝ) : EReal) := fun c =>
      (allw_block a n (i n) hn' (hi0 n hn') (hi1 n hn') r c).trans (allw_coe _ _)
    refine ⟨?_, ?_, ?_, ?_⟩
    · show k0_pay18 (F := Ideal) (k0_pay11 (x4 n) (x5 n)) S.m (ix2 r 0) = _
      rw [pay18, pay12, hmax]
    · show k0_pay15 (F := Ideal) (k0_pay8 (i n) (x2 n) (x3 n)) (k0_pay10 (x4 n) (x5 n)) (k0_pay11 (x4 n) (x5 n))
          S.m S.m S.lp (ix2 r 0) = _
      rw [pay15, hmax, hm, hlp]
      simp only [hv36, hv25]
      rfl
    · show k0_pay16 (F := Ideal) (k0_pay9 (i n)) (k0_pay10 (x4 n) (x5 n)) (k0_pay11 (x4 n) (x5 n))
          S.m S.m S.la (ix2 r 0) = _
      rw [pay16, hmax, hm, hla]
      simp only [hv36, hv28]
      rfl
    · show k0_pay17 (F := Ideal) (k0_pay8 (i n) (x2 n) (x3 n)) S.cn (ix2 r 0) = _
      rw [pay17, hcn, Finset.sum_range_succ]
      simp only [hv25]

include hi0 hi1 hx2 hx3 hx4 hx5 in
/-- After the eighth column block the running columns at row `r` hold the row's largest similarity, its two weighted
    sums and its number of partners. -/
theorem final_state (hE : ∀ r k, ∃ e : ℝ, E r k = (e : EReal)) :
    (stAt i x2 x3 x4 x5 8).m (ix2 r 0) = Cert.Row.rmax E ⟨a.val * 512 + r.val, row_lt a r⟩
    ∧ (stAt i x2 x3 x4 x5 8).lp (ix2 r 0) = Cert.Row.lpos E lab ⟨a.val * 512 + r.val, row_lt a r⟩
    ∧ (stAt i x2 x3 x4 x5 8).la (ix2 r 0) = Cert.Row.lall E ⟨a.val * 512 + r.val, row_lt a r⟩
    ∧ (stAt i x2 x3 x4 x5 8).cn (ix2 r 0) = Cert.Row.cnt lab ⟨a.val * 512 + r.val, row_lt a r⟩ := by
  choose s' hs' using Cert.Row.sim_finite E hE ⟨a.val * 512 + r.val, row_lt a r⟩
  obtain ⟨hm, hlp, hla, hcn⟩ := invariant E lab a i x2 x3 x4 x5 hi0 hi1 hx2 hx3 hx4 hx5 r s' hs' 8 le_rfl
  have hsf : (fun k : Fin 8192 => ((s' k : ℝ) : EReal))
      = fun k => Cert.Row.sim E ⟨a.val * 512 + r.val, row_lt a r⟩ k := funext fun k => (hs' k).symm
  have hmax : (Finset.univ.sup fun k : Fin 8192 => ((s' k : ℝ) : EReal))
      = Cert.Row.rmax E ⟨a.val * 512 + r.val, row_lt a r⟩ := by rw [hsf]; rfl
  refine ⟨?_, ?_, ?_, ?_⟩
  · rw [hm, Cert.Online.row_max, hmax]
  · rw [hlp, Cert.Online.row_sum, hmax]
    unfold Cert.Row.lpos Cert.Row.p
    exact Finset.sum_congr rfl fun k _ => by rw [hs' k, posw_coe]
  · rw [hla, Cert.Online.row_sum, hmax]
    unfold Cert.Row.lall Cert.Row.p
    exact Finset.sum_congr rfl fun k _ => by rw [hs' k, allw_coe]
  · rw [hcn]
    refine (Cert.Online.sum_blocks
      (fun k : Fin 8192 => ((wpos lab ⟨a.val * 512 + r.val, row_lt a r⟩ k : ℝ) : EReal))).symm.trans ?_
    unfold Cert.Row.cnt
    exact Finset.sum_congr rfl fun k _ => (posw_coe lab _ k).symm

include hi0 hi1 hx2 hx3 hx4 hx5 in
/-- The stored indicator of a row with a partner is the specification's. -/
theorem final_valid (hE : ∀ r k, ∃ e : ℝ, E r k = (e : EReal)) :
    k0_pay1 (F := Ideal) (stAt i x2 x3 x4 x5 8).cn (ix2 r 0)
      = Cert.Row.valid lab ⟨a.val * 512 + r.val, row_lt a r⟩ := by
  obtain ⟨_, _, _, hcn⟩ := final_state E lab a i x2 x3 x4 x5 hi0 hi1 hx2 hx3 hx4 hx5 r hE
  rw [pay1, hcn]
  rfl

include hi0 hi1 hx2 hx3 hx4 hx5 in
/-- The stored loss of a row, kept where it has a partner, is the specification's. -/
theorem final_lossValid (hE : ∀ r k, ∃ e : ℝ, E r k = (e : EReal)) :
    k0_pay2 (F := Ideal) (stAt i x2 x3 x4 x5 8).lp (stAt i x2 x3 x4 x5 8).la (stAt i x2 x3 x4 x5 8).cn (ix2 r 0)
      = Cert.Row.lossValid E lab ⟨a.val * 512 + r.val, row_lt a r⟩ := by
  obtain ⟨_, hlp, hla, hcn⟩ := final_state E lab a i x2 x3 x4 x5 hi0 hi1 hx2 hx3 hx4 hx5 r hE
  rw [pay2, hlp, hla, hcn]
  rfl

end Rows

end Cert.KernelIdeal.Step

end
-- ==== Proof.KIValue.lean ====
/-
  The idealized kernel's value: the two result arrays after the region, row by row.
  Along the eight column blocks of a row block the scratch operands hold the step recursion's state — the running
  maximum, the two running sums, the running count — so at the last column block the output blocks hold each row's
  kept loss and its indicator; each output block is written back once, at the row block's last point, and the
  sixteen blocks tile the arrays.
-/
import proofs.«145336_j13005160973089_1_alg».proof.Proof.KIBlocks
import proofs.«145336_j13005160973089_1_alg».proof.Proof.KIPieces
import proofs.«145336_j13005160973089_1_alg».proof.Proof.KStep

set_option maxRecDepth 16384

noncomputable section

namespace Cert.KernelIdeal.Val

open Cert.KernelIdeal Cert.KernelIdeal.Gen Cert.KernelIdeal.Frame Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The normalised embeddings and the labels as the region finds them, by row. -/
def Em (c : Dev nD) : Fin 8192 → Fin 128 → EReal := fun R k => (V c main_v5 : S8192x128.Idx → EReal) (ix2 R k)
def Lb (c : Dev nD) : Fin 8192 → BitVec 32 := fun R => (V c main_v6 : S1x8192.Idx → BitVec 32) (ix2 (0 : Fin 1) R)

/-- The points of row block `a`, by column block (any `n`, reduced mod 8). -/
def pt (a : Fin 16) (n : ℕ) : Fin cfg0.N := ⟨a.val * 8 + n % 8, by rw [show cfg0.N = 128 from N_0]; omega⟩

theorem pt_val (a : Fin 16) (n : ℕ) : (pt a n).val = a.val * 8 + n % 8 := rfl

/-- The step recursion's inputs at row block `a`: the points' coordinates and input blocks. -/
abbrev ii (a : Fin 16) : ℕ → grid0.Coords := fun n => grid0.coords (pt a n)
abbrev xx2 (c : Dev nD) (a : Fin 16) : ℕ → Vec Ideal S1x512 .i32 := fun n => iblk V c 0 (pt a n)
abbrev xx3 (c : Dev nD) (a : Fin 16) : ℕ → Vec Ideal S1x1024 .i32 := fun n => iblk V c 1 (pt a n)
abbrev xx4 (c : Dev nD) (a : Fin 16) : ℕ → Vec Ideal S512x128 .bf16 := fun n => iblk V c 2 (pt a n)
abbrev xx5 (c : Dev nD) (a : Fin 16) : ℕ → Vec Ideal S1024x128 .bf16 := fun n => iblk V c 3 (pt a n)

/-- THE INVARIANT: after column block `n` of row block `a` the scratch operands hold the recursion's state. -/
theorem scratch_eq (c : Dev nD) (a : Fin 16) : ∀ n, n < 8 →
    (outsAt0 V c (pt a n).val (pt a n).isLt).s0 = (stAt (ii a) (xx2 V c a) (xx3 V c a) (xx4 V c a) (xx5 V c a) (n + 1)).m
    ∧ (outsAt0 V c (pt a n).val (pt a n).isLt).s1 = (stAt (ii a) (xx2 V c a) (xx3 V c a) (xx4 V c a) (xx5 V c a) (n + 1)).lp
    ∧ (outsAt0 V c (pt a n).val (pt a n).isLt).s2 = (stAt (ii a) (xx2 V c a) (xx3 V c a) (xx4 V c a) (xx5 V c a) (n + 1)).la
    ∧ (outsAt0 V c (pt a n).val (pt a n).isLt).s3 = (stAt (ii a) (xx2 V c a) (xx3 V c a) (xx4 V c a) (xx5 V c a) (n + 1)).cn := by
  intro n
  induction n with
  | zero =>
    intro _
    have h0 : (pt a 0).val % 8 = 0 := by rw [pt_val]; omega
    have h1 : ¬(pt a 0).val % 8 = 7 := by rw [pt_val]; omega
    rw [outsAt0_A V c (pt a 0) h0 h1]
    unfold outsA
    dsimp only
    refine ⟨?_, ?_, ?_, ?_⟩
    · exact (pieceA_0 (F := Ideal) ..).trans rfl
    · exact (pieceA_1 (F := Ideal) ..).trans rfl
    · exact (pieceA_2 (F := Ideal) ..).trans rfl
    · exact (pieceA_3 (F := Ideal) ..).trans rfl
  | succ n ih =>
    intro hn
    obtain ⟨i0, i1, i2, i3⟩ := ih (by omega)
    have hv : (pt a (n + 1)).val = a.val * 8 + (n + 1) := by rw [pt_val]; omega
    have hp : (pt a (n + 1)).val - 1 = (pt a n).val := by rw [pt_val, pt_val]; omega
    have h0 : ¬(pt a (n + 1)).val % 8 = 0 := by rw [hv]; omega
    have hprev : outsAt0 V c ((pt a (n + 1)).val - 1) (Nat.lt_of_le_of_lt (Nat.sub_le _ _) (pt a (n + 1)).isLt)
        = outsAt0 V c (pt a n).val (pt a n).isLt := by congr 1
    by_cases h1 : (pt a (n + 1)).val % 8 = 7
    · rw [outsAt0_C V c (pt a (n + 1)) h0 h1, hprev]
      unfold outsC
      dsimp only
      refine ⟨?_, ?_, ?_, ?_⟩
      · refine (pieceC_2 (F := Ideal) ..).trans ?_
        rw [i0]; rfl
      · refine (pieceC_3 (F := Ideal) ..).trans ?_
        rw [i0, i1]; rfl
      · refine (pieceC_4 (F := Ideal) ..).trans ?_
        rw [i0, i2]; rfl
      · refine (pieceC_5 (F := Ideal) ..).trans ?_
        rw [i3]; rfl
    · rw [outsAt0_B V c (pt a (n + 1)) h0 h1, hprev]
      unfold outsB
      dsimp only
      refine ⟨?_, ?_, ?_, ?_⟩
      · refine (pieceB_0 (F := Ideal) ..).trans ?_
        rw [i0]; rfl
      · refine (pieceB_1 (F := Ideal) ..).trans ?_
        rw [i0, i1]; rfl
      · refine (pieceB_2 (F := Ideal) ..).trans ?_
        rw [i0, i2]; rfl
      · refine (pieceB_3 (F := Ideal) ..).trans ?_
        rw [i3]; rfl

/-! ## The outputs at the last column block, row by row -/

theorem p7 (a : Fin 16) : (pt a 7).val = a.val * 8 + 7 := by rw [pt_val]
theorem p6 (a : Fin 16) : (pt a 6).val = a.val * 8 + 6 := by rw [pt_val]

/-- The recursion's hypotheses hold of the points' coordinates and input blocks. -/
theorem hyp_i0 (a : Fin 16) : ∀ n < 8, ((ii a n) 0).val = a.val := fun n hn => by
  obtain ⟨-, -, -, -, -, -, -, -, -, -, -, -, e0, e1⟩ := idx_facts (pt a n)
  show ((grid0.coords (pt a n)) 0).val = a.val
  rw [e0, pt_val]; omega
theorem hyp_i1 (a : Fin 16) : ∀ n < 8, ((ii a n) 1).val = n := fun n hn => by
  obtain ⟨-, -, -, -, -, -, -, -, -, -, -, -, e0, e1⟩ := idx_facts (pt a n)
  show ((grid0.coords (pt a n)) 1).val = n
  rw [e1, pt_val]; omega
theorem hyp_x2 (c : Dev nD) (a : Fin 16) : ∀ n < 8, ∀ r : Fin 512, xx2 V c a n (ix2 (0 : Fin 1) r) = Lb V c ⟨a.val * 512 + r.val, by omega⟩ := fun n hn r => by
  show iblk V c 0 (pt a n) (ix2 (0 : Fin 1) r) = _
  rw [blk0]; unfold Lb
  exact congrArg _ (congrArg _ (Fin.ext (by show (pt a n).val / 8 * 512 + r.val = a.val * 512 + r.val; rw [pt_val]; omega)))
theorem hyp_x3 (c : Dev nD) (a : Fin 16) : ∀ n < 8, ∀ q : Fin 1024, xx3 V c a n (ix2 (0 : Fin 1) q) = Lb V c ⟨(n % 8) * 1024 + q.val, by omega⟩ := fun n hn q => by
  show iblk V c 1 (pt a n) (ix2 (0 : Fin 1) q) = _
  rw [blk1]; unfold Lb
  exact congrArg _ (congrArg _ (Fin.ext (by show (pt a n).val % 8 * 1024 + q.val = n % 8 * 1024 + q.val; rw [pt_val]; omega)))
theorem hyp_x4 (c : Dev nD) (a : Fin 16) : ∀ n < 8, ∀ (r : Fin 512) (k : Fin 128), xx4 V c a n (ix2 r k) = Em V c ⟨a.val * 512 + r.val, by omega⟩ k := fun n hn r k => by
  show iblk V c 2 (pt a n) (ix2 r k) = _
  rw [blk2]; unfold Em
  exact congrArg _ (congrArg (fun R => ix2 R k) (Fin.ext (by show (pt a n).val / 8 * 512 + r.val = a.val * 512 + r.val; rw [pt_val]; omega)))
theorem hyp_x5 (c : Dev nD) (a : Fin 16) : ∀ n < 8, ∀ (q : Fin 1024) (k : Fin 128), xx5 V c a n (ix2 q k) = Em V c ⟨(n % 8) * 1024 + q.val, by omega⟩ k := fun n hn q k => by
  show iblk V c 3 (pt a n) (ix2 q k) = _
  rw [blk3]; unfold Em
  exact congrArg _ (congrArg (fun R => ix2 R k) (Fin.ext (by show (pt a n).val % 8 * 1024 + q.val = n % 8 * 1024 + q.val; rw [pt_val]; omega)))

/-- At the last column block of row block `a` the output blocks hold each row's kept loss and its indicator. -/
theorem out_rows (c : Dev nD) (hE : ∀ R k, ∃ e : ℝ, Em V c R k = (e : EReal)) (a : Fin 16) (r : Fin 512) :
    (outsAt0 V c (pt a 7).val (pt a 7).isLt).o4 (ix2 r (0 : Fin 1)) = Cert.Row.lossValid (Em V c) (Lb V c) ⟨a.val * 512 + r.val, by omega⟩
    ∧ (outsAt0 V c (pt a 7).val (pt a 7).isLt).o5 (ix2 r (0 : Fin 1)) = Cert.Row.valid (Lb V c) ⟨a.val * 512 + r.val, by omega⟩ := by
  obtain ⟨i0, i1, i2, i3⟩ := scratch_eq V c a 6 (by omega)
  have h0 : ¬(pt a 7).val % 8 = 0 := by rw [p7]; omega
  have h1 : (pt a 7).val % 8 = 7 := by rw [p7]; omega
  have hprev : outsAt0 V c ((pt a 7).val - 1) (Nat.lt_of_le_of_lt (Nat.sub_le _ _) (pt a 7).isLt)
      = outsAt0 V c (pt a 6).val (pt a 6).isLt := by congr 1
  rw [outsAt0_C V c (pt a 7) h0 h1, hprev]
  unfold outsC
  dsimp only
  constructor
  · refine (congrFun ((pieceC_0 (F := Ideal) ..).trans ?_) _).trans
      (final_lossValid (Em V c) (Lb V c) a (ii a) (xx2 V c a) (xx3 V c a) (xx4 V c a) (xx5 V c a) (hyp_i0 a) (hyp_i1 a) (hyp_x2 V c a) (hyp_x3 V c a) (hyp_x4 V c a) (hyp_x5 V c a) r hE)
    rw [i0, i1, i2, i3]; rfl
  · refine (congrFun ((pieceC_1 (F := Ideal) ..).trans ?_) _).trans
      (final_valid (Em V c) (Lb V c) a (ii a) (xx2 V c a) (xx3 V c a) (xx4 V c a) (xx5 V c a) (hyp_i0 a) (hyp_i1 a) (hyp_x2 V c a) (hyp_x3 V c a) (hyp_x4 V c a) (hyp_x5 V c a) r hE)
    rw [i3]; rfl

/-! ## The result arrays -/

/-- What the two result arrays end holding: each row's kept loss, and its indicator. -/
def G4 (c : Dev nD) : S8192x1.Idx → EReal := fun i => Cert.Row.lossValid (Em V c) (Lb V c) ⟨(i 0).val, idx2_lt0 i⟩
def G5 (c : Dev nD) : S8192x1.Idx → EReal := fun i => Cert.Row.valid (Lb V c) ⟨(i 0).val, idx2_lt0 i⟩

/-- A point that writes the outputs back is the last point of its row block. -/
theorem eq_pt7 (t : Fin cfg0.N) (h7 : t.val % 8 = 7) : t = pt ⟨t.val / 8, by have := tlt t; omega⟩ 7 :=
  Fin.ext (by rw [pt_val]; show t.val = t.val / 8 * 8 + 7 % 8; omega)

theorem flushed4_eq (c : Dev nD) (hE : ∀ R k, ∃ e : ℝ, Em V c R k = (e : EReal)) (t : Fin cfg0.N) (hf : (cfg0.win 4).flush t = true) :
    (dat0 V c).flushed 4 t = ((cfg0.win 4).blk t).view.read (Elt Ideal) (G4 V c) := by
  show (cfg0.win 4).cut (grid0.coords t) ((dat0 V c).after 4 t) = _
  rw [after0_4]
  have h7 : t.val % 8 = 7 := (flush0_4 t).mp hf
  obtain ⟨-, -, -, -, -, -, -, -, e40, e41, -⟩ := idx_facts t
  funext j
  obtain ⟨r, u, rfl⟩ : ∃ (r : Fin 512) (u : Fin 1), j = ix2 r u := ⟨j 0, j 1, eq_ix2 j⟩
  obtain rfl : u = 0 := Subsingleton.elim _ _
  show (outsAt0 V c t.val t.isLt).o4 (ix2 r (0 : Fin 1)) = G4 V c (((cfg0.win 4).blk t).view.emb (ix2 r (0 : Fin 1)))
  have hR : (G4 V c (((cfg0.win 4).blk t).view.emb (ix2 r (0 : Fin 1)))) = Cert.Row.lossValid (Em V c) (Lb V c) ⟨t.val / 8 * 512 + r.val, by have := tlt t; omega⟩ := by
    unfold G4
    exact congrArg _ (Fin.ext (by show win0_4.index t (0 : Fin 2) * 512 + 1 * r.val = t.val / 8 * 512 + r.val; omega))
  rw [hR]
  have key := (out_rows V c hE ⟨t.val / 8, by have := tlt t; omega⟩ r).1
  have ht := eq_pt7 t h7
  exact (by rw [← ht] at key; exact key)

theorem flushed5_eq (c : Dev nD) (hE : ∀ R k, ∃ e : ℝ, Em V c R k = (e : EReal)) (t : Fin cfg0.N) (hf : (cfg0.win 5).flush t = true) :
    (dat0 V c).flushed 5 t = ((cfg0.win 5).blk t).view.read (Elt Ideal) (G5 V c) := by
  show (cfg0.win 5).cut (grid0.coords t) ((dat0 V c).after 5 t) = _
  rw [after0_5]
  have h7 : t.val % 8 = 7 := (flush0_5 t).mp hf
  obtain ⟨-, -, -, -, -, -, -, -, -, -, e50, e51, -⟩ := idx_facts t
  funext j
  obtain ⟨r, u, rfl⟩ : ∃ (r : Fin 512) (u : Fin 1), j = ix2 r u := ⟨j 0, j 1, eq_ix2 j⟩
  obtain rfl : u = 0 := Subsingleton.elim _ _
  show (outsAt0 V c t.val t.isLt).o5 (ix2 r (0 : Fin 1)) = G5 V c (((cfg0.win 5).blk t).view.emb (ix2 r (0 : Fin 1)))
  have hR : (G5 V c (((cfg0.win 5).blk t).view.emb (ix2 r (0 : Fin 1)))) = Cert.Row.valid (Lb V c) ⟨t.val / 8 * 512 + r.val, by have := tlt t; omega⟩ := by
    unfold G5
    exact congrArg _ (Fin.ext (by show win0_5.index t (0 : Fin 2) * 512 + 1 * r.val = t.val / 8 * 512 + r.val; omega))
  rw [hR]
  have key := (out_rows V c hE ⟨t.val / 8, by have := tlt t; omega⟩ r).2
  have ht := eq_pt7 t h7
  exact (by rw [← ht] at key; exact key)

/-- An index of a result array is in point `t`'s block iff each coordinate is in the block's range on its axis. -/
theorem mem_blk4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v7_0).slice (win0_4.rect t)).set ↔ _
  rw [View.set_slice_whole, Rect.mem_set_unit]
  exact Iff.rfl
theorem mem_blk5 (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v7_1).slice (win0_5.rect t)).set ↔ _
  rw [View.set_slice_whole, Rect.mem_set_unit]
  exact Iff.rfl

/-- Every row lies in the block written back at the last point of its row block. -/
theorem cover4 (i : S8192x1.Idx) : ∃ t : Fin cfg0.N, (cfg0.win 4).flush t = true ∧ i ∈ ((cfg0.win 4).blk t).view.set := by
  have hi0 := idx2_lt0 i; have hi1 := idx2_lt1 i
  refine ⟨pt ⟨(i 0).val / 512, by omega⟩ 7, (flush0_4 _).mpr (by rw [p7]; omega), ?_⟩
  rw [mem_blk4]
  obtain ⟨-, -, -, -, -, -, -, -, e40, e41, -⟩ := idx_facts (pt ⟨(i 0).val / 512, by omega⟩ 7)
  rw [p7] at e40
  intro a
  match a with
  | ⟨0, _⟩ => show win0_4.index _ (0 : Fin 2) * 512 ≤ (i 0).val ∧ (i 0).val < win0_4.index _ (0 : Fin 2) * 512 + 512; rw [e40]; dsimp only; omega
  | ⟨1, _⟩ => show win0_4.index _ (1 : Fin 2) * 1 ≤ (i 1).val ∧ (i 1).val < win0_4.index _ (1 : Fin 2) * 1 + 1; rw [e41]; omega
theorem cover5 (i : S8192x1.Idx) : ∃ t : Fin cfg0.N, (cfg0.win 5).flush t = true ∧ i ∈ ((cfg0.win 5).blk t).view.set := by
  have hi0 := idx2_lt0 i; have hi1 := idx2_lt1 i
  refine ⟨pt ⟨(i 0).val / 512, by omega⟩ 7, (flush0_5 _).mpr (by rw [p7]; omega), ?_⟩
  rw [mem_blk5]
  obtain ⟨-, -, -, -, -, -, -, -, -, -, e50, e51, -⟩ := idx_facts (pt ⟨(i 0).val / 512, by omega⟩ 7)
  rw [p7] at e50
  intro a
  match a with
  | ⟨0, _⟩ => show win0_5.index _ (0 : Fin 2) * 512 ≤ (i 0).val ∧ (i 0).val < win0_5.index _ (0 : Fin 2) * 512 + 512; rw [e50]; dsimp only; omega
  | ⟨1, _⟩ => show win0_5.index _ (1 : Fin 2) * 1 ≤ (i 1).val ∧ (i 1).val < win0_5.index _ (1 : Fin 2) * 1 + 1; rw [e51]; omega

/-- THE RESULT ARRAYS after the region. -/
theorem arr4 (c : Dev nD) (hE : ∀ R k, ∃ e : ℝ, Em V c R k = (e : EReal)) : (dat0 V c).arrAt 4 cfg0.N = G4 V c :=
  (dat0 V c).arrAt_eq_of_cover 4 (G4 V c) (fun t hf => flushed4_eq V c hE t hf) cover4
theorem arr5 (c : Dev nD) (hE : ∀ R k, ∃ e : ℝ, Em V c R k = (e : EReal)) : (dat0 V c).arrAt 5 cfg0.N = G5 V c :=
  (dat0 V c).arrAt_eq_of_cover 5 (G5 V c) (fun t hf => flushed5_eq V c hE t hf) cover5

end Cert.KernelIdeal.Val

end
-- ==== Proof.KIHost.lean ====
/-
  The idealized kernel's host operations, read at an index.

  Before its one kernel region the program normalises the rows of its first argument (the change of format to bf16 is
  the identity on the extended reals) and lays the labels out as one row; after the region it sums the two result
  columns, divides the first sum by the second clamped below by one, and keeps the quotient when the second sum is
  positive. So the region is entered with the specification's normalised rows and the labels, and the program returns
  the specification's mean of the two result columns; no operation writes an argument.
-/
import proofs.«145336_j13005160973089_1_alg».proof.Proof.KIVals
import proofs.«145336_j13005160973089_1_alg».proof.Proof.RowSpec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Host

open Cert.KernelIdeal Cert.KernelIdeal.Gen Cert.KernelIdeal.Frame
open Idealize.ShloMosaic Idealize.ShloMosaic.TcCoe Idealize.SL.Sem Idealize.ShloMosaic.StableHlo
open Idealize.ShloMosaic.ValueIdx

/-- The embeddings argument as a function of the row and the coordinate. -/
def X (x : (⟨S8192x128, .f32⟩ : BufTy).Contents (Elt Ideal)) : Fin 8192 → Fin 128 → EReal := fun r k => x (ix2 r k)
/-- The labels argument as a function of the row. -/
def L (l : (⟨S8192, .i32⟩ : BufTy).Contents (Elt Ideal)) : Fin 8192 → BitVec 32 := fun r => l (ix1 r)

/-! ## The normalised rows as a function of the argument -/

/-- The rows' squared norms. -/
def sqn (x : FVec Ideal S8192x128 .f32) : FVec Ideal S8192 .f32 :=
  Host.reduceAdd (F := Ideal) (mulf x x) (constant (F := Ideal) S_ .f32 0x00000000#32) reducesTo_S8192x128_S8192_d1 h_S_
/-- The rows' norms as a column, clamped below. -/
def den (x : FVec Ideal S8192x128 .f32) : FVec Ideal S8192x1 .f32 :=
  maximumf (Host.sqrt (F := Ideal) (broadcastInDim S8192x1 ![0] bcast_S8192_S8192x1_0 (sqn x)))
    (broadcastInDim S8192x1 ![] bcast_S_S8192x1 (constant (F := Ideal) S_ .f32 0x2B8CBCCC#32))
/-- The rows divided by their clamped norms, in the narrower format. -/
def nrm (x : FVec Ideal S8192x128 .f32) : FVec Ideal S8192x128 .bf16 :=
  truncf .bf16 (Host.divf (F := Ideal) x (broadcastInDim S8192x128 ![0, 1] bcast_S8192x1_S8192x128_0_1 (den x))) bitsLt_bf16_f32

theorem sqn_apply (x : FVec Ideal S8192x128 .f32) (r : Fin 8192) : sqn x (ix1 r) = Cert.Row.norm2 (X x) r := by
  unfold sqn
  generalize hy : mulf x x = y0
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  unfold Cert.Row.norm2
  refine Finset.sum_congr rfl fun k _ => ?_
  subst hy
  show x _ * x _ = X x r k * X x r k
  have e : (Shape.Reduces.lift (by decide : S8192x128.Reduces [1] S8192) (ix1 r) k) = ix2 r k :=
    funext fun a => Fin.ext (by match a with | ⟨0, _⟩ => rfl | ⟨1, _⟩ => rfl)
  rw [e]; rfl

theorem den_apply (x : FVec Ideal S8192x128 .f32) (r : Fin 8192) :
    den x (ix2 r (0 : Fin 1)) = max (Ideal.sqrt (Cert.Row.norm2 (X x) r)) Cert.Row.tiny := by
  unfold den
  generalize hs : sqn x = s
  rw [maximumf_apply]
  refine congrArg₂ max ?_ ?_
  · show Ideal.sqrt (broadcastInDim S8192x1 ![0] bcast_S8192_S8192x1_0 s (ix2 r (0 : Fin 1))) = _
    rw [broadcastInDim_apply _ bcast_S8192_S8192x1_0 s (ix2 r (0 : Fin 1)) (ix1 r) (fun a => match a with
      | ⟨0, _⟩ => by show r.val = if (8192 : Nat) = 1 then 0 else r.val; rw [if_neg (by decide)])]
    rw [← hs, sqn_apply]
  · rw [broadcastInDim_apply _ bcast_S_S8192x1 _ (ix2 r (0 : Fin 1)) ix0 (fun a => a.elim0)]
    rfl

theorem nrm_apply (x : FVec Ideal S8192x128 .f32) (r : Fin 8192) (k : Fin 128) :
    nrm x (ix2 r k) = Cert.Row.normalize (X x) r k := by
  unfold nrm
  generalize hd : den x = d
  rw [truncf_apply]
  show Ideal.div (x (ix2 r k)) (broadcastInDim S8192x128 ![0, 1] bcast_S8192x1_S8192x128_0_1 d (ix2 r k)) = _
  rw [broadcastInDim_apply _ bcast_S8192x1_S8192x128_0_1 d (ix2 r k) (ix2 r (0 : Fin 1)) (fun a => match a with
    | ⟨0, _⟩ => by show r.val = if (8192 : Nat) = 1 then 0 else r.val; rw [if_neg (by decide)]
    | ⟨1, _⟩ => by show 0 = if (1 : Nat) = 1 then 0 else k.val; rw [if_pos rfl])]
  rw [← hd, den_apply]
  rfl

/-! ## The region's entry -/

variable (m : (ℓ : Loc nD τ sig) → Buf (Elt Ideal) ℓ) (ρ : Dev nD → PrngReg) (c : Dev nD)

/-- The array the kernel reads its rows from holds the normalised rows of the first argument. -/
theorem entry_v5_term :
    (W2 (F := Ideal) m ρ c (Proc.devRef .tc main_v5) : S8192x128.Idx → EReal)
      = nrm (m ((c.tc : Thread nD τ).loc main_arg0)) := by
  dsimp only [W2, W1, W0]
  simp only [hostOps0, hostOps0_1]
  after_results
  rfl

theorem entry_v5 (r : Fin 8192) (k : Fin 128) :
    (W2 (F := Ideal) m ρ c (Proc.devRef .tc main_v5) : S8192x128.Idx → EReal) (ix2 r k)
      = Cert.Row.normalize (X (m ((c.tc : Thread nD τ).loc main_arg0))) r k := by
  rw [entry_v5_term, nrm_apply]

/-- The labels laid out as one row, read at a column. -/
theorem row_apply (l : IVec S8192 32) (r : Fin 8192) :
    shapeCast S1x8192 l shapeCasts_S8192_S1x8192 (ix2 (0 : Fin 1) r) = l (ix1 r) :=
  shapeCast_apply l shapeCasts_S8192_S1x8192 (ix2 (0 : Fin 1) r) (ix1 r)
    (by rewrite [Shape.rowMajor_val_one, Shape.rowMajor_val_two]; show r.val = 0 * 8192 + r.val; omega)

/-- The array the kernel reads its labels from holds the second argument as one row. -/
theorem entry_v6_term :
    (W2 (F := Ideal) m ρ c (Proc.devRef .tc main_v6) : S1x8192.Idx → BitVec 32)
      = shapeCast S1x8192 (m ((c.tc : Thread nD τ).loc main_arg1) : S8192.Idx → BitVec 32) shapeCasts_S8192_S1x8192 := by
  dsimp only [W2, W1, W0]
  simp only [hostOps0, hostOps0_1]
  after_results
  rfl

theorem entry_v6 (r : Fin 8192) :
    (W2 (F := Ideal) m ρ c (Proc.devRef .tc main_v6) : S1x8192.Idx → BitVec 32) (ix2 (0 : Fin 1) r)
      = L (m ((c.tc : Thread nD τ).loc main_arg1)) r := by
  rw [entry_v6_term]
  exact row_apply _ r

/-! ## The return -/

/-- What the host operations after the region compute from the two result columns. -/
def tail (a b : FVec Ideal S8192x1 .f32) : FVec Ideal S_ .f32 :=
  select
    (cmpf (F := Ideal) .ogt
      (Host.reduceAdd (F := Ideal) b (constant (F := Ideal) S_ .f32 0x00000000#32) reducesTo_S8192x1_S_d0_1 h_S_)
      (constant (F := Ideal) S_ .f32 0x00000000#32))
    (Host.divf (F := Ideal)
      (Host.reduceAdd (F := Ideal) a (constant (F := Ideal) S_ .f32 0x00000000#32) reducesTo_S8192x1_S_d0_1 h_S_)
      (maximumf
        (Host.reduceAdd (F := Ideal) b (constant (F := Ideal) S_ .f32 0x00000000#32) reducesTo_S8192x1_S_d0_1 h_S_)
        (constant (F := Ideal) S_ .f32 0x3F800000#32)))
    (constant (F := Ideal) S_ .f32 0x00000000#32)

/-- The sum of a column. -/
theorem colsum_apply (b : FVec Ideal S8192x1 .f32) (i : S_.Idx) :
    Host.reduceAdd (F := Ideal) b (constant (F := Ideal) S_ .f32 0x00000000#32) reducesTo_S8192x1_S_d0_1 h_S_ i
      = ∑ r : Fin 8192, b (ix2 r (0 : Fin 1)) := by
  simp only [Host.reduceAdd, Ideal.hostReduceAdd_def]
  rw [Ideal.hostReduceAdd_total reducesTo_S8192x1_S_d0_1 (fun a => a.elim0) b _ i]
  show Ideal.ofBits .f32 0x00000000#32 + _ = _
  rw [Ideal.ofBits_zero_f32, zero_add, sum_idx2]
  exact Finset.sum_congr rfl fun r _ => Fin.sum_univ_one _

theorem one_eq : Ideal.ofBits .f32 0x3F800000#32 = (1 : EReal) := by
  simp [Ideal.ofBits, Ideal.ieee, -EReal.coe_mul]; norm_num

/-- The comparison "greater than zero" selects between two values. -/
theorem select_gt_zero (a u v : EReal) :
    Scalar.select (FloatOps.cmpf (F := Ideal) (φ := .f32) .ogt a (Ideal.ofBits .f32 0x00000000#32)) u v
      = if 0 < a then u else v := by
  rw [Ideal.cmpf_def, Ideal.ofBits_zero_f32]
  unfold Ideal.cmp Scalar.select
  by_cases h : 0 < a <;> simp [h]

theorem tail_apply (a b : FVec Ideal S8192x1 .f32) (i : S_.Idx) :
    tail a b i = Cert.Row.mean (fun r => a (ix2 r (0 : Fin 1))) (fun r => b (ix2 r (0 : Fin 1))) := by
  unfold tail
  generalize hA : Host.reduceAdd (F := Ideal) a (constant (F := Ideal) S_ .f32 0x00000000#32) reducesTo_S8192x1_S_d0_1 h_S_ = sa
  generalize hB : Host.reduceAdd (F := Ideal) b (constant (F := Ideal) S_ .f32 0x00000000#32) reducesTo_S8192x1_S_d0_1 h_S_ = sb
  show Scalar.select (FloatOps.cmpf (F := Ideal) (φ := .f32) .ogt (sb i) (Ideal.ofBits .f32 0x00000000#32))
      (Ideal.div (sa i) (max (sb i) (Ideal.ofBits .f32 0x3F800000#32))) (Ideal.ofBits .f32 0x00000000#32) = _
  rw [select_gt_zero, one_eq, Ideal.ofBits_zero_f32, ← hA, ← hB, colsum_apply, colsum_apply]
  rfl

/-- The host operations after the region, over any contents of the buffers at the region's exit: the returned value is
    the tail of the two result columns. -/
theorem tail_fold (V : Valuation τ sig (Elt Ideal)) :
    (StableHlo.after hostOps1_1 (StableHlo.after hostOps1 V) (Proc.devRef .tc main_v13) : S_.Idx → EReal)
      = tail (V (Proc.devRef .tc main_v7_0)) (V (Proc.devRef .tc main_v7_1)) := by
  simp only [hostOps1, hostOps1_1]
  after_results
  rfl

/-- The returned value is the tail of the two result columns as the region leaves them. -/
theorem exit_v13_term :
    (W5 (F := Ideal) m ρ c (Proc.devRef .tc main_v13) : S_.Idx → EReal)
      = tail (W3 (F := Ideal) m ρ c (Proc.devRef .tc main_v7_0)) (W3 (F := Ideal) m ρ c (Proc.devRef .tc main_v7_1)) :=
  tail_fold (W3 (F := Ideal) m ρ c)

theorem exit_v13 :
    (W5 (F := Ideal) m ρ c (Proc.devRef .tc main_v13) : S_.Idx → EReal)
      = fun _ => Cert.Row.mean
          (fun r => (W3 (F := Ideal) m ρ c (Proc.devRef .tc main_v7_0) : S8192x1.Idx → EReal) (ix2 r (0 : Fin 1)))
          (fun r => (W3 (F := Ideal) m ρ c (Proc.devRef .tc main_v7_1) : S8192x1.Idx → EReal) (ix2 r (0 : Fin 1))) := by
  rw [exit_v13_term]
  funext i
  exact tail_apply _ _ i

end Cert.KernelIdeal.Host

end
-- ==== Proof.KIKept.lean ====
/-
  The arguments end as launched: no host operation writes an argument's buffer and the region's exit leaves it as it
  was entered, so the contents at the return, read at an argument, walk back through every boundary to the launch memory.
-/
import proofs.«145336_j13005160973089_1_alg».proof.Proof.KIVals
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.SL.Sem

variable {F : FTy → Type} [FloatOps F] [Named F]

variable (m : (ℓ : Loc nD τ sig) → Buf (Elt F) ℓ) (ρ : Dev nD → PrngReg)

/-- An unscoped buffer of the TensorCore is among the buffers held at the return. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩
theorem main_arg0_mem_uc : Proc.devRef .tc main_arg0 ∈ Pipeline.ucRefs τ sig := mem_ucRefs main_arg0 (by decide)
theorem main_arg1_mem_uc : Proc.devRef .tc main_arg1 ∈ Pipeline.ucRefs τ sig := mem_ucRefs main_arg1 (by decide)
theorem main_v13_mem_uc : Proc.devRef .tc main_v13 ∈ Pipeline.ucRefs τ sig := mem_ucRefs main_v13 (by decide)

/-- A buffer none of the four stretches of host operations writes, and which is neither result array, holds at the return
    what it held at the launch. -/
theorem kept_of_not_written (c : Dev nD) (b : Ref sig .tc) (h0 : b ≠ main_v7_0) (h1 : b ≠ main_v7_1)
    (hA : ∀ op ∈ (hostOps0 : List (HloOp τ sig (Elt F))), Proc.devRef .tc b ∉ op.writes)
    (hB : ∀ op ∈ (hostOps0_1 : List (HloOp τ sig (Elt F))), Proc.devRef .tc b ∉ op.writes)
    (hC : ∀ op ∈ (hostOps1 : List (HloOp τ sig (Elt F))), Proc.devRef .tc b ∉ op.writes)
    (hD : ∀ op ∈ (hostOps1_1 : List (HloOp τ sig (Elt F))), Proc.devRef .tc b ∉ op.writes) :
    W5 m ρ c (Proc.devRef .tc b) = m ((c : Thread nD τ).loc b) :=
  calc W5 m ρ c (Proc.devRef .tc b)
    _ = W4 m ρ c (Proc.devRef .tc b) := StableHlo.after_of_forall_not_mem (b := Proc.devRef .tc b) _ _ hD
    _ = W3 m ρ c (Proc.devRef .tc b) := StableHlo.after_of_forall_not_mem (b := Proc.devRef .tc b) _ _ hC
    _ = W2 m ρ c (Proc.devRef .tc b) := W3_of_ne m ρ c b h0 h1
    _ = W1 m ρ c (Proc.devRef .tc b) := StableHlo.after_of_forall_not_mem (b := Proc.devRef .tc b) _ _ hB
    _ = W0 m ρ c (Proc.devRef .tc b) := StableHlo.after_of_forall_not_mem (b := Proc.devRef .tc b) _ _ hA
    _ = m ((c : Thread nD τ).loc b) := rfl

theorem kept_arg0 (c : Dev nD) : W5 m ρ c (Proc.devRef .tc main_arg0) = m ((c : Thread nD τ).loc main_arg0) := by
  refine kept_of_not_written m ρ c main_arg0 (by decide) (by decide) ?_ ?_ ?_ ?_ <;>
  · refine List.forall_iff_forall_mem.mp ?_
    simp only [hostOps0, hostOps0_1, hostOps1, hostOps1_1, List.Forall, StableHlo.TRef.nullary, StableHlo.TRef.unary,
      StableHlo.TRef.binary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide)

theorem kept_arg1 (c : Dev nD) : W5 m ρ c (Proc.devRef .tc main_arg1) = m ((c : Thread nD τ).loc main_arg1) := by
  refine kept_of_not_written m ρ c main_arg1 (by decide) (by decide) ?_ ?_ ?_ ?_ <;>
  · refine List.forall_iff_forall_mem.mp ?_
    simp only [hostOps0, hostOps0_1, hostOps1, hostOps1_1, List.Forall, StableHlo.TRef.nullary, StableHlo.TRef.unary,
      StableHlo.TRef.binary, StableHlo.TRef.ternary, StableHlo.nullary_writes, StableHlo.unary_writes,
      StableHlo.binary_writes, StableHlo.ternary_writes, StableHlo.reshape_writes, Finset.mem_singleton]
    repeat' apply And.intro
    all_goals exact StableHlo.devRef_ne_of_ne (by decide)

end Cert.KernelIdeal.Frame

end
-- ==== Proof.PreFinite.lean ====
/-
  Finiteness from the precondition: where every entry's absolute value compares below +∞, every entry is a real number.
-/
import proofs.«145336_j13005160973089_1_alg».proof.Pre_finite_inputs
import Idealize.ShloMosaic.Lib.ReduceAll
import Idealize.ShloMosaic.Lib.ValueIdx
import Idealize.ShloMosaic.PureOps.Ideal.Laws

noncomputable section

namespace Cert.Proof.PreFin

open Idealize.ShloMosaic Idealize.ShloMosaic.ValueIdx Cert.Pre_finite_inputs

/-- The scalar shape has one index. -/
instance : Subsingleton S_.Idx := ⟨fun a b => funext fun d => d.elim0⟩

/-- The pattern of +∞ denotes the top of the extended reals. -/
theorem pos_inf_eq : Ideal.ofBits .f32 0x7F800000#32 = (⊤ : EReal) := by simp [Ideal.ofBits, Ideal.ieee]

/-- An extended real whose absolute value is below +∞ is a real number. -/
theorem real_of_abs_lt_top (a : EReal) (h : max a (-a) < ⊤) : ∃ e : ℝ, a = (e : EReal) := by
  have h1 : a < ⊤ := lt_of_le_of_lt (le_max_left _ _) h
  have h2 : -a < ⊤ := lt_of_le_of_lt (le_max_right _ _) h
  have hb : a ≠ ⊥ := fun e => by rw [e, EReal.neg_bot] at h2; exact lt_irrefl _ h2
  exact ⟨a.toReal, (EReal.coe_toReal h1.ne hb).symm⟩

/-- Under the precondition every entry of the first argument is a real number. -/
theorem finite_of_pre [Cert.Pre_finite_inputs.Facts] (x : FVec Ideal Cert.Pre_finite_inputs.S8192x128 .f32)
    (l : IVec Cert.Pre_finite_inputs.S8192 32) (h : Cert.Pre_finite_inputs.fn (F := Ideal) x l = fun _ => 1#1) :
    ∀ i : Cert.Pre_finite_inputs.S8192x128.Idx, ∃ e : ℝ, x i = (e : EReal) := by
  intro i
  have h0 := congrFun h ix0
  dsimp only [Cert.Pre_finite_inputs.fn] at h0
  have hi := Host.reduce_andi_all _ _ _ _ _ h0 i
  have hi' : Ideal.cmp .olt (max (x i) (-(x i))) (Ideal.ofBits .f32 0x7F800000#32) = 1#1 := hi
  rw [pos_inf_eq] at hi'
  unfold Ideal.cmp at hi'
  refine real_of_abs_lt_top (x i) ?_
  by_contra hn
  simp [hn] at hi'

end Cert.Proof.PreFin

end
-- ==== Proof.KIAlg.lean ====
/-
  The idealized kernel's run, read: from a memory whose embeddings are finite, every weakly fair execution of @main ends
  with the result at the mean of the rows' kept losses — the specification `Cert.Row` of the normalised embeddings
  and the labels — and the arguments unchanged. The host operations before the region give the normalised embeddings
  and the reshaped labels; the region leaves each row's kept loss and indicator in the two result arrays; the host
  operations after it take the mean.
-/
import proofs.«145336_j13005160973089_1_alg».proof.Proof.KIRun
import proofs.«145336_j13005160973089_1_alg».proof.Proof.KIValue
import proofs.«145336_j13005160973089_1_alg».proof.Proof.KIHost
import proofs.«145336_j13005160973089_1_alg».proof.Proof.KIKept
import proofs.«145336_j13005160973089_1_alg».proof.Proof.RowFinite
import proofs.«145336_j13005160973089_1_alg».proof.Proof.PreFinite
import proofs.«145336_j13005160973089_1_alg».proof.Defs

set_option maxRecDepth 16384

noncomputable section

namespace Cert.Proof.KernelSide

open Cert.KernelIdeal Cert.KernelIdeal.Gen Cert.KernelIdeal.Frame Cert.KernelIdeal.Val Cert.KernelIdeal.Host
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- At the region's entry the embeddings' array holds the normalised embeddings and the labels' array the labels. -/
theorem Em_eq (c : Dev nD) : Em (V2 m ρ) c = Cert.Row.normalize (X (m ((c.tc : Thread nD τ).loc main_arg0))) :=
  funext fun R => funext fun k => entry_v5 m ρ c R k
theorem Lb_eq (c : Dev nD) : Lb (V2 m ρ) c = L (m ((c.tc : Thread nD τ).loc main_arg1)) :=
  funext fun R => entry_v6 m ρ c R

/-- Finite embeddings have finite normalised rows. -/
theorem Em_finite [Cert.Pre_finite_inputs.Facts] (hpre : Cert.Pre_KernelIdeal m) (c : Dev nD) :
    ∀ R k, ∃ e : ℝ, Em (V2 m ρ) c R k = (e : EReal) := by
  rw [Em_eq]
  exact Cert.Row.normalize_finite _ fun r k => Cert.Proof.PreFin.finite_of_pre _ _ (hpre c) (ix2 r k)

/-- THE KERNEL'S RUN, read. -/
theorem kernel_run [Cert.Pre_finite_inputs.Facts] (hpre : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v13) = (fun _ => Cert.Row.mean
          (Cert.Row.lossValid (Cert.Row.normalize (X (m ((c.tc : Thread nD τ).loc main_arg0)))) (L (m ((c.tc : Thread nD τ).loc main_arg1))))
          (Cert.Row.valid (L (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (Cert.KernelIdeal.defs (F := Ideal)) _ _).mono (fun r h c => ⟨?_, ?_, ?_⟩) (run_main (F := Ideal) m ρ)
  · refine (h c _ main_v13_mem_uc).trans ((exit_v13 m ρ c).trans ?_)
    have hE := Em_finite m ρ hpre c
    rw [W3_v7_0, W3_v7_1, arr4 (V2 m ρ) c hE, arr5 (V2 m ρ) c hE]
    unfold G4 G5
    rw [Em_eq, Lb_eq]
  · exact (h c _ main_arg0_mem_uc).trans (kept_arg0 m ρ c)
  · exact (h c _ main_arg1_mem_uc).trans (kept_arg1 m ρ c)

end Cert.Proof.KernelSide

end
-- ==== Proof.RefFrame.lean ====
/-
  The reference program's run: every weakly fair execution of the host program terminates without a fault,
  leaves the argument arrays as they were, and ends with the result at the composed term of its operations.
-/
import proofs.«145336_j13005160973089_1_alg».proof.Defs
import proofs.«145336_j13005160973089_1_alg».proof.Proof.RefRunP
import proofs.«145336_j13005160973089_1_alg».proof.Proof.RefReadP

noncomputable section

open Idealize.ShloMosaic Idealize.ShloMosaic.TcCoe Idealize.SL.Sem

namespace Cert.Proof.RefSide

/-- The reference's frame: its run with the result forgotten. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefSide

end
-- ==== Proof.RefRows.lean ====
/-
  The value of the reference program as the row specification.

  The reference normalises the rows of its first argument, forms every similarity, subtracts each row's largest one,
  exponentiates, sums the weights of a row's partners and of all its other rows, takes the clamped quotient's logarithm,
  keeps the rows that have a partner and averages over them. Read index by index, each of its arrays is one of the
  functions of the row specification; the last is the specification's mean.
-/
import proofs.«145336_j13005160973089_1_alg».proof.Proof.RefReadP
import proofs.«145336_j13005160973089_1_alg».proof.Proof.RowSpec
import Idealize.ShloMosaic.Lib.ValueIdx
import Idealize.ShloMosaic.Lib.Pipeline.Value

noncomputable section

open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.ReadP

namespace Cert.Proof.RefSide

/-- The embeddings argument as a function of the row and the coordinate. -/
def X (x : (⟨S8192x128, .f32⟩ : BufTy).Contents (Elt Ideal)) : Fin 8192 → Fin 128 → EReal := fun r k => x (ix2 r k)
/-- The labels argument as a function of the row. -/
def L (l : (⟨S8192, .i32⟩ : BufTy).Contents (Elt Ideal)) : Fin 8192 → BitVec 32 := fun r => l (ix1 r)

/-! ## The indices the layout operations read at -/

theorem idx_v3 (r : Fin 8192) (k : Fin 128) : idx_main_v3 (ix2 r k) = ix2 r (0 : Fin 1) := by
  funext a; match a with | ⟨0, _⟩ => rfl | ⟨1, _⟩ => rfl
theorem idx_call0_v2 (r : Fin 8192) : idx_main_call0_v2 (ix2 r (0 : Fin 1)) = ix1 r := by
  funext a; match a with | ⟨0, _⟩ => rfl
theorem idx_call0_v1 (r : Fin 8192) (k : Fin 128) : idx_main_call0_v1 (ix1 r) k = ix2 r k := by
  funext a; match a with | ⟨0, _⟩ => rfl | ⟨1, _⟩ => rfl

/-! ## The normalised rows -/

theorem tiny_eq (i : S8192x1.Idx) : val_main_v1 (F := Ideal) i = Cert.Row.tiny := by
  rw [val_main_v1_apply, val_main_cst_apply]; rfl

theorem norm2_eq (x : (⟨S8192x128, .f32⟩ : BufTy).Contents (Elt Ideal)) (r : Fin 8192) :
    val_main_call0_v1 (F := Ideal) x (ix1 r) = Cert.Row.norm2 (X x) r := by
  rw [val_main_call0_v1_apply, val_main_call0_cst_apply]
  simp only [idx_call0_v1, val_main_call0_v0_apply, Ideal.ofBits_def, Ideal.ofBits_zero_f32, zero_add, Ideal.mulf_def]
  rfl

theorem v4_eq (x : (⟨S8192x128, .f32⟩ : BufTy).Contents (Elt Ideal)) (r : Fin 8192) (k : Fin 128) :
    val_main_v4 (F := Ideal) x (ix2 r k) = Cert.Row.normalize (X x) r k := by
  rw [val_main_v4_apply, val_main_v3_apply, idx_v3, val_main_v2_apply, tiny_eq, val_main_v0_apply,
    val_main_call0_v2_apply, idx_call0_v2, norm2_eq]
  rfl

/-! ## The similarities -/

theorem idx_lv6 (r c : Fin 8192) (k : Fin 128) : lidx_main_v6 (ix2 r c) k = ix2 r k := by
  funext a; match a with | ⟨0, _⟩ => rfl | ⟨1, _⟩ => rfl
theorem idx_rv6 (r c : Fin 8192) (k : Fin 128) : ridx_main_v6 (ix2 r c) k = ix2 k c := by
  funext a; match a with | ⟨0, _⟩ => rfl | ⟨1, _⟩ => rfl
theorem idx_v5 (c : Fin 8192) (k : Fin 128) : idx_main_v5 (ix2 k c) = ix2 c k := by
  funext a; match a with | ⟨0, _⟩ => rfl | ⟨1, _⟩ => rfl

theorem v6_eq (x : (⟨S8192x128, .f32⟩ : BufTy).Contents (Elt Ideal)) (r c : Fin 8192) :
    val_main_v6 (F := Ideal) x (ix2 r c) = Cert.Row.dot (Cert.Row.normalize (X x)) r c := by
  rw [val_main_v6_apply]
  simp only [idx_lv6, idx_rv6, val_main_v5_apply, idx_v5, v4_eq]
  rfl

/-- The temperature's pattern denotes the dyadic rational 13421773 / 2²⁷. -/
theorem temperature_eq : Ideal.ofBits .f32 0x3DCCCCCD#32 = ((13421773 / 134217728 : ℝ) : EReal) := by
  simp [Ideal.ofBits, Ideal.ieee, -EReal.coe_mul]; norm_num

theorem v8_eq (x : (⟨S8192x128, .f32⟩ : BufTy).Contents (Elt Ideal)) (r c : Fin 8192) :
    val_main_v8 (F := Ideal) x (ix2 r c) = Cert.Row.sim (Cert.Row.normalize (X x)) r c := by
  rw [val_main_v8_apply, val_main_v7_apply, val_main_cst_0_apply, v6_eq, Ideal.ofBits_def, temperature_eq,
    Ideal.hostDivf_def, Ideal.div_coe (by norm_num : (13421773 / 134217728 : ℝ) ≠ 0)]
  unfold Cert.Row.sim Cert.Row.kappa
  refine congrArg (fun t : ℝ => Cert.Row.dot (Cert.Row.normalize (X x)) r c * (t : EReal)) ?_
  norm_num

/-! ## The row maximum -/

/-- The fold of `max` from the bottom is the supremum. -/
theorem fold_max_bot {ι : Type} (s : Finset ι) (f : ι → EReal) : s.fold max ⊥ f = s.sup f := rfl

theorem neg_inf_eq : Ideal.ofBits .f32 0xFF800000#32 = (⊥ : EReal) := by simp [Ideal.ofBits, Ideal.ieee]

theorem idx_v28 (r c : Fin 8192) : idx_main_v28 (ix1 r) c = ix2 r c := by
  funext a; match a with | ⟨0, _⟩ => rfl | ⟨1, _⟩ => rfl

/-- The row maximum, read at a row: the fold of `max` from the initial value over the row's columns. -/
theorem val_main_v22_apply (x : (⟨S8192x128, .f32⟩ : BufTy).Contents (Elt Ideal)) (i : S8192.Idx) :
    val_main_v22 (F := Ideal) x i
      = (Finset.univ : Finset (Fin 8192)).fold max (val_main_cst_1 (F := Ideal) (Shape.Idx.first h_S_))
          (fun k => val_main_v8 (F := Ideal) x (idx_main_v28 i k)) := by
  unfold val_main_v22
  generalize val_main_v8 (F := Ideal) x = y0
  generalize val_main_cst_1 (F := Ideal) = y1
  rw [Host.reduce_eq_fold_single (FloatOps.maximumf (F := Ideal)) y0 y1 reducesTo_S8192x8192_S8192_d1 (by decide) h_S_ i]
  refine Finset.fold_congr (fun k _ => ?_)
  exact congrArg y0 (funext fun a => Fin.ext (by match a with | ⟨0, _⟩ => rfl | ⟨1, _⟩ => rfl))

theorem v22_eq (x : (⟨S8192x128, .f32⟩ : BufTy).Contents (Elt Ideal)) (r : Fin 8192) :
    val_main_v22 (F := Ideal) x (ix1 r) = Cert.Row.rmax (Cert.Row.normalize (X x)) r := by
  rw [val_main_v22_apply, val_main_cst_1_apply, Ideal.ofBits_def, neg_inf_eq]
  simp only [idx_v28, v8_eq]
  exact fold_max_bot _ _

/-! ## The masks -/

theorem idx_v11 (r c : Fin 8192) : idx_main_v11 (ix2 r c) = ix2 r (0 : Fin 1) := by
  funext a; match a with | ⟨0, _⟩ => rfl | ⟨1, _⟩ => rfl
theorem idx_v12 (r c : Fin 8192) : idx_main_v12 (ix2 r c) = ix2 (0 : Fin 1) c := by
  funext a; match a with | ⟨0, _⟩ => rfl | ⟨1, _⟩ => rfl
theorem idx_v10 (c : Fin 8192) : idx_main_v10 (ix2 (0 : Fin 1) c) = ix2 c (0 : Fin 1) := by
  funext a; match a with | ⟨0, _⟩ => rfl | ⟨1, _⟩ => rfl
theorem idx_v9 (r : Fin 8192) : idx_main_v9 (ix2 r (0 : Fin 1)) = ix1 r := by
  funext a; match a with | ⟨0, _⟩ => exact Fin.ext (by show r.val * 1 + 0 = r.val; omega)

/-- A one-bit word read as a number: one where the condition holds, zero elsewhere. -/
theorem uitofp_ofBool (b : Bool) :
    FloatOps.uitofp (F := Ideal) .f32 (BitVec.ofBool b) = if b then (1 : EReal) else 0 := by
  cases b <;> simp [FloatOps.uitofp]

/-- Two row numbers are the same 32-bit word exactly when they are the same row. -/
theorem ofNat_eq_iff (r c : Fin 8192) : (BitVec.ofNat 32 r.val + 0#32 == BitVec.ofNat 32 c.val) = decide (r = c) := by
  have hr := r.isLt; have hc := c.isLt
  rw [BitVec.add_zero]
  by_cases h : r = c
  · subst h; simp
  · have : ¬ BitVec.ofNat 32 r.val = BitVec.ofNat 32 c.val := fun e => h (Fin.ext (by
      have := congrArg BitVec.toNat e
      simp only [BitVec.toNat_ofNat] at this
      omega))
    simp [h, this]

theorem v14_eq (l : (⟨S8192, .i32⟩ : BufTy).Contents (Elt Ideal)) (r c : Fin 8192) :
    val_main_v14 (F := Ideal) l (ix2 r c) = Cert.Row.same (L l) r c := by
  rw [val_main_v14_apply, val_main_v13_apply, val_main_v11_apply, idx_v11, val_main_v9_apply, idx_v9,
    val_main_v12_apply, idx_v12, val_main_v10_apply, idx_v10, val_main_v9_apply, idx_v9]
  unfold IntOp.cmpi Cert.Row.same L
  rw [uitofp_ofBool]
  simp only [beq_iff_eq]

theorem v20_eq (r c : Fin 8192) : val_main_v20 (F := Ideal) (ix2 r c) = Cert.Row.eye r c := by
  rw [val_main_v20_apply, val_main_v19_apply, val_main_v18_apply, val_main_v15_apply, val_main_v17_apply,
    val_main_c_apply, val_main_v16_apply]
  unfold IntOp.cmpi IntOp.addi Cert.Row.eye
  rw [uitofp_ofBool]
  show (if (BitVec.ofNat 32 r.val + 0#32 == BitVec.ofNat 32 c.val) = true then (1 : EReal) else 0) = _
  rw [ofNat_eq_iff]
  simp only [decide_eq_true_eq]

theorem one_eq : Ideal.ofBits .f32 0x3F800000#32 = (1 : EReal) := by
  simp [Ideal.ofBits, Ideal.ieee, -EReal.coe_mul]; norm_num

theorem v21_eq (l : (⟨S8192, .i32⟩ : BufTy).Contents (Elt Ideal)) (r c : Fin 8192) :
    val_main_v21 (F := Ideal) l (ix2 r c) = Cert.Row.posw (L l) r c := by
  rw [val_main_v21_apply, v14_eq, v20_eq, Ideal.subf_def]
  unfold Cert.Row.posw Cert.Row.eye
  by_cases h : r = c
  · subst h
    have e : (1 : EReal) - 1 = 0 := by rw [← EReal.coe_one, ← EReal.coe_sub, sub_self, EReal.coe_zero]
    simp [Cert.Row.same, e]
  · simp [h]

theorem v30_eq (r c : Fin 8192) : val_main_v30 (F := Ideal) (ix2 r c) = Cert.Row.allw r c := by
  rw [val_main_v30_apply, val_main_v29_apply, val_main_cst_3_apply, v20_eq, Ideal.subf_def, Ideal.ofBits_def, one_eq]
  unfold Cert.Row.allw Cert.Row.eye
  by_cases h : r = c
  · subst h
    have e : (1 : EReal) - 1 = 0 := by rw [← EReal.coe_one, ← EReal.coe_sub, sub_self, EReal.coe_zero]
    simp [e]
  · simp [h]

/-! ## The weights and their sums -/

theorem idx_v24 (r c : Fin 8192) : idx_main_v24 (ix2 r c) = ix2 r (0 : Fin 1) := by
  funext a; match a with | ⟨0, _⟩ => rfl | ⟨1, _⟩ => rfl
theorem idx_v23 (r : Fin 8192) : idx_main_v23 (ix2 r (0 : Fin 1)) = ix1 r := by
  funext a; match a with | ⟨0, _⟩ => rfl
theorem idx_v32 (r c : Fin 8192) : idx_main_v32 (ix1 r) c = ix2 r c := by
  funext a; match a with | ⟨0, _⟩ => rfl | ⟨1, _⟩ => rfl
theorem idx_v40 (r c : Fin 8192) : idx_main_v40 (ix1 r) c = ix2 r c := by
  funext a; match a with | ⟨0, _⟩ => rfl | ⟨1, _⟩ => rfl

theorem v26_eq (x : (⟨S8192x128, .f32⟩ : BufTy).Contents (Elt Ideal)) (r c : Fin 8192) :
    val_main_v26 (F := Ideal) x (ix2 r c) = Cert.Row.p (Cert.Row.normalize (X x)) r c := by
  rw [val_main_v26_apply, val_main_v25_apply, v8_eq, val_main_v24_apply, idx_v24, val_main_v23_apply, idx_v23, v22_eq,
    Ideal.hostUnary_exp_def, Ideal.subf_def]
  rfl

theorem v28_eq (x : (⟨S8192x128, .f32⟩ : BufTy).Contents (Elt Ideal)) (l : (⟨S8192, .i32⟩ : BufTy).Contents (Elt Ideal))
    (r : Fin 8192) : val_main_v28 (F := Ideal) x l (ix1 r) = Cert.Row.lpos (Cert.Row.normalize (X x)) (L l) r := by
  rw [val_main_v28_apply, val_main_cst_2_apply]
  simp only [idx_v28, val_main_v27_apply, v26_eq, v21_eq, Ideal.ofBits_def, Ideal.ofBits_zero_f32, zero_add, Ideal.mulf_def]
  rfl

theorem v32_eq (x : (⟨S8192x128, .f32⟩ : BufTy).Contents (Elt Ideal)) (r : Fin 8192) :
    val_main_v32 (F := Ideal) x (ix1 r) = Cert.Row.lall (Cert.Row.normalize (X x)) r := by
  rw [val_main_v32_apply, val_main_cst_4_apply]
  simp only [idx_v32, val_main_v31_apply, v26_eq, v30_eq, Ideal.ofBits_def, Ideal.ofBits_zero_f32, zero_add, Ideal.mulf_def]
  rfl

theorem v40_eq (l : (⟨S8192, .i32⟩ : BufTy).Contents (Elt Ideal)) (r : Fin 8192) :
    val_main_v40 (F := Ideal) l (ix1 r) = Cert.Row.cnt (L l) r := by
  rw [val_main_v40_apply, val_main_cst_7_apply]
  simp only [idx_v40, v21_eq, Ideal.ofBits_def, Ideal.ofBits_zero_f32, zero_add]
  rfl

/-! ## The rows' losses -/

theorem eps_eq33 (i : S8192.Idx) : val_main_v33 (F := Ideal) i = Cert.Row.eps := by
  rw [val_main_v33_apply, val_main_cst_5_apply]; rfl
theorem eps_eq36 (i : S8192.Idx) : val_main_v36 (F := Ideal) i = Cert.Row.eps := by
  rw [val_main_v36_apply, val_main_cst_6_apply]; rfl

theorem v39_eq (x : (⟨S8192x128, .f32⟩ : BufTy).Contents (Elt Ideal)) (l : (⟨S8192, .i32⟩ : BufTy).Contents (Elt Ideal))
    (r : Fin 8192) : val_main_v39 (F := Ideal) x l (ix1 r) = Cert.Row.loss (Cert.Row.normalize (X x)) (L l) r := by
  rw [val_main_v39_apply, val_main_v38_apply, val_main_v37_apply, eps_eq36, val_main_v35_apply, v28_eq,
    val_main_v34_apply, eps_eq33, v32_eq]
  rfl

/-- The comparison "greater than zero", read as a number. -/
theorem uitofp_gt_zero (a : EReal) :
    FloatOps.uitofp (F := Ideal) .f32 (FloatOps.cmpf (F := Ideal) (φ := .f32) .ogt a (Ideal.ofBits .f32 0x00000000#32))
      = if 0 < a then (1 : EReal) else 0 := by
  rw [Ideal.cmpf_def, Ideal.ofBits_zero_f32]
  unfold Ideal.cmp
  rw [uitofp_ofBool]
  simp only [decide_eq_true_eq]

theorem v43_eq (l : (⟨S8192, .i32⟩ : BufTy).Contents (Elt Ideal)) (r : Fin 8192) :
    val_main_v43 (F := Ideal) l (ix1 r) = Cert.Row.valid (L l) r := by
  rw [val_main_v43_apply, val_main_v42_apply, v40_eq, val_main_v41_apply, val_main_cst_8_apply, Ideal.ofBits_def,
    uitofp_gt_zero]
  rfl

theorem v45_eq (x : (⟨S8192x128, .f32⟩ : BufTy).Contents (Elt Ideal)) (l : (⟨S8192, .i32⟩ : BufTy).Contents (Elt Ideal))
    (r : Fin 8192) : val_main_v45 (F := Ideal) x l (ix1 r) = Cert.Row.lossValid (Cert.Row.normalize (X x)) (L l) r := by
  rw [val_main_v45_apply, v39_eq, v43_eq, Ideal.mulf_def]
  rfl

/-! ## The mean over the kept rows -/

/-- A sum over the indices of a vector is the sum over its rows. -/
theorem sum_idx1 {n : Nat} (f : (⟨1, ![n]⟩ : Shape).Idx → EReal) : ∑ j, f j = ∑ r : Fin n, f (ix1 r) := by
  refine (Fintype.sum_equiv ⟨fun j => j 0, fun r => ix1 r, fun j => (eq_ix1 j).symm, fun _ => rfl⟩ _ _ (fun j => ?_))
  exact congrArg f (eq_ix1 j)

theorem v44_eq (l : (⟨S8192, .i32⟩ : BufTy).Contents (Elt Ideal)) (i : S_.Idx) :
    val_main_v44 (F := Ideal) l i = ∑ r : Fin 8192, Cert.Row.valid (L l) r := by
  rw [val_main_v44_apply, val_main_cst_9_apply, Ideal.ofBits_def, Ideal.ofBits_zero_f32, zero_add, sum_idx1]
  simp only [v43_eq]

theorem v46_eq (x : (⟨S8192x128, .f32⟩ : BufTy).Contents (Elt Ideal)) (l : (⟨S8192, .i32⟩ : BufTy).Contents (Elt Ideal))
    (i : S_.Idx) :
    val_main_v46 (F := Ideal) x l i = ∑ r : Fin 8192, Cert.Row.lossValid (Cert.Row.normalize (X x)) (L l) r := by
  rw [val_main_v46_apply, val_main_cst_10_apply, Ideal.ofBits_def, Ideal.ofBits_zero_f32, zero_add, sum_idx1]
  simp only [v45_eq]

/-- The comparison "greater than zero" selects between two values. -/
theorem select_gt_zero (a u v : EReal) :
    Scalar.select (FloatOps.cmpf (F := Ideal) (φ := .f32) .ogt a (Ideal.ofBits .f32 0x00000000#32)) u v
      = if 0 < a then u else v := by
  rw [Ideal.cmpf_def, Ideal.ofBits_zero_f32]
  unfold Ideal.cmp Scalar.select
  by_cases h : 0 < a <;> simp [h]

/-- The reference's result is the mean of the kept rows' losses. -/
theorem ref_value (x : (⟨S8192x128, .f32⟩ : BufTy).Contents (Elt Ideal)) (l : (⟨S8192, .i32⟩ : BufTy).Contents (Elt Ideal)) :
    val_main_v50 (F := Ideal) x l
      = fun _ => Cert.Row.mean (Cert.Row.lossValid (Cert.Row.normalize (X x)) (L l)) (Cert.Row.valid (L l)) := by
  funext i
  rw [val_main_v50_apply, val_main_v49_apply, v44_eq, val_main_cst_12_apply, Ideal.ofBits_def, select_gt_zero,
    val_main_v48_apply, v46_eq, val_main_v47_apply, v44_eq, val_main_cst_11_apply, val_main_cst_13_apply,
    Ideal.ofBits_def, Ideal.ofBits_def, one_eq, Ideal.ofBits_zero_f32, Ideal.hostDivf_def, Ideal.maximumf_def]
  rfl

/-! ## The run -/

/-- Every weakly fair execution of the reference terminates with its result at the mean of the kept rows' losses of its
    arguments' launch contents, the arguments unchanged. -/
theorem ref_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v50)
          = (fun _ => Cert.Row.mean
              (Cert.Row.lossValid (Cert.Row.normalize (X (m ((c.tc : Thread nD τ).loc main_arg0))))
                (L (m ((c.tc : Thread nD τ).loc main_arg1))))
              (Cert.Row.valid (L (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (Cert.ReferenceIdeal.defs (F := Ideal)) _ _).mono
    (fun _ h c => ⟨(h c).1.trans ((val_main_v50_eq (F := Ideal) m c).trans (ref_value _ _)), (h c).2⟩)
    (Cert.ReferenceIdeal.ValueP.run (F := Ideal) m ρ)

end Cert.Proof.RefSide

end
-- ==== Proof.lean ====
/-
  The certificate of a contrastive loss: a tiled kernel with an online softmax against the plain two-pass reference.

  Every row `r` of the normalised embeddings has a similarity to every row `c` (the inner product times the reciprocal
  of the temperature — the kernel's folded reciprocal named as the exact reciprocal of the reference's divisor); the
  row's loss is `−log (max (pos / max (all, ε), ε))` with `pos` and `all` the sums of `exp (similarity − row maximum)`
  over the row's partners (same label, the row itself left out) and over all other rows, kept only where the row has a
  partner; the result is the mean of the kept losses. The reference takes each row's maximum over all 8192 columns and
  then the sums. The kernel walks the columns in eight blocks of 1024, carrying a running maximum and sums rescaled by
  `exp (old maximum − new maximum)`; over the extended reals, the embeddings being finite, `exp` turns the shift of the
  maximum into that factor exactly, so after the eighth block the carried sums are the reference's. The three frames:
  each program runs to the end without a fault and leaves its arguments as they were — for the kernel, over the run of
  its host operations and its one kernel region, whose two pairs of windows on one array each hold half of it.
-/
import proofs.«145336_j13005160973089_1_alg».proof.Defs
import proofs.«145336_j13005160973089_1_alg».proof.Proof.Gen.Kernel
import proofs.«145336_j13005160973089_1_alg».proof.Proof.Gen.KernelIdeal
import proofs.«145336_j13005160973089_1_alg».proof.Proof.Gen.ReferenceIdeal
import proofs.«145336_j13005160973089_1_alg».proof.Proof.Gen.Pre_finite_inputs
import proofs.«145336_j13005160973089_1_alg».proof.Proof.KBRun
import proofs.«145336_j13005160973089_1_alg».proof.Proof.KBKept
import proofs.«145336_j13005160973089_1_alg».proof.Proof.KIAlg
import proofs.«145336_j13005160973089_1_alg».proof.Proof.RefFrame
import proofs.«145336_j13005160973089_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel's frame: its run, read at the two arguments. -/
theorem frame_p [Cert.Kernel.Facts] [Cert.Pre_finite_inputs.Facts] : Cert.frame_Kernel := fun m ρ _ =>
  (θ_run (Cert.Kernel.defs (F := Bits)) _ _).mono
    (fun r h c => ⟨(h c _ Cert.Kernel.Frame.main_arg0_mem_uc).trans (Cert.Kernel.Frame.kept_arg0 m ρ c),
      (h c _ Cert.Kernel.Frame.main_arg1_mem_uc).trans (Cert.Kernel.Frame.kept_arg1 m ρ c)⟩)
    (Cert.Kernel.Frame.run_main (F := Bits) m ρ)

/-- The idealized kernel's frame, likewise. -/
theorem frame_pi [Cert.KernelIdeal.Facts] [Cert.Pre_finite_inputs.Facts] : Cert.frame_KernelIdeal := fun m ρ _ =>
  (θ_run (Cert.KernelIdeal.defs (F := Ideal)) _ _).mono
    (fun r h c => ⟨(h c _ Cert.KernelIdeal.Frame.main_arg0_mem_uc).trans (Cert.KernelIdeal.Frame.kept_arg0 m ρ c),
      (h c _ Cert.KernelIdeal.Frame.main_arg1_mem_uc).trans (Cert.KernelIdeal.Frame.kept_arg1 m ρ c)⟩)
    (Cert.KernelIdeal.Frame.run_main (F := Ideal) m ρ)

/-- The one rewrite of the idealization: the folded reciprocal of the temperature denotes, at the ideal instance, the exact
    reciprocal of the reference's divisor. -/
theorem preserves : Cert.preserves_Kernel_KernelIdeal :=
  IdealRules.named_const.statement Cert.KernelIdeal.κ "inv_temperature" .f32 0x41200000#32 ((134217728 / 13421773 : ℝ) : EReal) rfl

/-- Both idealized programs, from memories agreeing on the arguments, end with the mean of the rows' kept losses. -/
theorem algebraic [Cert.KernelIdeal.Facts] [Cert.ReferenceIdeal.Facts] [Cert.Pre_finite_inputs.Facts] : Cert.algebraic_KernelIdeal_ReferenceIdeal := by
  intro m ρ m' ρ' hpre hagree
  refine ⟨_, Cert.Proof.KernelSide.kernel_run m ρ hpre, ?_⟩
  refine (θ_run (Cert.ReferenceIdeal.defs (F := Ideal)) _ _).mono (fun _ h c => ⟨(h c).1.trans ?_, (h c).2⟩)
    (Cert.Proof.RefSide.ref_run m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_p, frame_pi, Cert.Proof.RefSide.frame_ri, preserves, algebraic⟩

end Cert.Proof

end
